-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩
abbrev S8192x1024 : Shape := ⟨2, ![8192, 1024]⟩
abbrev S1x1024 : Shape := ⟨2, ![1, 1024]⟩
abbrev S512x1024 : Shape := ⟨2, ![512, 1024]⟩
abbrev S4x2048x16x64 : Shape := ⟨4, ![4, 2048, 16, 64]⟩
abbrev S4x16x2048x64 : Shape := ⟨4, ![4, 16, 2048, 64]⟩
abbrev S64x2048x64 : Shape := ⟨3, ![64, 2048, 64]⟩
abbrev S1x2048x64 : Shape := ⟨3, ![1, 2048, 64]⟩
abbrev S1x256x64 : Shape := ⟨3, ![1, 256, 64]⟩
abbrev S2048x1 : Shape := ⟨2, ![2048, 1]⟩
abbrev S2048x64 : Shape := ⟨2, ![2048, 64]⟩
abbrev S256x64 : Shape := ⟨2, ![256, 64]⟩
abbrev S64x256 : Shape := ⟨2, ![64, 256]⟩
abbrev S2048x256 : Shape := ⟨2, ![2048, 256]⟩
abbrev S2048 : Shape := ⟨1, ![2048]⟩

abbrev nBuf : Space → Nat
  | .hbm => 51
  | .vmem => 35
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .bf16⟩
  | .hbm, ⟨25, _⟩ => ⟨S8192x1024, .f32⟩
  | .hbm, ⟨26, _⟩ => ⟨S1x1024, .f32⟩
  | .hbm, ⟨27, _⟩ => ⟨S8192x1024, .bf16⟩
  | .hbm, ⟨28, _⟩ => ⟨S4x2048x16x64, .bf16⟩
  | .hbm, ⟨29, _⟩ => ⟨S4x16x2048x64, .bf16⟩
  | .hbm, ⟨30, _⟩ => ⟨S64x2048x64, .bf16⟩
  | .hbm, ⟨31, _⟩ => ⟨S8192x1024, .f32⟩
  | .hbm, ⟨32, _⟩ => ⟨S1x1024, .f32⟩
  | .hbm, ⟨33, _⟩ => ⟨S8192x1024, .bf16⟩
  | .hbm, ⟨34, _⟩ => ⟨S4x2048x16x64, .bf16⟩
  | .hbm, ⟨35, _⟩ => ⟨S4x16x2048x64, .bf16⟩
  | .hbm, ⟨36, _⟩ => ⟨S64x2048x64, .bf16⟩
  | .hbm, ⟨37, _⟩ => ⟨S8192x1024, .f32⟩
  | .hbm, ⟨38, _⟩ => ⟨S1x1024, .f32⟩
  | .hbm, ⟨39, _⟩ => ⟨S8192x1024, .bf16⟩
  | .hbm, ⟨40, _⟩ => ⟨S4x2048x16x64, .bf16⟩
  | .hbm, ⟨41, _⟩ => ⟨S4x16x2048x64, .bf16⟩
  | .hbm, ⟨42, _⟩ => ⟨S64x2048x64, .bf16⟩
  | .hbm, ⟨43, _⟩ => ⟨S64x2048x64, .bf16⟩
  | .hbm, ⟨44, _⟩ => ⟨S4x16x2048x64, .bf16⟩
  | .hbm, ⟨45, _⟩ => ⟨S4x2048x16x64, .bf16⟩
  | .hbm, ⟨46, _⟩ => ⟨S4x2048x1024, .bf16⟩
  | .hbm, ⟨47, _⟩ => ⟨S8192x1024, .bf16⟩
  | .hbm, ⟨48, _⟩ => ⟨S1x1024, .f32⟩
  | .hbm, ⟨49, _⟩ => ⟨S8192x1024, .f32⟩
  | .hbm, ⟨50, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S1x2048x64, .bf16⟩
  | .local _ .vmem, ⟨19, _⟩ => ⟨S1x2048x64, .bf16⟩
  | .local _ .vmem, ⟨20, _⟩ => ⟨S1x256x64, .bf16⟩
  | .local _ .vmem, ⟨21, _⟩ => ⟨S1x256x64, .bf16⟩
  | .local _ .vmem, ⟨22, _⟩ => ⟨S1x256x64, .bf16⟩
  | .local _ .vmem, ⟨23, _⟩ => ⟨S1x256x64, .bf16⟩
  | .local _ .vmem, ⟨24, _⟩ => ⟨S1x2048x64, .bf16⟩
  | .local _ .vmem, ⟨25, _⟩ => ⟨S1x2048x64, .bf16⟩
  | .local _ .vmem, ⟨26, _⟩ => ⟨S2048x1, .f32⟩
  | .local _ .vmem, ⟨27, _⟩ => ⟨S2048x1, .f32⟩
  | .local _ .vmem, ⟨28, _⟩ => ⟨S2048x64, .f32⟩
  | .local _ .vmem, ⟨29, _⟩ => ⟨S512x1024, .bf16⟩
  | .local _ .vmem, ⟨30, _⟩ => ⟨S512x1024, .bf16⟩
  | .local _ .vmem, ⟨31, _⟩ => ⟨S1024x1024, .bf16⟩
  | .local _ .vmem, ⟨32, _⟩ => ⟨S1x1024, .f32⟩
  | .local _ .vmem, ⟨33, _⟩ => ⟨S512x1024, .f32⟩
  | .local _ .vmem, ⟨34, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_scratch0 : Ref sig .tc := ⟨.vmem, 26, rfl⟩
abbrev cc3_scratch1 : Ref sig .tc := ⟨.vmem, 27, rfl⟩
abbrev cc3_scratch2 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![64, 8], ![false, false]⟩

def k3_cond2 (i : grid3.Coords) : BitVec 1 :=
  let arg1 : BitVec 32 := BitVec.ofNat 32 (i 1).val
  let c7_i32 : BitVec 32 := 7#32
  let v41 : BitVec 1 := Scalar.cmpi .eq arg1 c7_i32
  let v42 : BitVec 32 := Scalar.extui v41
  let c0_i32_26 : BitVec 32 := 0#32
  let v43 : BitVec 1 := Scalar.cmpi .ne v42 c0_i32_26
  v43

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x2048x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x256x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x256x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x2048x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S1024x1024 : S_.BroadcastsInDim S1024x1024 (![] : Fin 0 → Fin S1024x1024.rank)
  bcast_S_S1024 : S_.BroadcastsInDim S1024 (![] : Fin 0 → Fin S1024.rank)
  transposes_S1024x1024_S1024x1024_1_0 : S1024x1024.Transposes [1, 0] S1024x1024
  bitsLt_bf16_f32 : FTy.bits .bf16 < FTy.bits .f32
  shapeCasts_S4x2048x1024_S8192x1024 : S4x2048x1024.ShapeCasts S8192x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S4x2048x16x64 : S8192x1024.ShapeCasts S4x2048x16x64
  transposes_S4x2048x16x64_S4x16x2048x64_0_2_1_3 : S4x2048x16x64.Transposes [0, 2, 1, 3] S4x16x2048x64
  shapeCasts_S4x16x2048x64_S64x2048x64 : S4x16x2048x64.ShapeCasts S64x2048x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  transposes_S256x64_p1_0_S64x256 : S256x64.Transposes [1, 0] S64x256
  reduces_S2048x256_S2048 : S2048x256.Reduces [1] S2048
  shapeCasts_S2048_S2048x1 : S2048.ShapeCasts S2048x1
  broadcasts_S2048x1_S2048x256 : S2048x1.Broadcasts S2048x256
  broadcasts_S2048x1_S2048x64 : S2048x1.Broadcasts S2048x64
  shapeCasts_S2048x64_S1x2048x64 : S2048x64.ShapeCasts S1x2048x64
  packedbf16_S1x2048x64_S1x2048x64_0_0_0 : (Rect.unit (s := S1x2048x64) ![0, 0, 0] S1x2048x64.size inb_S1x2048x64_S1x2048x64_0_0_0).PackedRows (EltTy.packing .bf16)
  shapeCasts_S64x2048x64_S4x16x2048x64 : S64x2048x64.ShapeCasts S4x16x2048x64
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  shapeCasts_S8192x1024_S4x2048x1024 : S8192x1024.ShapeCasts S4x2048x1024
  dot_S512x1024_S1024x1024_S512x1024_1_0_0_1_n_n_wf : DotDims.WF S512x1024 S1024x1024 S512x1024 [1] [0] [0] [1] [] []
  dot_S2048x64_S64x256_S2048x256_1_0_0_1_n_n_wf : DotDims.WF S2048x64 S64x256 S2048x256 [1] [0] [0] [1] [] []
  dot_S2048x256_S256x64_S2048x64_1_0_0_1_n_n_wf : DotDims.WF S2048x256 S256x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x1024.size a
  hwx1_3 : ∀ i : grid1.Coords, EltTy.bits .bf16 = 32 ∨ (Rect.block (s := S8192x1024) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .f32 = 32 ∨ (Rect.block (s := S8192x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .bf16 = 32 ∨ (Rect.block (s := S8192x1024) S512x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x2048x64.size a ≤ S64x2048x64.size a
  hwx3_0 : ∀ i : grid3.Coords, EltTy.bits .bf16 = 32 ∨ (Rect.block (s := S64x2048x64) S1x2048x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x256x64.size a ≤ S64x2048x64.size a
  hwx3_1 : ∀ i : grid3.Coords, EltTy.bits .bf16 = 32 ∨ (Rect.block (s := S64x2048x64) S1x256x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x256x64.size a ≤ S64x2048x64.size a
  hwx3_2 : ∀ i : grid3.Coords, EltTy.bits .bf16 = 32 ∨ (Rect.block (s := S64x2048x64) S1x256x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x2048x64.size a ≤ S64x2048x64.size a
  hwx3_3 : ∀ i : grid3.Coords, EltTy.bits .bf16 = 32 ∨ (Rect.block (s := S64x2048x64) S1x2048x64.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S8192x1024.size a
  hwx4_0 : ∀ i : grid4.Coords, EltTy.bits .bf16 = 32 ∨ (Rect.block (s := S8192x1024) S512x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S8192x1024.size a
  hwx4_3 : ∀ i : grid4.Coords, EltTy.bits .f32 = 32 ∨ (Rect.block (s := S8192x1024) S512x1024.size (cc4_transform_3 i) (hinb4_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf

abbrev win0_0 : Pipeline.Window sig grid0 :=
  Pipeline.Window.ofSpec (Memref.whole main_v12) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v24) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v17) S1x2048x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S1x256x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S1x256x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v30) S1x2048x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v34) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v11) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v35) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v36) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x16x64, .f32⟩
  | .hbm, ⟨16, _⟩ => ⟨S4x16x2048x64, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x16x64, .f32⟩
  | .hbm, ⟨22, _⟩ => ⟨S4x16x2048x64, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x2048x16x64, .f32⟩
  | .hbm, ⟨28, _⟩ => ⟨S4x16x2048x64, .f32⟩
  | .hbm, ⟨29, _⟩ => ⟨S4x16x2048x2048, .f32⟩
  | .hbm, ⟨30, _⟩ => ⟨S_, .f32⟩
  | .hbm, ⟨31, _⟩ => ⟨S4x16x2048x2048, .f32⟩
  | .hbm, ⟨32, _⟩ => ⟨S4x16x2048x2048, .f32⟩
  | .hbm, ⟨33, _⟩ => ⟨S_, .f32⟩
  | .hbm, ⟨34, _⟩ => ⟨S4x16x2048, .f32⟩
  | .hbm, ⟨35, _⟩ => ⟨S_, .f32⟩
  | .hbm, ⟨36, _⟩ => ⟨S4x16x2048, .f32⟩
  | .hbm, ⟨37, _⟩ => ⟨S4x16x2048, .f32⟩
  | .hbm, ⟨38, _⟩ => ⟨S4x16x2048x1, .f32⟩
  | .hbm, ⟨39, _⟩ => ⟨S4x16x2048x2048, .f32⟩
  | .hbm, ⟨40, _⟩ => ⟨S4x16x2048x2048, .f32⟩
  | .hbm, ⟨41, _⟩ => ⟨S4x16x2048x2048, .f32⟩
  | .hbm, ⟨42, _⟩ => ⟨S_, .f32⟩
  | .hbm, ⟨43, _⟩ => ⟨S4x16x2048, .f32⟩
  | .hbm, ⟨44, _⟩ => ⟨S4x16x2048x1, .f32⟩
  | .hbm, ⟨45, _⟩ => ⟨S4x16x2048x2048, .f32⟩
  | .hbm, ⟨46, _⟩ => ⟨S4x16x2048x2048, .f32⟩
  | .hbm, ⟨47, _⟩ => ⟨S4x16x2048x64, .f32⟩
  | .hbm, ⟨48, _⟩ => ⟨S4x2048x16x64, .f32⟩
  | .hbm, ⟨49, _⟩ => ⟨S4x2048x1024, .f32⟩
  | .hbm, ⟨50, _⟩ => ⟨S4x2048x1024, .f32⟩
  | .hbm, ⟨51, _⟩ => ⟨S1x1x1024, .f32⟩
  | .hbm, ⟨52, _⟩ => ⟨S4x2048x1024, .f32⟩
  | .hbm, ⟨53, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Kernel.Region0.lean ====
/-
  Region 0 of the program (a row-block matrix product with a bias): one grid point per block of 512 rows.  The body
  reads the point's 512×1024 block of the activations, the whole 1024×1024 weight and the 1×1024 bias, and stores one
  512×1024 block: the product of the block with the weight plus the bias row.  Stated at a parameter `V`, the contents
  the region finds in the arrays: what each window's block is at a point, what the body leaves in the output's buffer
  as a function of the three input blocks, the body's triple, the pipeline's proof data and the body obligation at
  every point.  Nothing here reads a number; the same text holds at every float instance.
-/
import proofs.«137242_j37349035606739_2_alg».proof.Proof.Gen.Kernel.Launch
import proofs.«137242_j37349035606739_2_alg».proof.Proof.Gen.Kernel.Skeleton
import proofs.«137242_j37349035606739_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or an
    earlier one did (the index has not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each buffer whole. -/
abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0

/-- The output's buffer after the body: its one store, of the product-plus-bias of the three input blocks. -/
def out0_3 (x0 : Vec F S512x1024 .f32) (x1 : Vec F S1024x1024 .bf16) (x2 : Vec F S1x1024 .f32) : Vec F S512x1024 .bf16 :=
  View.canon [⟨r0_0, k0_pay1 (View.ld x0 r0_0) (View.ld x1 r0_1) (View.ld x2 r0_2)⟩]

/-- The one store covers the buffer. -/
theorem cover0_3 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

set_option maxHeartbeats 1000000 in
/-- The body on whole staging buffers, the inputs' at read contents and the output's at anything, runs to the
    continuation holding the inputs' as they were and the output's at `out0_3` of the inputs'. -/
theorem sound_kernel0 (c : Dev nD) (E : Set ℕ) (i : grid0.Coords) (arg0 : Memref sig .tc .vmem S512x1024 .f32) (harg0 : arg0.IsWhole) (arg1 : Memref sig .tc .vmem S1024x1024 .bf16) (harg1 : arg1.IsWhole) (arg2 : Memref sig .tc .vmem S1x1024 .f32) (harg2 : arg2.IsWhole) (arg3 : Memref sig .tc .vmem S512x1024 .bf16) (harg3 : arg3.IsWhole)
    (x0 : Vec F S512x1024 .f32) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__matmul_bias_kernel i arg0 harg0 arg1 harg1 arg2 harg2 arg3 harg3) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each
    input's buffer at its block and the output's at `out0_3` of the input blocks; the invariant keeps the scoped
    rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.Kernel.Region1.lean ====
/-
  Region 1 of the program (a row-block matrix product with a bias): one grid point per block of 512 rows.  The body
  reads the point's 512×1024 block of the activations, the whole 1024×1024 weight and the 1×1024 bias, and stores one
  512×1024 block: the product of the block with the weight plus the bias row.  Stated at a parameter `V`, the contents
  the region finds in the arrays: what each window's block is at a point, what the body leaves in the output's buffer
  as a function of the three input blocks, the body's triple, the pipeline's proof data and the body obligation at
  every point.  Nothing here reads a number; the same text holds at every float instance.
-/
import proofs.«137242_j37349035606739_2_alg».proof.Proof.Gen.Kernel.Launch
import proofs.«137242_j37349035606739_2_alg».proof.Proof.Gen.Kernel.Skeleton
import proofs.«137242_j37349035606739_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or an
    earlier one did (the index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each buffer whole. -/
abbrev r1_0 : Rect S512x1024 := Rect.unit (s := S512x1024) ![0, 0] S512x1024.size inb_S512x1024_S512x1024_0_0
abbrev r1_1 : Rect S1024x1024 := Rect.unit (s := S1024x1024) ![0, 0] S1024x1024.size inb_S1024x1024_S1024x1024_0_0
abbrev r1_2 : Rect S1x1024 := Rect.unit (s := S1x1024) ![0, 0] S1x1024.size inb_S1x1024_S1x1024_0_0

/-- The output's buffer after the body: its one store, of the product-plus-bias of the three input blocks. -/
def out1_3 (x0 : Vec F S512x1024 .f32) (x1 : Vec F S1024x1024 .bf16) (x2 : Vec F S1x1024 .f32) : Vec F S512x1024 .bf16 :=
  View.canon [⟨r1_0, k1_pay1 (View.ld x0 r1_0) (View.ld x1 r1_1) (View.ld x2 r1_2)⟩]

/-- The one store covers the buffer. -/
theorem cover1_3 (p0 : Vec F S512x1024 .bf16) (y : S512x1024.Idx) :
    ∃ pc ∈ ([⟨r1_0, p0⟩] : List (View.Piece (Elt F) S512x1024 .bf16)), y ∈ pc.1.set :=
  View.cover_of_tiled [⟨r1_0, p0⟩] S512x1024.size (by rfl) y

set_option maxHeartbeats 1000000 in
/-- The body on whole staging buffers, the inputs' at read contents and the output's at anything, runs to the
    continuation holding the inputs' as they were and the output's at `out1_3` of the inputs'. -/
theorem sound_kernel1 (c : Dev nD) (E : Set ℕ) (i : grid1.Coords) (arg0 : Memref sig .tc .vmem S512x1024 .f32) (harg0 : arg0.IsWhole) (arg1 : Memref sig .tc .vmem S1024x1024 .bf16) (harg1 : arg1.IsWhole) (arg2 : Memref sig .tc .vmem S1x1024 .f32) (harg2 : arg2.IsWhole) (arg3 : Memref sig .tc .vmem S512x1024 .bf16) (harg3 : arg3.IsWhole)
    (x0 : Vec F S512x1024 .f32) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__matmul_bias_kernel i arg0 harg0 arg1 harg1 arg2 harg2 arg3 harg3) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each
    input's buffer at its block and the output's at `out1_3` of the input blocks; the invariant keeps the scoped
    rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.Kernel.Region2.lean ====
/-
  Region 2 of the program (a row-block matrix product with a bias): one grid point per block of 512 rows.  The body
  reads the point's 512×1024 block of the activations, the whole 1024×1024 weight and the 1×1024 bias, and stores one
  512×1024 block: the product of the block with the weight plus the bias row.  Stated at a parameter `V`, the contents
  the region finds in the arrays: what each window's block is at a point, what the body leaves in the output's buffer
  as a function of the three input blocks, the body's triple, the pipeline's proof data and the body obligation at
  every point.  Nothing here reads a number; the same text holds at every float instance.
-/
import proofs.«137242_j37349035606739_2_alg».proof.Proof.Gen.Kernel.Launch
import proofs.«137242_j37349035606739_2_alg».proof.Proof.Gen.Kernel.Skeleton
import proofs.«137242_j37349035606739_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the point fetched it or an
    earlier one did (the index has not moved since). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: each buffer whole. -/
abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0

/-- The output's buffer after the body: its one store, of the product-plus-bias of the three input blocks. -/
def out2_3 (x0 : Vec F S512x1024 .f32) (x1 : Vec F S1024x1024 .bf16) (x2 : Vec F S1x1024 .f32) : Vec F S512x1024 .bf16 :=
  View.canon [⟨r2_0, k2_pay1 (View.ld x0 r2_0) (View.ld x1 r2_1) (View.ld x2 r2_2)⟩]

/-- The one store covers the buffer. -/
theorem cover2_3 (p0 : Vec F S512x1024 .bf16) (y : S512x1024.Idx) :
    ∃ pc ∈ ([⟨r2_0, p0⟩] : List (View.Piece (Elt F) S512x1024 .bf16)), y ∈ pc.1.set :=
  View.cover_of_tiled [⟨r2_0, p0⟩] S512x1024.size (by rfl) y

set_option maxHeartbeats 1000000 in
/-- The body on whole staging buffers, the inputs' at read contents and the output's at anything, runs to the
    continuation holding the inputs' as they were and the output's at `out2_3` of the inputs'. -/
theorem sound_kernel2 (c : Dev nD) (E : Set ℕ) (i : grid2.Coords) (arg0 : Memref sig .tc .vmem S512x1024 .f32) (harg0 : arg0.IsWhole) (arg1 : Memref sig .tc .vmem S1024x1024 .bf16) (harg1 : arg1.IsWhole) (arg2 : Memref sig .tc .vmem S1x1024 .f32) (harg2 : arg2.IsWhole) (arg3 : Memref sig .tc .vmem S512x1024 .bf16) (harg3 : arg3.IsWhole)
    (x0 : Vec F S512x1024 .f32) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__matmul_bias_kernel i arg0 harg0 arg1 harg1 arg2 harg2 arg3 harg3) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each
    input's buffer at its block and the output's at `out2_3` of the input blocks; the invariant keeps the scoped
    rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.Kernel.Region3.Base.lean ====
/-
  Region 3 of the program (attention in its running form): a grid of 64 heads by 8 key blocks, the key-block axis
  innermost.  At a head's first key block the body resets three scratch buffers — the running row maximum, the running
  normaliser and the running weighted sum — and at every block it folds the block's scores into them; only at the
  head's last key block does it divide the weighted sum by the normaliser and store the head's 2048×64 block, so the
  output window is idle (neither stored nor written back) at the other seven.  Here: what everything about this region
  is stated over, at a parameter `V` (the contents the region finds in the arrays) — the windows' blocks, the two
  branch conditions in closed form over the 512 points, where the output window is idle, the scratch buffers, and
  the region's invariant split at the three scratch buffers.
-/
import proofs.«137242_j37349035606739_2_alg».proof.Proof.Gen.Kernel.Launch
import proofs.«137242_j37349035606739_2_alg».proof.Proof.Gen.Kernel.Skeleton
import proofs.«137242_j37349035606739_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether the point fetched it or an
    earlier one did (the index has not moved since). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions, from the grid coordinates -/

/-- "This is the head's first key block": the body's first test, on the key-block coordinate. -/
abbrev cond3_0 (i : grid3.Coords) : Prop := (Scalar.cmpi .ne (Scalar.extui (Scalar.cmpi .eq (BitVec.ofNat 32 (i 1).val) 0#32)) 0#32) = 1#1
/-- It holds at the points whose position is a multiple of 8. -/
theorem hcond3_0 : ∀ t : Fin cfg3.N, cond3_0 (grid3.coords t) ↔ t.val % 8 = 0 :=
  (by decide +kernel : ∀ t : Fin grid3.N, cond3_0 (grid3.coords t) ↔ t.val % 8 = 0)

/-- "This is the head's last key block": the body's second test. -/
abbrev cond3_2 (i : grid3.Coords) : Prop := k3_cond2 i = 1#1
/-- It holds at the points whose position is 7 modulo 8. -/
theorem hcond3_2 : ∀ t : Fin cfg3.N, cond3_2 (grid3.coords t) ↔ t.val % 8 = 7 :=
  (by decide +kernel : ∀ t : Fin grid3.N, cond3_2 (grid3.coords t) ↔ t.val % 8 = 7)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from a head's last key block the output window is idle and not written back. -/
theorem idleAt3_3 : ∀ t : Fin cfg3.N, ¬cond3_2 (grid3.coords t) → cfg3.idle 3 (grid3.coords t) = true := by decide +kernel
theorem noFlush3_3 : ∀ t : Fin cfg3.N, ¬cond3_2 (grid3.coords t) → (cfg3.win 3).flush t = false := by decide +kernel
/-- At a head's last key block it is live. -/
theorem liveAt3_3 : ∀ t : Fin cfg3.N, cond3_2 (grid3.coords t) → cfg3.idle 3 (grid3.coords t) = false := by decide +kernel

/-! ## The staging and scratch buffers -/

/-- One staging buffer of the output window, through which its contents are stated. -/
abbrev VO3_3 : View sig .tc .vmem S1x2048x64 .bf16 := (Memref.whole cc3_stg3_0 : Memref sig .tc .vmem S1x2048x64 .bf16).view
abbrev ms3_0 (t : Fin cfg3.N) : Memref sig .tc .vmem S1x2048x64 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x256x64 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x256x64 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x2048x64 .bf16 := win3_3.stage (cfg3.slots t 3)
abbrev hs3_3 (t : Fin cfg3.N) : (ms3_3 t).IsWhole := hstage3_3 ((cfg3.slots t 3).cast nbuf3_3)
/-- The three scratch buffers: the running maximum, the running normaliser, the running weighted sum. -/
abbrev scM3_0 : Memref sig .tc .vmem S2048x1 .f32 := Memref.whole cc3_scratch0
abbrev scM3_1 : Memref sig .tc .vmem S2048x1 .f32 := Memref.whole cc3_scratch1
abbrev scM3_2 : Memref sig .tc .vmem S2048x64 .f32 := Memref.whole cc3_scratch2
abbrev VS3_0 : View sig .tc .vmem S2048x1 .f32 := scM3_0.view
abbrev VS3_1 : View sig .tc .vmem S2048x1 .f32 := scM3_1.view
abbrev VS3_2 : View sig .tc .vmem S2048x64 .f32 := scM3_2.view

/-- Every scoped buffer the region neither stages nor uses as scratch, unopened. -/
abbrev restBut3 (c : Dev nD) : sProp 𝕄 :=
  Pipeline.scopedRestBut (Ix := Unit) (Name := ℕ) (U := UR sig nD τ) (Lvl := ℕ) (Val := Elt F) spec3 c [cc3_scratch0, cc3_scratch1, cc3_scratch2]

/-- The region's invariant with nothing known of the scratch: the three scratch buffers each at some contents, the
    other scoped buffers unopened, the generator register at some state. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d)) ∗ restBut3 c) ∗ (∃ r, prngReg c r)) := by
  unfold Pipeline.ΦA; rw [scopedRest3_split]; simp only [scM3_0, scM3_1, scM3_2, owns_whole]; try rfl

end Cert.Kernel.Fr

end
-- ==== Proof.Kernel.Region3.RunA.lean ====
/-
  Region 3, the body at a head's FIRST key block (the scratch reset before it is read, so it may hold anything; the output window idle and handed back untouched): the lists of pieces its stores leave in each scratch buffer, last first, together with the body's triple on whole buffers — the
  inputs' at their contents and handed back as they were.
-/
import proofs.«137242_j37349035606739_2_alg».proof.Proof.Kernel.Region3.Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun3_A (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : cond3_0 i) (hc2 : ¬cond3_2 i)
    (x0 : Vec F S1x2048x64 .bf16) (x1 : Vec F S1x256x64 .bf16) (x2 : Vec F S1x256x64 .bf16) :
    Σ' (LS0 : List (View.Piece (Elt F) S2048x1 .f32)) (LS1 : List (View.Piece (Elt F) S2048x1 .f32)), { LS2 : List (View.Piece (Elt F) S2048x64 .f32) //
      ∀ (xi3 : Vec F S1x2048x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc3__flash_attn_kernel i arg2 harg2 arg3 harg3 arg4 harg4 arg5 harg5 arg6 harg6 arg7 harg7 arg8 harg8) K } := by
  refine ⟨?_, ?_, ?_, fun xi3 E K => ?run⟩
  case run =>
    simp only [cc3__flash_attn_kernel_eq_skeleton]; unfold cc3__flash_attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %fs0, -, HS0⟩, ⟨%d5, %fs1, -, HS1⟩, ⟨%d6, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Fr

end
-- ==== Proof.Kernel.Region3.RunB.lean ====
/-
  Region 3, the body at a key block that is neither a head's first nor its last (the scratch at what the block before left; the output window idle and handed back untouched): the lists of pieces its stores leave in each scratch buffer, last first, together with the body's triple on whole buffers — the
  inputs' at their contents and handed back as they were.
-/
import proofs.«137242_j37349035606739_2_alg».proof.Proof.Kernel.Region3.Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun3_B (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : ¬cond3_2 i)
    (x0 : Vec F S1x2048x64 .bf16) (x1 : Vec F S1x256x64 .bf16) (x2 : Vec F S1x256x64 .bf16) (xs0 : Vec F S2048x1 .f32) (xs1 : Vec F S2048x1 .f32) (xs2 : Vec F S2048x64 .f32) :
    Σ' (LS0 : List (View.Piece (Elt F) S2048x1 .f32)) (LS1 : List (View.Piece (Elt F) S2048x1 .f32)), { LS2 : List (View.Piece (Elt F) S2048x64 .f32) //
      ∀ (xi3 : Vec F S1x2048x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc3__flash_attn_kernel i arg2 harg2 arg3 harg3 arg4 harg4 arg5 harg5 arg6 harg6 arg7 harg7 arg8 harg8) K } := by
  refine ⟨?_, ?_, ?_, fun xi3 E K => ?run⟩
  case run =>
    simp only [cc3__flash_attn_kernel_eq_skeleton]; unfold cc3__flash_attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Fr

end
-- ==== Proof.Kernel.Region3.RunC.lean ====
/-
  Region 3, the body at a head's LAST key block (the scratch at what the block before left; the output's buffer at anything, stored whole): the lists of pieces its stores leave in each scratch buffer and in the output's buffer, last first, together with the body's triple on whole buffers — the
  inputs' at their contents and handed back as they were.
-/
import proofs.«137242_j37349035606739_2_alg».proof.Proof.Kernel.Region3.Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun3_C (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : cond3_2 i)
    (x0 : Vec F S1x2048x64 .bf16) (x1 : Vec F S1x256x64 .bf16) (x2 : Vec F S1x256x64 .bf16) (xs0 : Vec F S2048x1 .f32) (xs1 : Vec F S2048x1 .f32) (xs2 : Vec F S2048x64 .f32) :
    Σ' (L3 : List (View.Piece (Elt F) S1x2048x64 .bf16)) (LS0 : List (View.Piece (Elt F) S2048x1 .f32)) (LS1 : List (View.Piece (Elt F) S2048x1 .f32)), { LS2 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc3__flash_attn_kernel i arg2 harg2 arg3 harg3 arg4 harg4 arg5 harg5 arg6 harg6 arg7 harg7 arg8 harg8) K } := by
  refine ⟨?_, ?_, ?_, ?_, fun E K => ?run⟩
  case run =>
    simp only [cc3__flash_attn_kernel_eq_skeleton]; unfold cc3__flash_attn_kernel_skel
    simp only [k3_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Fr

end
-- ==== Proof.Kernel.Region3.lean ====
/-
  Region 3 (attention in its running form), the rest of its frame at a parameter `V`: what each of the body's three
  cases leaves in the three scratch buffers and, at a head's last key block, in the output's buffer; what they hold
  point by point (`outsAt3`: a head's first key block starts afresh, every other block continues from what the block
  before left); the region's invariant, which carries the scratch contents from a point to the next; the proof data;
  and the body obligation at every point, by cases on the point's position modulo 8.
-/
import proofs.«137242_j37349035606739_2_alg».proof.Proof.Kernel.Region3.RunA
import proofs.«137242_j37349035606739_2_alg».proof.Proof.Kernel.Region3.RunB
import proofs.«137242_j37349035606739_2_alg».proof.Proof.Kernel.Region3.RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What stands for the output's buffer where the window is idle: nothing consults it (the window is neither written
    back there nor read at the next point). -/
def outIdle3 : Vec F S1x2048x64 .bf16 := VO3_3.read (Elt F) (VO3_3.writes (Elt F) VO3_3.junk [])

theorem scover3_A_0 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : cond3_0 i) (hc2 : ¬cond3_2 i) (x0 : Vec F S1x2048x64 .bf16) (x1 : Vec F S1x256x64 .bf16) (x2 : Vec F S1x256x64 .bf16) (y : S2048x1.Idx) :
    ∃ pc ∈ (kernelRun3_A c i arg2 harg2 arg3 harg3 arg4 harg4 arg5 harg5 arg6 harg6 arg7 harg7 arg8 harg8 hc0 hc2 x0 x1 x2).1, y ∈ pc.1.set :=
  View.cover_of_tiledL (kernelRun3_A c i arg2 harg2 arg3 harg3 arg4 harg4 arg5 harg5 arg6 harg6 arg7 harg7 arg8 harg8 hc0 hc2 x0 x1 x2).1 S2048x1.size (by sl_kernel_rfl) y
def sout3_A_0 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : cond3_0 i) (hc2 : ¬cond3_2 i) (x0 : Vec F S1x2048x64 .bf16) (x1 : Vec F S1x256x64 .bf16) (x2 : Vec F S1x256x64 .bf16) : Vec F S2048x1 .f32 :=
  VS3_0.read (Elt F) (VS3_0.writes (Elt F) VS3_0.junk (kernelRun3_A c i arg2 harg2 arg3 harg3 arg4 harg4 arg5 harg5 arg6 harg6 arg7 harg7 arg8 harg8 hc0 hc2 x0 x1 x2).1)

theorem scover3_A_1 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : cond3_0 i) (hc2 : ¬cond3_2 i) (x0 : Vec F S1x2048x64 .bf16) (x1 : Vec F S1x256x64 .bf16) (x2 : Vec F S1x256x64 .bf16) (y : S2048x1.Idx) :
    ∃ pc ∈ (kernelRun3_A c i arg2 harg2 arg3 harg3 arg4 harg4 arg5 harg5 arg6 harg6 arg7 harg7 arg8 harg8 hc0 hc2 x0 x1 x2).2.1, y ∈ pc.1.set :=
  View.cover_of_tiledL (kernelRun3_A c i arg2 harg2 arg3 harg3 arg4 harg4 arg5 harg5 arg6 harg6 arg7 harg7 arg8 harg8 hc0 hc2 x0 x1 x2).2.1 S2048x1.size (by sl_kernel_rfl) y
def sout3_A_1 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : cond3_0 i) (hc2 : ¬cond3_2 i) (x0 : Vec F S1x2048x64 .bf16) (x1 : Vec F S1x256x64 .bf16) (x2 : Vec F S1x256x64 .bf16) : Vec F S2048x1 .f32 :=
  VS3_1.read (Elt F) (VS3_1.writes (Elt F) VS3_1.junk (kernelRun3_A c i arg2 harg2 arg3 harg3 arg4 harg4 arg5 harg5 arg6 harg6 arg7 harg7 arg8 harg8 hc0 hc2 x0 x1 x2).2.1)

theorem scover3_A_2 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : cond3_0 i) (hc2 : ¬cond3_2 i) (x0 : Vec F S1x2048x64 .bf16) (x1 : Vec F S1x256x64 .bf16) (x2 : Vec F S1x256x64 .bf16) (y : S2048x64.Idx) :
    ∃ pc ∈ (kernelRun3_A c i arg2 harg2 arg3 harg3 arg4 harg4 arg5 harg5 arg6 harg6 arg7 harg7 arg8 harg8 hc0 hc2 x0 x1 x2).2.2.1, y ∈ pc.1.set :=
  View.cover_of_tiledL (kernelRun3_A c i arg2 harg2 arg3 harg3 arg4 harg4 arg5 harg5 arg6 harg6 arg7 harg7 arg8 harg8 hc0 hc2 x0 x1 x2).2.2.1 S2048x64.size (by sl_kernel_rfl) y
def sout3_A_2 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : cond3_0 i) (hc2 : ¬cond3_2 i) (x0 : Vec F S1x2048x64 .bf16) (x1 : Vec F S1x256x64 .bf16) (x2 : Vec F S1x256x64 .bf16) : Vec F S2048x64 .f32 :=
  VS3_2.read (Elt F) (VS3_2.writes (Elt F) VS3_2.junk (kernelRun3_A c i arg2 harg2 arg3 harg3 arg4 harg4 arg5 harg5 arg6 harg6 arg7 harg7 arg8 harg8 hc0 hc2 x0 x1 x2).2.2.1)

theorem scover3_B_0 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : ¬cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) (y : S2048x1.Idx) :
    ∃ pc ∈ (kernelRun3_B c i arg2 harg2 arg3 harg3 arg4 harg4 arg5 harg5 arg6 harg6 arg7 harg7 arg8 harg8 hc0 hc2 x0 x1 x2 xs0 xs1 xs2).1, y ∈ pc.1.set :=
  View.cover_of_tiledL (kernelRun3_B c i arg2 harg2 arg3 harg3 arg4 harg4 arg5 harg5 arg6 harg6 arg7 harg7 arg8 harg8 hc0 hc2 x0 x1 x2 xs0 xs1 xs2).1 S2048x1.size (by sl_kernel_rfl) y
def sout3_B_0 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : ¬cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) : Vec F S2048x1 .f32 :=
  VS3_0.read (Elt F) (VS3_0.writes (Elt F) VS3_0.junk (kernelRun3_B c i arg2 harg2 arg3 harg3 arg4 harg4 arg5 harg5 arg6 harg6 arg7 harg7 arg8 harg8 hc0 hc2 x0 x1 x2 xs0 xs1 xs2).1)

theorem scover3_B_1 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : ¬cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) (y : S2048x1.Idx) :
    ∃ pc ∈ (kernelRun3_B c i arg2 harg2 arg3 harg3 arg4 harg4 arg5 harg5 arg6 harg6 arg7 harg7 arg8 harg8 hc0 hc2 x0 x1 x2 xs0 xs1 xs2).2.1, y ∈ pc.1.set :=
  View.cover_of_tiledL (kernelRun3_B c i arg2 harg2 arg3 harg3 arg4 harg4 arg5 harg5 arg6 harg6 arg7 harg7 arg8 harg8 hc0 hc2 x0 x1 x2 xs0 xs1 xs2).2.1 S2048x1.size (by sl_kernel_rfl) y
def sout3_B_1 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : ¬cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) : Vec F S2048x1 .f32 :=
  VS3_1.read (Elt F) (VS3_1.writes (Elt F) VS3_1.junk (kernelRun3_B c i arg2 harg2 arg3 harg3 arg4 harg4 arg5 harg5 arg6 harg6 arg7 harg7 arg8 harg8 hc0 hc2 x0 x1 x2 xs0 xs1 xs2).2.1)

theorem scover3_B_2 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : ¬cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) (y : S2048x64.Idx) :
    ∃ pc ∈ (kernelRun3_B c i arg2 harg2 arg3 harg3 arg4 harg4 arg5 harg5 arg6 harg6 arg7 harg7 arg8 harg8 hc0 hc2 x0 x1 x2 xs0 xs1 xs2).2.2.1, y ∈ pc.1.set :=
  View.cover_of_tiledL (kernelRun3_B c i arg2 harg2 arg3 harg3 arg4 harg4 arg5 harg5 arg6 harg6 arg7 harg7 arg8 harg8 hc0 hc2 x0 x1 x2 xs0 xs1 xs2).2.2.1 S2048x64.size (by sl_kernel_rfl) y
def sout3_B_2 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : ¬cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) : Vec F S2048x64 .f32 :=
  VS3_2.read (Elt F) (VS3_2.writes (Elt F) VS3_2.junk (kernelRun3_B c i arg2 harg2 arg3 harg3 arg4 harg4 arg5 harg5 arg6 harg6 arg7 harg7 arg8 harg8 hc0 hc2 x0 x1 x2 xs0 xs1 xs2).2.2.1)

/-- The last key block's one store covers the output's buffer. -/
theorem cover3_C_3 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) (y : S1x2048x64.Idx) :
    ∃ pc ∈ (kernelRun3_C c i arg2 harg2 arg3 harg3 arg4 harg4 arg5 harg5 arg6 harg6 arg7 harg7 arg8 harg8 hc0 hc2 x0 x1 x2 xs0 xs1 xs2).1, y ∈ pc.1.set :=
  View.cover_of_tiledL (kernelRun3_C c i arg2 harg2 arg3 harg3 arg4 harg4 arg5 harg5 arg6 harg6 arg7 harg7 arg8 harg8 hc0 hc2 x0 x1 x2 xs0 xs1 xs2).1 S1x2048x64.size (by sl_kernel_rfl) y
/-- What the last key block leaves in the output's buffer: the weighted sum over the normaliser. -/
def out3_C_3 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) : Vec F S1x2048x64 .bf16 :=
  VO3_3.read (Elt F) (VO3_3.writes (Elt F) VO3_3.junk (kernelRun3_C c i arg2 harg2 arg3 harg3 arg4 harg4 arg5 harg5 arg6 harg6 arg7 harg7 arg8 harg8 hc0 hc2 x0 x1 x2 xs0 xs1 xs2).1)

theorem scover3_C_0 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) (y : S2048x1.Idx) :
    ∃ pc ∈ (kernelRun3_C c i arg2 harg2 arg3 harg3 arg4 harg4 arg5 harg5 arg6 harg6 arg7 harg7 arg8 harg8 hc0 hc2 x0 x1 x2 xs0 xs1 xs2).2.1, y ∈ pc.1.set :=
  View.cover_of_tiledL (kernelRun3_C c i arg2 harg2 arg3 harg3 arg4 harg4 arg5 harg5 arg6 harg6 arg7 harg7 arg8 harg8 hc0 hc2 x0 x1 x2 xs0 xs1 xs2).2.1 S2048x1.size (by sl_kernel_rfl) y
def sout3_C_0 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) : Vec F S2048x1 .f32 :=
  VS3_0.read (Elt F) (VS3_0.writes (Elt F) VS3_0.junk (kernelRun3_C c i arg2 harg2 arg3 harg3 arg4 harg4 arg5 harg5 arg6 harg6 arg7 harg7 arg8 harg8 hc0 hc2 x0 x1 x2 xs0 xs1 xs2).2.1)

theorem scover3_C_1 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) (y : S2048x1.Idx) :
    ∃ pc ∈ (kernelRun3_C c i arg2 harg2 arg3 harg3 arg4 harg4 arg5 harg5 arg6 harg6 arg7 harg7 arg8 harg8 hc0 hc2 x0 x1 x2 xs0 xs1 xs2).2.2.1, y ∈ pc.1.set :=
  View.cover_of_tiledL (kernelRun3_C c i arg2 harg2 arg3 harg3 arg4 harg4 arg5 harg5 arg6 harg6 arg7 harg7 arg8 harg8 hc0 hc2 x0 x1 x2 xs0 xs1 xs2).2.2.1 S2048x1.size (by sl_kernel_rfl) y
def sout3_C_1 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) : Vec F S2048x1 .f32 :=
  VS3_1.read (Elt F) (VS3_1.writes (Elt F) VS3_1.junk (kernelRun3_C c i arg2 harg2 arg3 harg3 arg4 harg4 arg5 harg5 arg6 harg6 arg7 harg7 arg8 harg8 hc0 hc2 x0 x1 x2 xs0 xs1 xs2).2.2.1)

theorem scover3_C_2 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) (y : S2048x64.Idx) :
    ∃ pc ∈ (kernelRun3_C c i arg2 harg2 arg3 harg3 arg4 harg4 arg5 harg5 arg6 harg6 arg7 harg7 arg8 harg8 hc0 hc2 x0 x1 x2 xs0 xs1 xs2).2.2.2.1, y ∈ pc.1.set :=
  View.cover_of_tiledL (kernelRun3_C c i arg2 harg2 arg3 harg3 arg4 harg4 arg5 harg5 arg6 harg6 arg7 harg7 arg8 harg8 hc0 hc2 x0 x1 x2 xs0 xs1 xs2).2.2.2.1 S2048x64.size (by sl_kernel_rfl) y
def sout3_C_2 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) : Vec F S2048x64 .f32 :=
  VS3_2.read (Elt F) (VS3_2.writes (Elt F) VS3_2.junk (kernelRun3_C c i arg2 harg2 arg3 harg3 arg4 harg4 arg5 harg5 arg6 harg6 arg7 harg7 arg8 harg8 hc0 hc2 x0 x1 x2 xs0 xs1 xs2).2.2.2.1)

/-! ## What the buffers hold after each point -/

/-- After the body at position `n`: the output's buffer, then the running maximum, normaliser and weighted sum. -/
def outsAt3 (c : Dev nD) : (n : ℕ) → n < cfg3.N → Vec F S1x2048x64 .bf16 × Vec F S2048x1 .f32 × Vec F S2048x1 .f32 × Vec F S2048x64 .f32
  | 0, hn => (outIdle3, sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_2 ⟨0, hn⟩).mp h)) (iblk3 V c 0 ⟨0, hn⟩) (iblk3 V c 1 ⟨0, hn⟩) (iblk3 V c 2 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_2 ⟨0, hn⟩).mp h)) (iblk3 V c 0 ⟨0, hn⟩) (iblk3 V c 1 ⟨0, hn⟩) (iblk3 V c 2 ⟨0, hn⟩), sout3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_2 ⟨0, hn⟩).mp h)) (iblk3 V c 0 ⟨0, hn⟩) (iblk3 V c 1 ⟨0, hn⟩) (iblk3 V c 2 ⟨0, hn⟩))
  | n + 1, hn =>
    if h0 : (n + 1) % 8 = 0 then
      (outIdle3, sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) ((hcond3_0 ⟨n + 1, hn⟩).mpr h0) (fun h => (fun h => by (try dsimp only at h); omega) ((hcond3_2 ⟨n + 1, hn⟩).mp h)) (iblk3 V c 0 ⟨n + 1, hn⟩) (iblk3 V c 1 ⟨n + 1, hn⟩) (iblk3 V c 2 ⟨n + 1, hn⟩), sout3_A_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) ((hcond3_0 ⟨n + 1, hn⟩).mpr h0) (fun h => (fun h => by (try dsimp only at h); omega) ((hcond3_2 ⟨n + 1, hn⟩).mp h)) (iblk3 V c 0 ⟨n + 1, hn⟩) (iblk3 V c 1 ⟨n + 1, hn⟩) (iblk3 V c 2 ⟨n + 1, hn⟩), sout3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) ((hcond3_0 ⟨n + 1, hn⟩).mpr h0) (fun h => (fun h => by (try dsimp only at h); omega) ((hcond3_2 ⟨n + 1, hn⟩).mp h)) (iblk3 V c 0 ⟨n + 1, hn⟩) (iblk3 V c 1 ⟨n + 1, hn⟩) (iblk3 V c 2 ⟨n + 1, hn⟩))
    else
      if h2 : (n + 1) % 8 = 7 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) ((hcond3_2 ⟨n + 1, hn⟩).mpr h2) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) ((hcond3_2 ⟨n + 1, hn⟩).mpr h2) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_C_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) ((hcond3_2 ⟨n + 1, hn⟩).mpr h2) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) ((hcond3_2 ⟨n + 1, hn⟩).mpr h2) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2)
      else
        (outIdle3, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) (fun h => h2 ((hcond3_2 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) (fun h => h2 ((hcond3_2 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) (fun h => h2 ((hcond3_2 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2)

theorem outsAt3_A (c : Dev nD) (t : Fin cfg3.N) (h0 : t.val % 8 = 0) (h2 : ¬t.val % 8 = 7) :
    outsAt3 V c t.val t.isLt = (outIdle3, sout3_A_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h2 ((hcond3_2 t).mp h)) (iblk3 V c 0 t) (iblk3 V c 1 t) (iblk3 V c 2 t), sout3_A_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h2 ((hcond3_2 t).mp h)) (iblk3 V c 0 t) (iblk3 V c 1 t) (iblk3 V c 2 t), sout3_A_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h2 ((hcond3_2 t).mp h)) (iblk3 V c 0 t) (iblk3 V c 1 t) (iblk3 V c 2 t)) := by
  obtain ⟨n, hn⟩ := t
  cases n with
  | zero => exact rfl
  | succ n => exact (dif_pos h0).trans rfl

theorem outsAt3_B (c : Dev nD) (t : Fin cfg3.N) (h0 : ¬t.val % 8 = 0) (h2 : ¬t.val % 8 = 7) :
    outsAt3 V c t.val t.isLt = (outIdle3, sout3_B_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h2 ((hcond3_2 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h2 ((hcond3_2 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h2 ((hcond3_2 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h2).trans rfl)

theorem outsAt3_C (c : Dev nD) (t : Fin cfg3.N) (h0 : ¬t.val % 8 = 0) (h2 : t.val % 8 = 7) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_2 t).mpr h2) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_2 t).mpr h2) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_2 t).mpr h2) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_2 t).mpr h2) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h2).trans rfl)

/-- The region's invariant before position `n`: before the first point nothing is known of the scratch; afterwards
    each scratch buffer holds what the point before left in it. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.1) ∗ owns (c : Thread nD τ) scM3_1 fullShare ((outsAt3 V c n hn).2.2.1) ∗ owns (c : Thread nD τ) scM3_2 fullShare ((outsAt3 V c n hn).2.2.2)) ∗ restBut3 c) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(iprop(owns (c : Thread nD τ) scM3_0 fullShare ((outsAt3 V c n hn).2.1) ∗ owns (c : Thread nD τ) scM3_1 fullShare ((outsAt3 V c n hn).2.2.1) ∗ owns (c : Thread nD τ) scM3_2 fullShare ((outsAt3 V c n hn).2.2.2)) ∗ restBut3 c) ∗ (∃ r, prngReg c r)) := rfl
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.1) ∗ owns (c : Thread nD τ) scM3_1 fullShare ((outsAt3 V c (n - 1) (by omega)).2.2.1) ∗ owns (c : Thread nD τ) scM3_2 fullShare ((outsAt3 V c (n - 1) (by omega)).2.2.2)) ∗ restBut3 c) ∗ (∃ r, prngReg c r)) := by
  cases n with
  | zero => exact absurd rfl hz
  | succ n => rfl

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 8000000 in
/-- The body at any point: the inputs' buffers hold their blocks; the position modulo 8 says which case the point is
    in; the invariant hands the body the scratch at what the point before left (at anything before the first point)
    and takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  by_cases h0 : t.val % 8 = 0
  · have h2 : ¬t.val % 8 = 7 := by omega
    rw [show (dat3 V c).leavesExact 0 t = owns (c : Thread nD τ) (ms3_0 t) fullShare ((dat3 V c).after 0 t) from by
        unfold Dat.leavesExact; rw [liveAt3_0 t], after3_0]
    rw [show (dat3 V c).leavesExact 1 t = owns (c : Thread nD τ) (ms3_1 t) fullShare ((dat3 V c).after 1 t) from by
        unfold Dat.leavesExact; rw [liveAt3_1 t], after3_1]
    rw [show (dat3 V c).leavesExact 2 t = owns (c : Thread nD τ) (ms3_2 t) fullShare ((dat3 V c).after 2 t) from by
        unfold Dat.leavesExact; rw [liveAt3_2 t], after3_2]
    rw [Dat.leavesExact_idle (dat3 V c) 3 t (idleAt3_3 t (fun h => h2 ((hcond3_2 t).mp h))) (noFlush3_3 t (fun h => h2 ((hcond3_2 t).mp h)))]
    rw [outsAt3_A V c t h0 h2]
    unfold sout3_A_0 sout3_A_1 sout3_A_2; (try dsimp only)
    by_cases hz : t.val = 0
    · rw [PhiS3_castSucc V c t, PhiS3_zero V c _ _ hz, PhiA3_eq]
      iintro ⟨⟨⟨⟨HS0, HS1, HS2⟩, Hrb⟩, Hg⟩, Ho, ⟨%d0, H0⟩, ⟨%d1, H1⟩, ⟨%d2, H2⟩, ⟨%d3, H3⟩⟩
      iapply ((kernelRun3_A c (grid3.coords t) _ _ _ _ _ _ _ _ _ _ _ _ _ _ ((hcond3_0 t).mpr h0) (fun h => h2 ((hcond3_2 t).mp h)) (iblk3 V c 0 t) (iblk3 V c 1 t) (iblk3 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hrb Hg]
      · isplitl [HS0 HS1 HS2 Hrb]
        · isplitl [HS0 HS1 HS2]
          · isplitl [HS0]
            · unfold owns; iexists _; isplitr
              swap; · iexact HS0
              ipureintro; exact View.read_writes_of_cover _ _ _ _ _ (scover3_A_0 c _ _ _ _ _ _ _ _ _ _ _ _ _ _ _ _ _ _ _ _)
            isplitl [HS1]
            · unfold owns; iexists _; isplitr
              swap; · iexact HS1
              ipureintro; exact View.read_writes_of_cover _ _ _ _ _ (scover3_A_1 c _ _ _ _ _ _ _ _ _ _ _ _ _ _ _ _ _ _ _ _)
            unfold owns; iexists _; isplitr
            swap; · iexact HS2
            ipureintro; exact View.read_writes_of_cover _ _ _ _ _ (scover3_A_2 c _ _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨⟨HS0, HS1, HS2⟩, Hrb⟩, Hg⟩, Ho, ⟨%d0, H0⟩, ⟨%d1, H1⟩, ⟨%d2, H2⟩, ⟨%d3, H3⟩⟩
      iapply ((kernelRun3_A c (grid3.coords t) _ _ _ _ _ _ _ _ _ _ _ _ _ _ ((hcond3_0 t).mpr h0) (fun h => h2 ((hcond3_2 t).mp h)) (iblk3 V c 0 t) (iblk3 V c 1 t) (iblk3 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hrb Hg]
      · isplitl [HS0 HS1 HS2 Hrb]
        · isplitl [HS0 HS1 HS2]
          · isplitl [HS0]
            · unfold owns; iexists _; isplitr
              swap; · iexact HS0
              ipureintro; exact View.read_writes_of_cover _ _ _ _ _ (scover3_A_0 c _ _ _ _ _ _ _ _ _ _ _ _ _ _ _ _ _ _ _ _)
            isplitl [HS1]
            · unfold owns; iexists _; isplitr
              swap; · iexact HS1
              ipureintro; exact View.read_writes_of_cover _ _ _ _ _ (scover3_A_1 c _ _ _ _ _ _ _ _ _ _ _ _ _ _ _ _ _ _ _ _)
            unfold owns; iexists _; isplitr
            swap; · iexact HS2
            ipureintro; exact View.read_writes_of_cover _ _ _ _ _ (scover3_A_2 c _ _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h2 : t.val % 8 = 7
    · rw [show (dat3 V c).leavesExact 0 t = owns (c : Thread nD τ) (ms3_0 t) fullShare ((dat3 V c).after 0 t) from by
          unfold Dat.leavesExact; rw [liveAt3_0 t], after3_0]
      rw [show (dat3 V c).leavesExact 1 t = owns (c : Thread nD τ) (ms3_1 t) fullShare ((dat3 V c).after 1 t) from by
          unfold Dat.leavesExact; rw [liveAt3_1 t], after3_1]
      rw [show (dat3 V c).leavesExact 2 t = owns (c : Thread nD τ) (ms3_2 t) fullShare ((dat3 V c).after 2 t) from by
          unfold Dat.leavesExact; rw [liveAt3_2 t], after3_2]
      rw [show (dat3 V c).leavesExact 3 t = owns (c : Thread nD τ) (ms3_3 t) fullShare ((dat3 V c).after 3 t) from by
          unfold Dat.leavesExact; rw [liveAt3_3 t ((hcond3_2 t).mpr h2)], after3_3]
      rw [outsAt3_C V c t h0 h2]
      unfold out3_C_3 sout3_C_0 sout3_C_1 sout3_C_2; (try dsimp only)
      rw [PhiS3_castSucc V c t, PhiS3_pos V c _ _ hz]
      iintro ⟨⟨⟨⟨HS0, HS1, HS2⟩, Hrb⟩, Hg⟩, Ho, ⟨%d0, H0⟩, ⟨%d1, H1⟩, ⟨%d2, H2⟩, ⟨%d3, H3⟩⟩
      iapply ((kernelRun3_C c (grid3.coords t) _ _ _ _ _ _ _ _ _ _ _ _ _ _ (fun h => h0 ((hcond3_0 t).mp h)) ((hcond3_2 t).mpr h2) (iblk3 V c 0 t) (iblk3 V c 1 t) (iblk3 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hrb Hg]
      · isplitl [HS0 HS1 HS2 Hrb]
        · isplitl [HS0 HS1 HS2]
          · isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover3_C_1 c _ _ _ _ _ _ _ _ _ _ _ _ _ _ _ _ _ _ _ _ _ _ _)
            unfold owns; iexists _; isplitr
            swap; · iexact HS2
            ipureintro; exact View.read_writes_of_cover _ _ _ _ _ (scover3_C_2 c _ _ _ _ _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _ _ _ _ _ _ _)
    · rw [show (dat3 V c).leavesExact 0 t = owns (c : Thread nD τ) (ms3_0 t) fullShare ((dat3 V c).after 0 t) from by
          unfold Dat.leavesExact; rw [liveAt3_0 t], after3_0]
      rw [show (dat3 V c).leavesExact 1 t = owns (c : Thread nD τ) (ms3_1 t) fullShare ((dat3 V c).after 1 t) from by
          unfold Dat.leavesExact; rw [liveAt3_1 t], after3_1]
      rw [show (dat3 V c).leavesExact 2 t = owns (c : Thread nD τ) (ms3_2 t) fullShare ((dat3 V c).after 2 t) from by
          unfold Dat.leavesExact; rw [liveAt3_2 t], after3_2]
      rw [Dat.leavesExact_idle (dat3 V c) 3 t (idleAt3_3 t (fun h => h2 ((hcond3_2 t).mp h))) (noFlush3_3 t (fun h => h2 ((hcond3_2 t).mp h)))]
      rw [outsAt3_B V c t h0 h2]
      unfold sout3_B_0 sout3_B_1 sout3_B_2; (try dsimp only)
      rw [PhiS3_castSucc V c t, PhiS3_pos V c _ _ hz]
      iintro ⟨⟨⟨⟨HS0, HS1, HS2⟩, Hrb⟩, Hg⟩, Ho, ⟨%d0, H0⟩, ⟨%d1, H1⟩, ⟨%d2, H2⟩, ⟨%d3, H3⟩⟩
      iapply ((kernelRun3_B c (grid3.coords t) _ _ _ _ _ _ _ _ _ _ _ _ _ _ (fun h => h0 ((hcond3_0 t).mp h)) (fun h => h2 ((hcond3_2 t).mp h)) (iblk3 V c 0 t) (iblk3 V c 1 t) (iblk3 V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hrb Hg]
      · isplitl [HS0 HS1 HS2 Hrb]
        · isplitl [HS0 HS1 HS2]
          · isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover3_B_1 c _ _ _ _ _ _ _ _ _ _ _ _ _ _ _ _ _ _ _ _ _ _ _)
            unfold owns; iexists _; isplitr
            swap; · iexact HS2
            ipureintro; exact View.read_writes_of_cover _ _ _ _ _ (scover3_B_2 c _ _ _ _ _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the entry form back: the scratch contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1, HS2⟩, Hrb⟩, Hg⟩
  isplitl [HS0 HS1 HS2 Hrb]
  · isplitl [HS0 HS1 HS2]
    · isplitl [HS0]; · iexists _; iexact HS0
      isplitl [HS1]; · iexists _; iexact HS1
      iexists _; iexact HS2
    iexact Hrb
  iexact Hg

theorem hout3 (c : Dev nD) : (dat3 V c).Φ (Fin.last cfg3.N) ⊢ Pipeline.ΦA spec3 c :=
  Phi_out3 V c _ (by rw [Fin.val_last]; have : cfg3.N = 512 := N_3; omega)

end Cert.Kernel.Fr

end
-- ==== Proof.Kernel.Region4.lean ====
/-
  Region 4 of the program (a row-block matrix product with a bias): one grid point per block of 512 rows.  The body
  reads the point's 512×1024 block of the activations, the whole 1024×1024 weight and the 1×1024 bias, and stores one
  512×1024 block: the product of the block with the weight plus the bias row.  Stated at a parameter `V`, the contents
  the region finds in the arrays: what each window's block is at a point, what the body leaves in the output's buffer
  as a function of the three input blocks, the body's triple, the pipeline's proof data and the body obligation at
  every point.  Nothing here reads a number; the same text holds at every float instance.
-/
import proofs.«137242_j37349035606739_2_alg».proof.Proof.Gen.Kernel.Launch
import proofs.«137242_j37349035606739_2_alg».proof.Proof.Gen.Kernel.Skeleton
import proofs.«137242_j37349035606739_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether the point fetched it or an
    earlier one did (the index has not moved since). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The body's accesses: each buffer whole. -/
abbrev r4_0 : Rect S512x1024 := Rect.unit (s := S512x1024) ![0, 0] S512x1024.size inb_S512x1024_S512x1024_0_0
abbrev r4_1 : Rect S1024x1024 := Rect.unit (s := S1024x1024) ![0, 0] S1024x1024.size inb_S1024x1024_S1024x1024_0_0
abbrev r4_2 : Rect S1x1024 := Rect.unit (s := S1x1024) ![0, 0] S1x1024.size inb_S1x1024_S1x1024_0_0

/-- The output's buffer after the body: its one store, of the product-plus-bias of the three input blocks. -/
def out4_3 (x0 : Vec F S512x1024 .bf16) (x1 : Vec F S1024x1024 .bf16) (x2 : Vec F S1x1024 .f32) : Vec F S512x1024 .f32 :=
  View.canon [⟨r4_0, k4_pay1 (View.ld x0 r4_0) (View.ld x1 r4_1) (View.ld x2 r4_2)⟩]

/-- The one store covers the buffer. -/
theorem cover4_3 (p0 : Vec F S512x1024 .f32) (y : S512x1024.Idx) :
    ∃ pc ∈ ([⟨r4_0, p0⟩] : List (View.Piece (Elt F) S512x1024 .f32)), y ∈ pc.1.set :=
  View.cover_of_tiled [⟨r4_0, p0⟩] S512x1024.size (by rfl) y

set_option maxHeartbeats 1000000 in
/-- The body on whole staging buffers, the inputs' at read contents and the output's at anything, runs to the
    continuation holding the inputs' as they were and the output's at `out4_3` of the inputs'. -/
theorem sound_kernel4 (c : Dev nD) (E : Set ℕ) (i : grid4.Coords) (arg0 : Memref sig .tc .vmem S512x1024 .bf16) (harg0 : arg0.IsWhole) (arg1 : Memref sig .tc .vmem S1024x1024 .bf16) (harg1 : arg1.IsWhole) (arg2 : Memref sig .tc .vmem S1x1024 .f32) (harg2 : arg2.IsWhole) (arg3 : Memref sig .tc .vmem S512x1024 .f32) (harg3 : arg3.IsWhole)
    (x0 : Vec F S512x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out4_3 x0 x1 x2)) -∗ K ⟨⟩))
      ⊢ wp frame (wpE (defs₀ (F := F)) Variants.none c none) E (cc4__matmul_bias_kernel i arg0 harg0 arg1 harg1 arg2 harg2 arg3 harg3) K := by
  simp only [cc4__matmul_bias_kernel_eq_skeleton]; unfold cc4__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The pipeline's proof data on core `c`: the arrays as the region finds them; after the body at point `t` each
    input's buffer at its block and the output's at `out4_3` of the input blocks; the invariant keeps the scoped
    rest and the generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.Kernel.Run.lean ====
/-
  The run of the whole program: the contents of every buffer at each boundary between a stretch of host operations and
  a launch, folded from the launch memory — a stretch applies its operations, a launch leaves in its windows' arrays
  what its write-backs fold to (`arrAt` of its proof data at the last point) and every other buffer as it found it —;
  each launch as a segment entered from one boundary and left at the next; and the run: every weakly fair execution
  terminates without a fault in a state whose every buffer holds the last boundary's contents.  No host stretch and no
  launch writes an argument array, so each ends as launched.
-/
import proofs.«137242_j37349035606739_2_alg».proof.Proof.Kernel.Region0
import proofs.«137242_j37349035606739_2_alg».proof.Proof.Kernel.Region1
import proofs.«137242_j37349035606739_2_alg».proof.Proof.Kernel.Region2
import proofs.«137242_j37349035606739_2_alg».proof.Proof.Kernel.Region3
import proofs.«137242_j37349035606739_2_alg».proof.Proof.Kernel.Region4
import proofs.«137242_j37349035606739_2_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)

/-- After host stretch 0 (launch 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At launch 0's exit: its arrays at what its write-backs fold to, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1 (launch 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At launch 1's exit: its arrays at what its write-backs fold to, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2 (launch 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At launch 2's exit: its arrays at what its write-backs fold to, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3 (launch 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At launch 3's exit: its arrays at what its write-backs fold to, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After host stretch 4 (launch 4's entry). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At launch 4's exit: its arrays at what its write-backs fold to, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the last host stretch. -/
abbrev W11 : Dev nD → Valuation τ sig (Elt F) := fun c => StableHlo.after hostOps5 (W10 m ρ c)

/-! ## The arguments end as launched -/

theorem W11_main_arg0 (c : Dev nD) : W11 m ρ c (Proc.devRef .tc main_arg0) = m ((c : Thread nD τ).loc main_arg0) :=
  (StableHlo.after_of_writes_sub hostOps5 _ hostOps5_writes (r := main_arg0) (by decide)).trans <|
  (W10_of_ne m ρ c main_arg0 (by decide)).trans <|
  (StableHlo.after_of_writes_sub hostOps4 _ hostOps4_writes (r := main_arg0) (by decide)).trans <|
  (W8_of_ne m ρ c main_arg0 (by decide)).trans <|
  (StableHlo.after_of_writes_sub hostOps3 _ hostOps3_writes (r := main_arg0) (by decide)).trans <|
  (W6_of_ne m ρ c main_arg0 (by decide)).trans <|
  (StableHlo.after_of_writes_sub hostOps2 _ hostOps2_writes (r := main_arg0) (by decide)).trans <|
  (W4_of_ne m ρ c main_arg0 (by decide)).trans <|
  (StableHlo.after_of_writes_sub hostOps1 _ hostOps1_writes (r := main_arg0) (by decide)).trans <|
  (W2_of_ne m ρ c main_arg0 (by decide)).trans <|
  (StableHlo.after_of_writes_sub hostOps0 _ hostOps0_writes (r := main_arg0) (by decide)).trans rfl

theorem W11_main_arg1 (c : Dev nD) : W11 m ρ c (Proc.devRef .tc main_arg1) = m ((c : Thread nD τ).loc main_arg1) :=
  (StableHlo.after_of_writes_sub hostOps5 _ hostOps5_writes (r := main_arg1) (by decide)).trans <|
  (W10_of_ne m ρ c main_arg1 (by decide)).trans <|
  (StableHlo.after_of_writes_sub hostOps4 _ hostOps4_writes (r := main_arg1) (by decide)).trans <|
  (W8_of_ne m ρ c main_arg1 (by decide)).trans <|
  (StableHlo.after_of_writes_sub hostOps3 _ hostOps3_writes (r := main_arg1) (by decide)).trans <|
  (W6_of_ne m ρ c main_arg1 (by decide)).trans <|
  (StableHlo.after_of_writes_sub hostOps2 _ hostOps2_writes (r := main_arg1) (by decide)).trans <|
  (W4_of_ne m ρ c main_arg1 (by decide)).trans <|
  (StableHlo.after_of_writes_sub hostOps1 _ hostOps1_writes (r := main_arg1) (by decide)).trans <|
  (W2_of_ne m ρ c main_arg1 (by decide)).trans <|
  (StableHlo.after_of_writes_sub hostOps0 _ hostOps0_writes (r := main_arg1) (by decide)).trans rfl

theorem W11_main_arg2 (c : Dev nD) : W11 m ρ c (Proc.devRef .tc main_arg2) = m ((c : Thread nD τ).loc main_arg2) :=
  (StableHlo.after_of_writes_sub hostOps5 _ hostOps5_writes (r := main_arg2) (by decide)).trans <|
  (W10_of_ne m ρ c main_arg2 (by decide)).trans <|
  (StableHlo.after_of_writes_sub hostOps4 _ hostOps4_writes (r := main_arg2) (by decide)).trans <|
  (W8_of_ne m ρ c main_arg2 (by decide)).trans <|
  (StableHlo.after_of_writes_sub hostOps3 _ hostOps3_writes (r := main_arg2) (by decide)).trans <|
  (W6_of_ne m ρ c main_arg2 (by decide)).trans <|
  (StableHlo.after_of_writes_sub hostOps2 _ hostOps2_writes (r := main_arg2) (by decide)).trans <|
  (W4_of_ne m ρ c main_arg2 (by decide)).trans <|
  (StableHlo.after_of_writes_sub hostOps1 _ hostOps1_writes (r := main_arg2) (by decide)).trans <|
  (W2_of_ne m ρ c main_arg2 (by decide)).trans <|
  (StableHlo.after_of_writes_sub hostOps0 _ hostOps0_writes (r := main_arg2) (by decide)).trans rfl

theorem W11_main_arg3 (c : Dev nD) : W11 m ρ c (Proc.devRef .tc main_arg3) = m ((c : Thread nD τ).loc main_arg3) :=
  (StableHlo.after_of_writes_sub hostOps5 _ hostOps5_writes (r := main_arg3) (by decide)).trans <|
  (W10_of_ne m ρ c main_arg3 (by decide)).trans <|
  (StableHlo.after_of_writes_sub hostOps4 _ hostOps4_writes (r := main_arg3) (by decide)).trans <|
  (W8_of_ne m ρ c main_arg3 (by decide)).trans <|
  (StableHlo.after_of_writes_sub hostOps3 _ hostOps3_writes (r := main_arg3) (by decide)).trans <|
  (W6_of_ne m ρ c main_arg3 (by decide)).trans <|
  (StableHlo.after_of_writes_sub hostOps2 _ hostOps2_writes (r := main_arg3) (by decide)).trans <|
  (W4_of_ne m ρ c main_arg3 (by decide)).trans <|
  (StableHlo.after_of_writes_sub hostOps1 _ hostOps1_writes (r := main_arg3) (by decide)).trans <|
  (W2_of_ne m ρ c main_arg3 (by decide)).trans <|
  (StableHlo.after_of_writes_sub hostOps0 _ hostOps0_writes (r := main_arg3) (by decide)).trans rfl

theorem W11_main_arg4 (c : Dev nD) : W11 m ρ c (Proc.devRef .tc main_arg4) = m ((c : Thread nD τ).loc main_arg4) :=
  (StableHlo.after_of_writes_sub hostOps5 _ hostOps5_writes (r := main_arg4) (by decide)).trans <|
  (W10_of_ne m ρ c main_arg4 (by decide)).trans <|
  (StableHlo.after_of_writes_sub hostOps4 _ hostOps4_writes (r := main_arg4) (by decide)).trans <|
  (W8_of_ne m ρ c main_arg4 (by decide)).trans <|
  (StableHlo.after_of_writes_sub hostOps3 _ hostOps3_writes (r := main_arg4) (by decide)).trans <|
  (W6_of_ne m ρ c main_arg4 (by decide)).trans <|
  (StableHlo.after_of_writes_sub hostOps2 _ hostOps2_writes (r := main_arg4) (by decide)).trans <|
  (W4_of_ne m ρ c main_arg4 (by decide)).trans <|
  (StableHlo.after_of_writes_sub hostOps1 _ hostOps1_writes (r := main_arg4) (by decide)).trans <|
  (W2_of_ne m ρ c main_arg4 (by decide)).trans <|
  (StableHlo.after_of_writes_sub hostOps0 _ hostOps0_writes (r := main_arg4) (by decide)).trans rfl

theorem W11_main_arg5 (c : Dev nD) : W11 m ρ c (Proc.devRef .tc main_arg5) = m ((c : Thread nD τ).loc main_arg5) :=
  (StableHlo.after_of_writes_sub hostOps5 _ hostOps5_writes (r := main_arg5) (by decide)).trans <|
  (W10_of_ne m ρ c main_arg5 (by decide)).trans <|
  (StableHlo.after_of_writes_sub hostOps4 _ hostOps4_writes (r := main_arg5) (by decide)).trans <|
  (W8_of_ne m ρ c main_arg5 (by decide)).trans <|
  (StableHlo.after_of_writes_sub hostOps3 _ hostOps3_writes (r := main_arg5) (by decide)).trans <|
  (W6_of_ne m ρ c main_arg5 (by decide)).trans <|
  (StableHlo.after_of_writes_sub hostOps2 _ hostOps2_writes (r := main_arg5) (by decide)).trans <|
  (W4_of_ne m ρ c main_arg5 (by decide)).trans <|
  (StableHlo.after_of_writes_sub hostOps1 _ hostOps1_writes (r := main_arg5) (by decide)).trans <|
  (W2_of_ne m ρ c main_arg5 (by decide)).trans <|
  (StableHlo.after_of_writes_sub hostOps0 _ hostOps0_writes (r := main_arg5) (by decide)).trans rfl

theorem W11_main_arg6 (c : Dev nD) : W11 m ρ c (Proc.devRef .tc main_arg6) = m ((c : Thread nD τ).loc main_arg6) :=
  (StableHlo.after_of_writes_sub hostOps5 _ hostOps5_writes (r := main_arg6) (by decide)).trans <|
  (W10_of_ne m ρ c main_arg6 (by decide)).trans <|
  (StableHlo.after_of_writes_sub hostOps4 _ hostOps4_writes (r := main_arg6) (by decide)).trans <|
  (W8_of_ne m ρ c main_arg6 (by decide)).trans <|
  (StableHlo.after_of_writes_sub hostOps3 _ hostOps3_writes (r := main_arg6) (by decide)).trans <|
  (W6_of_ne m ρ c main_arg6 (by decide)).trans <|
  (StableHlo.after_of_writes_sub hostOps2 _ hostOps2_writes (r := main_arg6) (by decide)).trans <|
  (W4_of_ne m ρ c main_arg6 (by decide)).trans <|
  (StableHlo.after_of_writes_sub hostOps1 _ hostOps1_writes (r := main_arg6) (by decide)).trans <|
  (W2_of_ne m ρ c main_arg6 (by decide)).trans <|
  (StableHlo.after_of_writes_sub hostOps0 _ hostOps0_writes (r := main_arg6) (by decide)).trans rfl

theorem W11_main_arg7 (c : Dev nD) : W11 m ρ c (Proc.devRef .tc main_arg7) = m ((c : Thread nD τ).loc main_arg7) :=
  (StableHlo.after_of_writes_sub hostOps5 _ hostOps5_writes (r := main_arg7) (by decide)).trans <|
  (W10_of_ne m ρ c main_arg7 (by decide)).trans <|
  (StableHlo.after_of_writes_sub hostOps4 _ hostOps4_writes (r := main_arg7) (by decide)).trans <|
  (W8_of_ne m ρ c main_arg7 (by decide)).trans <|
  (StableHlo.after_of_writes_sub hostOps3 _ hostOps3_writes (r := main_arg7) (by decide)).trans <|
  (W6_of_ne m ρ c main_arg7 (by decide)).trans <|
  (StableHlo.after_of_writes_sub hostOps2 _ hostOps2_writes (r := main_arg7) (by decide)).trans <|
  (W4_of_ne m ρ c main_arg7 (by decide)).trans <|
  (StableHlo.after_of_writes_sub hostOps1 _ hostOps1_writes (r := main_arg7) (by decide)).trans <|
  (W2_of_ne m ρ c main_arg7 (by decide)).trans <|
  (StableHlo.after_of_writes_sub hostOps0 _ hostOps0_writes (r := main_arg7) (by decide)).trans rfl

theorem W11_main_arg8 (c : Dev nD) : W11 m ρ c (Proc.devRef .tc main_arg8) = m ((c : Thread nD τ).loc main_arg8) :=
  (StableHlo.after_of_writes_sub hostOps5 _ hostOps5_writes (r := main_arg8) (by decide)).trans <|
  (W10_of_ne m ρ c main_arg8 (by decide)).trans <|
  (StableHlo.after_of_writes_sub hostOps4 _ hostOps4_writes (r := main_arg8) (by decide)).trans <|
  (W8_of_ne m ρ c main_arg8 (by decide)).trans <|
  (StableHlo.after_of_writes_sub hostOps3 _ hostOps3_writes (r := main_arg8) (by decide)).trans <|
  (W6_of_ne m ρ c main_arg8 (by decide)).trans <|
  (StableHlo.after_of_writes_sub hostOps2 _ hostOps2_writes (r := main_arg8) (by decide)).trans <|
  (W4_of_ne m ρ c main_arg8 (by decide)).trans <|
  (StableHlo.after_of_writes_sub hostOps1 _ hostOps1_writes (r := main_arg8) (by decide)).trans <|
  (W2_of_ne m ρ c main_arg8 (by decide)).trans <|
  (StableHlo.after_of_writes_sub hostOps0 _ hostOps0_writes (r := main_arg8) (by decide)).trans rfl

theorem W11_main_arg9 (c : Dev nD) : W11 m ρ c (Proc.devRef .tc main_arg9) = m ((c : Thread nD τ).loc main_arg9) :=
  (StableHlo.after_of_writes_sub hostOps5 _ hostOps5_writes (r := main_arg9) (by decide)).trans <|
  (W10_of_ne m ρ c main_arg9 (by decide)).trans <|
  (StableHlo.after_of_writes_sub hostOps4 _ hostOps4_writes (r := main_arg9) (by decide)).trans <|
  (W8_of_ne m ρ c main_arg9 (by decide)).trans <|
  (StableHlo.after_of_writes_sub hostOps3 _ hostOps3_writes (r := main_arg9) (by decide)).trans <|
  (W6_of_ne m ρ c main_arg9 (by decide)).trans <|
  (StableHlo.after_of_writes_sub hostOps2 _ hostOps2_writes (r := main_arg9) (by decide)).trans <|
  (W4_of_ne m ρ c main_arg9 (by decide)).trans <|
  (StableHlo.after_of_writes_sub hostOps1 _ hostOps1_writes (r := main_arg9) (by decide)).trans <|
  (W2_of_ne m ρ c main_arg9 (by decide)).trans <|
  (StableHlo.after_of_writes_sub hostOps0 _ hostOps0_writes (r := main_arg9) (by decide)).trans rfl

theorem W11_main_arg10 (c : Dev nD) : W11 m ρ c (Proc.devRef .tc main_arg10) = m ((c : Thread nD τ).loc main_arg10) :=
  (StableHlo.after_of_writes_sub hostOps5 _ hostOps5_writes (r := main_arg10) (by decide)).trans <|
  (W10_of_ne m ρ c main_arg10 (by decide)).trans <|
  (StableHlo.after_of_writes_sub hostOps4 _ hostOps4_writes (r := main_arg10) (by decide)).trans <|
  (W8_of_ne m ρ c main_arg10 (by decide)).trans <|
  (StableHlo.after_of_writes_sub hostOps3 _ hostOps3_writes (r := main_arg10) (by decide)).trans <|
  (W6_of_ne m ρ c main_arg10 (by decide)).trans <|
  (StableHlo.after_of_writes_sub hostOps2 _ hostOps2_writes (r := main_arg10) (by decide)).trans <|
  (W4_of_ne m ρ c main_arg10 (by decide)).trans <|
  (StableHlo.after_of_writes_sub hostOps1 _ hostOps1_writes (r := main_arg10) (by decide)).trans <|
  (W2_of_ne m ρ c main_arg10 (by decide)).trans <|
  (StableHlo.after_of_writes_sub hostOps0 _ hostOps0_writes (r := main_arg10) (by decide)).trans rfl

/-! ## The proof data family and the thread state -/

abbrev adm' : (p : Fin 5) → (pcfgs (F := F) p).Adm := fun p => (cfgs p).toPCfg_adm
/-- Every launch's proof data, each at its entry contents. -/
def pdats : (p : Fin 5) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀' : Variants := Variants.none
abbrev L' : GSem nD τ sig → Finset Unit := fun _ => ∅
abbrev lv' : GSem nD τ sig → Unit → ℕ := fun _ _ => 0
/-- What rides beside the buffers through every segment: the generator register at some state, nothing owed. -/
abbrev R' (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀' L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R'
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The launches as segments -/

set_option backward.isDefEq.respectTransparency.types false in
/-- Launch 0: entered from every unscoped buffer at `W1`, left at `W2`. -/
def reg0 : Pipeline.RegionSeg (pcfgs (F := F)) adm' (pdats m ρ) () defs₀ 𝒱₀' L' lv' 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L' lv' 0 fun _ _ => rfl
  pre c := iprop(StableHlo.held (c : Thread nD τ) (Pipeline.ucRefs τ sig) (W1 m ρ c) ∗ R' c)
  post c := iprop(StableHlo.held (c : Thread nD τ) (Pipeline.ucRefs τ sig) (W2 m ρ c) ∗ R' c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1: entered from every unscoped buffer at `W3`, left at `W4`. -/
def reg1 : Pipeline.RegionSeg (pcfgs (F := F)) adm' (pdats m ρ) () defs₀ 𝒱₀' L' lv' 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L' lv' 1 fun _ _ => rfl
  pre c := iprop(StableHlo.held (c : Thread nD τ) (Pipeline.ucRefs τ sig) (W3 m ρ c) ∗ R' c)
  post c := iprop(StableHlo.held (c : Thread nD τ) (Pipeline.ucRefs τ sig) (W4 m ρ c) ∗ R' c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2: entered from every unscoped buffer at `W5`, left at `W6`. -/
def reg2 : Pipeline.RegionSeg (pcfgs (F := F)) adm' (pdats m ρ) () defs₀ 𝒱₀' L' lv' 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L' lv' 2 fun _ _ => rfl
  pre c := iprop(StableHlo.held (c : Thread nD τ) (Pipeline.ucRefs τ sig) (W5 m ρ c) ∗ R' c)
  post c := iprop(StableHlo.held (c : Thread nD τ) (Pipeline.ucRefs τ sig) (W6 m ρ c) ∗ R' c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3: entered from every unscoped buffer at `W7`, left at `W8`. -/
def reg3 : Pipeline.RegionSeg (pcfgs (F := F)) adm' (pdats m ρ) () defs₀ 𝒱₀' L' lv' 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L' lv' 3 fun _ _ => rfl
  pre c := iprop(StableHlo.held (c : Thread nD τ) (Pipeline.ucRefs τ sig) (W7 m ρ c) ∗ R' c)
  post c := iprop(StableHlo.held (c : Thread nD τ) (Pipeline.ucRefs τ sig) (W8 m ρ c) ∗ R' c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm' (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (V7 m ρ) c)
    unfold Pipeline.ΦA
    iintro ⟨Hp, -, Hr⟩
    isplitl [Hr]; · iexact Hr
    iexact Hp
  hout c := by
    rw [Pipeline.ownSems0_none]
    refine (hout3 (V7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm' (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 4: entered from every unscoped buffer at `W9`, left at `W10`. -/
def reg4 : Pipeline.RegionSeg (pcfgs (F := F)) adm' (pdats m ρ) () defs₀ 𝒱₀' L' lv' 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L' lv' 4 fun _ _ => rfl
  pre c := iprop(StableHlo.held (c : Thread nD τ) (Pipeline.ucRefs τ sig) (W9 m ρ c) ∗ R' c)
  post c := iprop(StableHlo.held (c : Thread nD τ) (Pipeline.ucRefs τ sig) (W10 m ρ c) ∗ R' c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm' (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm' (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm' (pdats m ρ) () defs₀ 𝒱₀' L' lv') :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]

theorem main_run (c : Dev nD) : main (F := F) c = Pipeline.Seg.run (segs m ρ) := (main_chain c).trans (by chain_rfl)

/-- The last thread state: every unscoped buffer at the last boundary's contents, the generator register at some state. -/
abbrev Tₙ' (c : Dev nD) : sProp 𝕄 := iprop(StableHlo.held (c : Thread nD τ) (Pipeline.ucRefs τ sig) (W11 m ρ c) ∗ ∃ r, prngReg c r)

set_option backward.isDefEq.respectTransparency.types false in
/-- THE RUN: from any memory with zero counters every weakly fair execution of the program terminates without a fault,
    and in the final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm' (pdats m ρ) () cellOf_inj emb₁ defs₀ 𝒱₀' L' lv' m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R' c)) (Tₙ := Tₙ' m ρ)
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W11 m ρ c) ∗ R' c)
          ⊢ iprop(Tₙ' m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L' lv' fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W11_main_arg0 m ρ c),
      (h c _ (mem_uc main_arg1 (by decide))).trans (W11_main_arg1 m ρ c),
      (h c _ (mem_uc main_arg2 (by decide))).trans (W11_main_arg2 m ρ c),
      (h c _ (mem_uc main_arg3 (by decide))).trans (W11_main_arg3 m ρ c),
      (h c _ (mem_uc main_arg4 (by decide))).trans (W11_main_arg4 m ρ c),
      (h c _ (mem_uc main_arg5 (by decide))).trans (W11_main_arg5 m ρ c),
      (h c _ (mem_uc main_arg6 (by decide))).trans (W11_main_arg6 m ρ c),
      (h c _ (mem_uc main_arg7 (by decide))).trans (W11_main_arg7 m ρ c),
      (h c _ (mem_uc main_arg8 (by decide))).trans (W11_main_arg8 m ρ c),
      (h c _ (mem_uc main_arg9 (by decide))).trans (W11_main_arg9 m ρ c),
      (h c _ (mem_uc main_arg10 (by decide))).trans (W11_main_arg10 m ρ c)⟩) (run_all m ρ)

end Cert.Kernel.Fr

end
-- ==== Proof.KernelIdeal.Region0.lean ====
/-
  Region 0 of the program (a row-block matrix product with a bias): one grid point per block of 512 rows.  The body
  reads the point's 512×1024 block of the activations, the whole 1024×1024 weight and the 1×1024 bias, and stores one
  512×1024 block: the product of the block with the weight plus the bias row.  Stated at a parameter `V`, the contents
  the region finds in the arrays: what each window's block is at a point, what the body leaves in the output's buffer
  as a function of the three input blocks, the body's triple, the pipeline's proof data and the body obligation at
  every point.  Nothing here reads a number; the same text holds at every float instance.
-/
import proofs.«137242_j37349035606739_2_alg».proof.Proof.Gen.KernelIdeal.Launch
import proofs.«137242_j37349035606739_2_alg».proof.Proof.Gen.KernelIdeal.Skeleton
import proofs.«137242_j37349035606739_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or an
    earlier one did (the index has not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each buffer whole. -/
abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0

/-- The output's buffer after the body: its one store, of the product-plus-bias of the three input blocks. -/
def out0_3 (x0 : Vec F S512x1024 .f32) (x1 : Vec F S1024x1024 .bf16) (x2 : Vec F S1x1024 .f32) : Vec F S512x1024 .bf16 :=
  View.canon [⟨r0_0, k0_pay1 (View.ld x0 r0_0) (View.ld x1 r0_1) (View.ld x2 r0_2)⟩]

/-- The one store covers the buffer. -/
theorem cover0_3 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

set_option maxHeartbeats 1000000 in
/-- The body on whole staging buffers, the inputs' at read contents and the output's at anything, runs to the
    continuation holding the inputs' as they were and the output's at `out0_3` of the inputs'. -/
theorem sound_kernel0 (c : Dev nD) (E : Set ℕ) (i : grid0.Coords) (arg0 : Memref sig .tc .vmem S512x1024 .f32) (harg0 : arg0.IsWhole) (arg1 : Memref sig .tc .vmem S1024x1024 .bf16) (harg1 : arg1.IsWhole) (arg2 : Memref sig .tc .vmem S1x1024 .f32) (harg2 : arg2.IsWhole) (arg3 : Memref sig .tc .vmem S512x1024 .bf16) (harg3 : arg3.IsWhole)
    (x0 : Vec F S512x1024 .f32) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__matmul_bias_kernel i arg0 harg0 arg1 harg1 arg2 harg2 arg3 harg3) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each
    input's buffer at its block and the output's at `out0_3` of the input blocks; the invariant keeps the scoped
    rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KernelIdeal.Region1.lean ====
/-
  Region 1 of the program (a row-block matrix product with a bias): one grid point per block of 512 rows.  The body
  reads the point's 512×1024 block of the activations, the whole 1024×1024 weight and the 1×1024 bias, and stores one
  512×1024 block: the product of the block with the weight plus the bias row.  Stated at a parameter `V`, the contents
  the region finds in the arrays: what each window's block is at a point, what the body leaves in the output's buffer
  as a function of the three input blocks, the body's triple, the pipeline's proof data and the body obligation at
  every point.  Nothing here reads a number; the same text holds at every float instance.
-/
import proofs.«137242_j37349035606739_2_alg».proof.Proof.Gen.KernelIdeal.Launch
import proofs.«137242_j37349035606739_2_alg».proof.Proof.Gen.KernelIdeal.Skeleton
import proofs.«137242_j37349035606739_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or an
    earlier one did (the index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each buffer whole. -/
abbrev r1_0 : Rect S512x1024 := Rect.unit (s := S512x1024) ![0, 0] S512x1024.size inb_S512x1024_S512x1024_0_0
abbrev r1_1 : Rect S1024x1024 := Rect.unit (s := S1024x1024) ![0, 0] S1024x1024.size inb_S1024x1024_S1024x1024_0_0
abbrev r1_2 : Rect S1x1024 := Rect.unit (s := S1x1024) ![0, 0] S1x1024.size inb_S1x1024_S1x1024_0_0

/-- The output's buffer after the body: its one store, of the product-plus-bias of the three input blocks. -/
def out1_3 (x0 : Vec F S512x1024 .f32) (x1 : Vec F S1024x1024 .bf16) (x2 : Vec F S1x1024 .f32) : Vec F S512x1024 .bf16 :=
  View.canon [⟨r1_0, k1_pay1 (View.ld x0 r1_0) (View.ld x1 r1_1) (View.ld x2 r1_2)⟩]

/-- The one store covers the buffer. -/
theorem cover1_3 (p0 : Vec F S512x1024 .bf16) (y : S512x1024.Idx) :
    ∃ pc ∈ ([⟨r1_0, p0⟩] : List (View.Piece (Elt F) S512x1024 .bf16)), y ∈ pc.1.set :=
  View.cover_of_tiled [⟨r1_0, p0⟩] S512x1024.size (by rfl) y

set_option maxHeartbeats 1000000 in
/-- The body on whole staging buffers, the inputs' at read contents and the output's at anything, runs to the
    continuation holding the inputs' as they were and the output's at `out1_3` of the inputs'. -/
theorem sound_kernel1 (c : Dev nD) (E : Set ℕ) (i : grid1.Coords) (arg0 : Memref sig .tc .vmem S512x1024 .f32) (harg0 : arg0.IsWhole) (arg1 : Memref sig .tc .vmem S1024x1024 .bf16) (harg1 : arg1.IsWhole) (arg2 : Memref sig .tc .vmem S1x1024 .f32) (harg2 : arg2.IsWhole) (arg3 : Memref sig .tc .vmem S512x1024 .bf16) (harg3 : arg3.IsWhole)
    (x0 : Vec F S512x1024 .f32) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__matmul_bias_kernel i arg0 harg0 arg1 harg1 arg2 harg2 arg3 harg3) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each
    input's buffer at its block and the output's at `out1_3` of the input blocks; the invariant keeps the scoped
    rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KernelIdeal.Region2.lean ====
/-
  Region 2 of the program (a row-block matrix product with a bias): one grid point per block of 512 rows.  The body
  reads the point's 512×1024 block of the activations, the whole 1024×1024 weight and the 1×1024 bias, and stores one
  512×1024 block: the product of the block with the weight plus the bias row.  Stated at a parameter `V`, the contents
  the region finds in the arrays: what each window's block is at a point, what the body leaves in the output's buffer
  as a function of the three input blocks, the body's triple, the pipeline's proof data and the body obligation at
  every point.  Nothing here reads a number; the same text holds at every float instance.
-/
import proofs.«137242_j37349035606739_2_alg».proof.Proof.Gen.KernelIdeal.Launch
import proofs.«137242_j37349035606739_2_alg».proof.Proof.Gen.KernelIdeal.Skeleton
import proofs.«137242_j37349035606739_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the point fetched it or an
    earlier one did (the index has not moved since). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: each buffer whole. -/
abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0

/-- The output's buffer after the body: its one store, of the product-plus-bias of the three input blocks. -/
def out2_3 (x0 : Vec F S512x1024 .f32) (x1 : Vec F S1024x1024 .bf16) (x2 : Vec F S1x1024 .f32) : Vec F S512x1024 .bf16 :=
  View.canon [⟨r2_0, k2_pay1 (View.ld x0 r2_0) (View.ld x1 r2_1) (View.ld x2 r2_2)⟩]

/-- The one store covers the buffer. -/
theorem cover2_3 (p0 : Vec F S512x1024 .bf16) (y : S512x1024.Idx) :
    ∃ pc ∈ ([⟨r2_0, p0⟩] : List (View.Piece (Elt F) S512x1024 .bf16)), y ∈ pc.1.set :=
  View.cover_of_tiled [⟨r2_0, p0⟩] S512x1024.size (by rfl) y

set_option maxHeartbeats 1000000 in
/-- The body on whole staging buffers, the inputs' at read contents and the output's at anything, runs to the
    continuation holding the inputs' as they were and the output's at `out2_3` of the inputs'. -/
theorem sound_kernel2 (c : Dev nD) (E : Set ℕ) (i : grid2.Coords) (arg0 : Memref sig .tc .vmem S512x1024 .f32) (harg0 : arg0.IsWhole) (arg1 : Memref sig .tc .vmem S1024x1024 .bf16) (harg1 : arg1.IsWhole) (arg2 : Memref sig .tc .vmem S1x1024 .f32) (harg2 : arg2.IsWhole) (arg3 : Memref sig .tc .vmem S512x1024 .bf16) (harg3 : arg3.IsWhole)
    (x0 : Vec F S512x1024 .f32) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__matmul_bias_kernel i arg0 harg0 arg1 harg1 arg2 harg2 arg3 harg3) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each
    input's buffer at its block and the output's at `out2_3` of the input blocks; the invariant keeps the scoped
    rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KernelIdeal.Region3.Base.lean ====
/-
  Region 3 of the program (attention in its running form): a grid of 64 heads by 8 key blocks, the key-block axis
  innermost.  At a head's first key block the body resets three scratch buffers — the running row maximum, the running
  normaliser and the running weighted sum — and at every block it folds the block's scores into them; only at the
  head's last key block does it divide the weighted sum by the normaliser and store the head's 2048×64 block, so the
  output window is idle (neither stored nor written back) at the other seven.  Here: what everything about this region
  is stated over, at a parameter `V` (the contents the region finds in the arrays) — the windows' blocks, the two
  branch conditions in closed form over the 512 points, where the output window is idle, the scratch buffers, and
  the region's invariant split at the three scratch buffers.
-/
import proofs.«137242_j37349035606739_2_alg».proof.Proof.Gen.KernelIdeal.Launch
import proofs.«137242_j37349035606739_2_alg».proof.Proof.Gen.KernelIdeal.Skeleton
import proofs.«137242_j37349035606739_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether the point fetched it or an
    earlier one did (the index has not moved since). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions, from the grid coordinates -/

/-- "This is the head's first key block": the body's first test, on the key-block coordinate. -/
abbrev cond3_0 (i : grid3.Coords) : Prop := (Scalar.cmpi .ne (Scalar.extui (Scalar.cmpi .eq (BitVec.ofNat 32 (i 1).val) 0#32)) 0#32) = 1#1
/-- It holds at the points whose position is a multiple of 8. -/
theorem hcond3_0 : ∀ t : Fin cfg3.N, cond3_0 (grid3.coords t) ↔ t.val % 8 = 0 :=
  (by decide +kernel : ∀ t : Fin grid3.N, cond3_0 (grid3.coords t) ↔ t.val % 8 = 0)

/-- "This is the head's last key block": the body's second test. -/
abbrev cond3_2 (i : grid3.Coords) : Prop := k3_cond2 i = 1#1
/-- It holds at the points whose position is 7 modulo 8. -/
theorem hcond3_2 : ∀ t : Fin cfg3.N, cond3_2 (grid3.coords t) ↔ t.val % 8 = 7 :=
  (by decide +kernel : ∀ t : Fin grid3.N, cond3_2 (grid3.coords t) ↔ t.val % 8 = 7)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from a head's last key block the output window is idle and not written back. -/
theorem idleAt3_3 : ∀ t : Fin cfg3.N, ¬cond3_2 (grid3.coords t) → cfg3.idle 3 (grid3.coords t) = true := by decide +kernel
theorem noFlush3_3 : ∀ t : Fin cfg3.N, ¬cond3_2 (grid3.coords t) → (cfg3.win 3).flush t = false := by decide +kernel
/-- At a head's last key block it is live. -/
theorem liveAt3_3 : ∀ t : Fin cfg3.N, cond3_2 (grid3.coords t) → cfg3.idle 3 (grid3.coords t) = false := by decide +kernel

/-! ## The staging and scratch buffers -/

/-- One staging buffer of the output window, through which its contents are stated. -/
abbrev VO3_3 : View sig .tc .vmem S1x2048x64 .bf16 := (Memref.whole cc3_stg3_0 : Memref sig .tc .vmem S1x2048x64 .bf16).view
abbrev ms3_0 (t : Fin cfg3.N) : Memref sig .tc .vmem S1x2048x64 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x256x64 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x256x64 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x2048x64 .bf16 := win3_3.stage (cfg3.slots t 3)
abbrev hs3_3 (t : Fin cfg3.N) : (ms3_3 t).IsWhole := hstage3_3 ((cfg3.slots t 3).cast nbuf3_3)
/-- The three scratch buffers: the running maximum, the running normaliser, the running weighted sum. -/
abbrev scM3_0 : Memref sig .tc .vmem S2048x1 .f32 := Memref.whole cc3_scratch0
abbrev scM3_1 : Memref sig .tc .vmem S2048x1 .f32 := Memref.whole cc3_scratch1
abbrev scM3_2 : Memref sig .tc .vmem S2048x64 .f32 := Memref.whole cc3_scratch2
abbrev VS3_0 : View sig .tc .vmem S2048x1 .f32 := scM3_0.view
abbrev VS3_1 : View sig .tc .vmem S2048x1 .f32 := scM3_1.view
abbrev VS3_2 : View sig .tc .vmem S2048x64 .f32 := scM3_2.view

/-- Every scoped buffer the region neither stages nor uses as scratch, unopened. -/
abbrev restBut3 (c : Dev nD) : sProp 𝕄 :=
  Pipeline.scopedRestBut (Ix := Unit) (Name := ℕ) (U := UR sig nD τ) (Lvl := ℕ) (Val := Elt F) spec3 c [cc3_scratch0, cc3_scratch1, cc3_scratch2]

/-- The region's invariant with nothing known of the scratch: the three scratch buffers each at some contents, the
    other scoped buffers unopened, the generator register at some state. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d)) ∗ restBut3 c) ∗ (∃ r, prngReg c r)) := by
  unfold Pipeline.ΦA; rw [scopedRest3_split]; simp only [scM3_0, scM3_1, scM3_2, owns_whole]; try rfl

end Cert.KernelIdeal.Fr

end
-- ==== Proof.KernelIdeal.Region3.RunA.lean ====
/-
  Region 3, the body at a head's FIRST key block (the scratch reset before it is read, so it may hold anything; the output window idle and handed back untouched): the lists of pieces its stores leave in each scratch buffer, last first, together with the body's triple on whole buffers — the
  inputs' at their contents and handed back as they were.
-/
import proofs.«137242_j37349035606739_2_alg».proof.Proof.KernelIdeal.Region3.Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun3_A (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : cond3_0 i) (hc2 : ¬cond3_2 i)
    (x0 : Vec F S1x2048x64 .bf16) (x1 : Vec F S1x256x64 .bf16) (x2 : Vec F S1x256x64 .bf16) :
    Σ' (LS0 : List (View.Piece (Elt F) S2048x1 .f32)) (LS1 : List (View.Piece (Elt F) S2048x1 .f32)), { LS2 : List (View.Piece (Elt F) S2048x64 .f32) //
      ∀ (xi3 : Vec F S1x2048x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc3__flash_attn_kernel i arg2 harg2 arg3 harg3 arg4 harg4 arg5 harg5 arg6 harg6 arg7 harg7 arg8 harg8) K } := by
  refine ⟨?_, ?_, ?_, fun xi3 E K => ?run⟩
  case run =>
    simp only [cc3__flash_attn_kernel_eq_skeleton]; unfold cc3__flash_attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %fs0, -, HS0⟩, ⟨%d5, %fs1, -, HS1⟩, ⟨%d6, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Fr

end
-- ==== Proof.KernelIdeal.Region3.RunB.lean ====
/-
  Region 3, the body at a key block that is neither a head's first nor its last (the scratch at what the block before left; the output window idle and handed back untouched): the lists of pieces its stores leave in each scratch buffer, last first, together with the body's triple on whole buffers — the
  inputs' at their contents and handed back as they were.
-/
import proofs.«137242_j37349035606739_2_alg».proof.Proof.KernelIdeal.Region3.Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun3_B (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : ¬cond3_2 i)
    (x0 : Vec F S1x2048x64 .bf16) (x1 : Vec F S1x256x64 .bf16) (x2 : Vec F S1x256x64 .bf16) (xs0 : Vec F S2048x1 .f32) (xs1 : Vec F S2048x1 .f32) (xs2 : Vec F S2048x64 .f32) :
    Σ' (LS0 : List (View.Piece (Elt F) S2048x1 .f32)) (LS1 : List (View.Piece (Elt F) S2048x1 .f32)), { LS2 : List (View.Piece (Elt F) S2048x64 .f32) //
      ∀ (xi3 : Vec F S1x2048x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc3__flash_attn_kernel i arg2 harg2 arg3 harg3 arg4 harg4 arg5 harg5 arg6 harg6 arg7 harg7 arg8 harg8) K } := by
  refine ⟨?_, ?_, ?_, fun xi3 E K => ?run⟩
  case run =>
    simp only [cc3__flash_attn_kernel_eq_skeleton]; unfold cc3__flash_attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Fr

end
-- ==== Proof.KernelIdeal.Region3.RunC.lean ====
/-
  Region 3, the body at a head's LAST key block (the scratch at what the block before left; the output's buffer at anything, stored whole): the lists of pieces its stores leave in each scratch buffer and in the output's buffer, last first, together with the body's triple on whole buffers — the
  inputs' at their contents and handed back as they were.
-/
import proofs.«137242_j37349035606739_2_alg».proof.Proof.KernelIdeal.Region3.Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun3_C (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : cond3_2 i)
    (x0 : Vec F S1x2048x64 .bf16) (x1 : Vec F S1x256x64 .bf16) (x2 : Vec F S1x256x64 .bf16) (xs0 : Vec F S2048x1 .f32) (xs1 : Vec F S2048x1 .f32) (xs2 : Vec F S2048x64 .f32) :
    Σ' (L3 : List (View.Piece (Elt F) S1x2048x64 .bf16)) (LS0 : List (View.Piece (Elt F) S2048x1 .f32)) (LS1 : List (View.Piece (Elt F) S2048x1 .f32)), { LS2 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc3__flash_attn_kernel i arg2 harg2 arg3 harg3 arg4 harg4 arg5 harg5 arg6 harg6 arg7 harg7 arg8 harg8) K } := by
  refine ⟨?_, ?_, ?_, ?_, fun E K => ?run⟩
  case run =>
    simp only [cc3__flash_attn_kernel_eq_skeleton]; unfold cc3__flash_attn_kernel_skel
    simp only [k3_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Fr

end
-- ==== Proof.KernelIdeal.Region3.lean ====
/-
  Region 3 (attention in its running form), the rest of its frame at a parameter `V`: what each of the body's three
  cases leaves in the three scratch buffers and, at a head's last key block, in the output's buffer; what they hold
  point by point (`outsAt3`: a head's first key block starts afresh, every other block continues from what the block
  before left); the region's invariant, which carries the scratch contents from a point to the next; the proof data;
  and the body obligation at every point, by cases on the point's position modulo 8.
-/
import proofs.«137242_j37349035606739_2_alg».proof.Proof.KernelIdeal.Region3.RunA
import proofs.«137242_j37349035606739_2_alg».proof.Proof.KernelIdeal.Region3.RunB
import proofs.«137242_j37349035606739_2_alg».proof.Proof.KernelIdeal.Region3.RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What stands for the output's buffer where the window is idle: nothing consults it (the window is neither written
    back there nor read at the next point). -/
def outIdle3 : Vec F S1x2048x64 .bf16 := VO3_3.read (Elt F) (VO3_3.writes (Elt F) VO3_3.junk [])

theorem scover3_A_0 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : cond3_0 i) (hc2 : ¬cond3_2 i) (x0 : Vec F S1x2048x64 .bf16) (x1 : Vec F S1x256x64 .bf16) (x2 : Vec F S1x256x64 .bf16) (y : S2048x1.Idx) :
    ∃ pc ∈ (kernelRun3_A c i arg2 harg2 arg3 harg3 arg4 harg4 arg5 harg5 arg6 harg6 arg7 harg7 arg8 harg8 hc0 hc2 x0 x1 x2).1, y ∈ pc.1.set :=
  View.cover_of_tiledL (kernelRun3_A c i arg2 harg2 arg3 harg3 arg4 harg4 arg5 harg5 arg6 harg6 arg7 harg7 arg8 harg8 hc0 hc2 x0 x1 x2).1 S2048x1.size (by sl_kernel_rfl) y
def sout3_A_0 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : cond3_0 i) (hc2 : ¬cond3_2 i) (x0 : Vec F S1x2048x64 .bf16) (x1 : Vec F S1x256x64 .bf16) (x2 : Vec F S1x256x64 .bf16) : Vec F S2048x1 .f32 :=
  VS3_0.read (Elt F) (VS3_0.writes (Elt F) VS3_0.junk (kernelRun3_A c i arg2 harg2 arg3 harg3 arg4 harg4 arg5 harg5 arg6 harg6 arg7 harg7 arg8 harg8 hc0 hc2 x0 x1 x2).1)

theorem scover3_A_1 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : cond3_0 i) (hc2 : ¬cond3_2 i) (x0 : Vec F S1x2048x64 .bf16) (x1 : Vec F S1x256x64 .bf16) (x2 : Vec F S1x256x64 .bf16) (y : S2048x1.Idx) :
    ∃ pc ∈ (kernelRun3_A c i arg2 harg2 arg3 harg3 arg4 harg4 arg5 harg5 arg6 harg6 arg7 harg7 arg8 harg8 hc0 hc2 x0 x1 x2).2.1, y ∈ pc.1.set :=
  View.cover_of_tiledL (kernelRun3_A c i arg2 harg2 arg3 harg3 arg4 harg4 arg5 harg5 arg6 harg6 arg7 harg7 arg8 harg8 hc0 hc2 x0 x1 x2).2.1 S2048x1.size (by sl_kernel_rfl) y
def sout3_A_1 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : cond3_0 i) (hc2 : ¬cond3_2 i) (x0 : Vec F S1x2048x64 .bf16) (x1 : Vec F S1x256x64 .bf16) (x2 : Vec F S1x256x64 .bf16) : Vec F S2048x1 .f32 :=
  VS3_1.read (Elt F) (VS3_1.writes (Elt F) VS3_1.junk (kernelRun3_A c i arg2 harg2 arg3 harg3 arg4 harg4 arg5 harg5 arg6 harg6 arg7 harg7 arg8 harg8 hc0 hc2 x0 x1 x2).2.1)

theorem scover3_A_2 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : cond3_0 i) (hc2 : ¬cond3_2 i) (x0 : Vec F S1x2048x64 .bf16) (x1 : Vec F S1x256x64 .bf16) (x2 : Vec F S1x256x64 .bf16) (y : S2048x64.Idx) :
    ∃ pc ∈ (kernelRun3_A c i arg2 harg2 arg3 harg3 arg4 harg4 arg5 harg5 arg6 harg6 arg7 harg7 arg8 harg8 hc0 hc2 x0 x1 x2).2.2.1, y ∈ pc.1.set :=
  View.cover_of_tiledL (kernelRun3_A c i arg2 harg2 arg3 harg3 arg4 harg4 arg5 harg5 arg6 harg6 arg7 harg7 arg8 harg8 hc0 hc2 x0 x1 x2).2.2.1 S2048x64.size (by sl_kernel_rfl) y
def sout3_A_2 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : cond3_0 i) (hc2 : ¬cond3_2 i) (x0 : Vec F S1x2048x64 .bf16) (x1 : Vec F S1x256x64 .bf16) (x2 : Vec F S1x256x64 .bf16) : Vec F S2048x64 .f32 :=
  VS3_2.read (Elt F) (VS3_2.writes (Elt F) VS3_2.junk (kernelRun3_A c i arg2 harg2 arg3 harg3 arg4 harg4 arg5 harg5 arg6 harg6 arg7 harg7 arg8 harg8 hc0 hc2 x0 x1 x2).2.2.1)

theorem scover3_B_0 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : ¬cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) (y : S2048x1.Idx) :
    ∃ pc ∈ (kernelRun3_B c i arg2 harg2 arg3 harg3 arg4 harg4 arg5 harg5 arg6 harg6 arg7 harg7 arg8 harg8 hc0 hc2 x0 x1 x2 xs0 xs1 xs2).1, y ∈ pc.1.set :=
  View.cover_of_tiledL (kernelRun3_B c i arg2 harg2 arg3 harg3 arg4 harg4 arg5 harg5 arg6 harg6 arg7 harg7 arg8 harg8 hc0 hc2 x0 x1 x2 xs0 xs1 xs2).1 S2048x1.size (by sl_kernel_rfl) y
def sout3_B_0 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : ¬cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) : Vec F S2048x1 .f32 :=
  VS3_0.read (Elt F) (VS3_0.writes (Elt F) VS3_0.junk (kernelRun3_B c i arg2 harg2 arg3 harg3 arg4 harg4 arg5 harg5 arg6 harg6 arg7 harg7 arg8 harg8 hc0 hc2 x0 x1 x2 xs0 xs1 xs2).1)

theorem scover3_B_1 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : ¬cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) (y : S2048x1.Idx) :
    ∃ pc ∈ (kernelRun3_B c i arg2 harg2 arg3 harg3 arg4 harg4 arg5 harg5 arg6 harg6 arg7 harg7 arg8 harg8 hc0 hc2 x0 x1 x2 xs0 xs1 xs2).2.1, y ∈ pc.1.set :=
  View.cover_of_tiledL (kernelRun3_B c i arg2 harg2 arg3 harg3 arg4 harg4 arg5 harg5 arg6 harg6 arg7 harg7 arg8 harg8 hc0 hc2 x0 x1 x2 xs0 xs1 xs2).2.1 S2048x1.size (by sl_kernel_rfl) y
def sout3_B_1 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : ¬cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) : Vec F S2048x1 .f32 :=
  VS3_1.read (Elt F) (VS3_1.writes (Elt F) VS3_1.junk (kernelRun3_B c i arg2 harg2 arg3 harg3 arg4 harg4 arg5 harg5 arg6 harg6 arg7 harg7 arg8 harg8 hc0 hc2 x0 x1 x2 xs0 xs1 xs2).2.1)

theorem scover3_B_2 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : ¬cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) (y : S2048x64.Idx) :
    ∃ pc ∈ (kernelRun3_B c i arg2 harg2 arg3 harg3 arg4 harg4 arg5 harg5 arg6 harg6 arg7 harg7 arg8 harg8 hc0 hc2 x0 x1 x2 xs0 xs1 xs2).2.2.1, y ∈ pc.1.set :=
  View.cover_of_tiledL (kernelRun3_B c i arg2 harg2 arg3 harg3 arg4 harg4 arg5 harg5 arg6 harg6 arg7 harg7 arg8 harg8 hc0 hc2 x0 x1 x2 xs0 xs1 xs2).2.2.1 S2048x64.size (by sl_kernel_rfl) y
def sout3_B_2 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : ¬cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) : Vec F S2048x64 .f32 :=
  VS3_2.read (Elt F) (VS3_2.writes (Elt F) VS3_2.junk (kernelRun3_B c i arg2 harg2 arg3 harg3 arg4 harg4 arg5 harg5 arg6 harg6 arg7 harg7 arg8 harg8 hc0 hc2 x0 x1 x2 xs0 xs1 xs2).2.2.1)

/-- The last key block's one store covers the output's buffer. -/
theorem cover3_C_3 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) (y : S1x2048x64.Idx) :
    ∃ pc ∈ (kernelRun3_C c i arg2 harg2 arg3 harg3 arg4 harg4 arg5 harg5 arg6 harg6 arg7 harg7 arg8 harg8 hc0 hc2 x0 x1 x2 xs0 xs1 xs2).1, y ∈ pc.1.set :=
  View.cover_of_tiledL (kernelRun3_C c i arg2 harg2 arg3 harg3 arg4 harg4 arg5 harg5 arg6 harg6 arg7 harg7 arg8 harg8 hc0 hc2 x0 x1 x2 xs0 xs1 xs2).1 S1x2048x64.size (by sl_kernel_rfl) y
/-- What the last key block leaves in the output's buffer: the weighted sum over the normaliser. -/
def out3_C_3 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) : Vec F S1x2048x64 .bf16 :=
  VO3_3.read (Elt F) (VO3_3.writes (Elt F) VO3_3.junk (kernelRun3_C c i arg2 harg2 arg3 harg3 arg4 harg4 arg5 harg5 arg6 harg6 arg7 harg7 arg8 harg8 hc0 hc2 x0 x1 x2 xs0 xs1 xs2).1)

theorem scover3_C_0 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) (y : S2048x1.Idx) :
    ∃ pc ∈ (kernelRun3_C c i arg2 harg2 arg3 harg3 arg4 harg4 arg5 harg5 arg6 harg6 arg7 harg7 arg8 harg8 hc0 hc2 x0 x1 x2 xs0 xs1 xs2).2.1, y ∈ pc.1.set :=
  View.cover_of_tiledL (kernelRun3_C c i arg2 harg2 arg3 harg3 arg4 harg4 arg5 harg5 arg6 harg6 arg7 harg7 arg8 harg8 hc0 hc2 x0 x1 x2 xs0 xs1 xs2).2.1 S2048x1.size (by sl_kernel_rfl) y
def sout3_C_0 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) : Vec F S2048x1 .f32 :=
  VS3_0.read (Elt F) (VS3_0.writes (Elt F) VS3_0.junk (kernelRun3_C c i arg2 harg2 arg3 harg3 arg4 harg4 arg5 harg5 arg6 harg6 arg7 harg7 arg8 harg8 hc0 hc2 x0 x1 x2 xs0 xs1 xs2).2.1)

theorem scover3_C_1 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) (y : S2048x1.Idx) :
    ∃ pc ∈ (kernelRun3_C c i arg2 harg2 arg3 harg3 arg4 harg4 arg5 harg5 arg6 harg6 arg7 harg7 arg8 harg8 hc0 hc2 x0 x1 x2 xs0 xs1 xs2).2.2.1, y ∈ pc.1.set :=
  View.cover_of_tiledL (kernelRun3_C c i arg2 harg2 arg3 harg3 arg4 harg4 arg5 harg5 arg6 harg6 arg7 harg7 arg8 harg8 hc0 hc2 x0 x1 x2 xs0 xs1 xs2).2.2.1 S2048x1.size (by sl_kernel_rfl) y
def sout3_C_1 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) : Vec F S2048x1 .f32 :=
  VS3_1.read (Elt F) (VS3_1.writes (Elt F) VS3_1.junk (kernelRun3_C c i arg2 harg2 arg3 harg3 arg4 harg4 arg5 harg5 arg6 harg6 arg7 harg7 arg8 harg8 hc0 hc2 x0 x1 x2 xs0 xs1 xs2).2.2.1)

theorem scover3_C_2 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) (y : S2048x64.Idx) :
    ∃ pc ∈ (kernelRun3_C c i arg2 harg2 arg3 harg3 arg4 harg4 arg5 harg5 arg6 harg6 arg7 harg7 arg8 harg8 hc0 hc2 x0 x1 x2 xs0 xs1 xs2).2.2.2.1, y ∈ pc.1.set :=
  View.cover_of_tiledL (kernelRun3_C c i arg2 harg2 arg3 harg3 arg4 harg4 arg5 harg5 arg6 harg6 arg7 harg7 arg8 harg8 hc0 hc2 x0 x1 x2 xs0 xs1 xs2).2.2.2.1 S2048x64.size (by sl_kernel_rfl) y
def sout3_C_2 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) : Vec F S2048x64 .f32 :=
  VS3_2.read (Elt F) (VS3_2.writes (Elt F) VS3_2.junk (kernelRun3_C c i arg2 harg2 arg3 harg3 arg4 harg4 arg5 harg5 arg6 harg6 arg7 harg7 arg8 harg8 hc0 hc2 x0 x1 x2 xs0 xs1 xs2).2.2.2.1)

/-! ## What the buffers hold after each point -/

/-- After the body at position `n`: the output's buffer, then the running maximum, normaliser and weighted sum. -/
def outsAt3 (c : Dev nD) : (n : ℕ) → n < cfg3.N → Vec F S1x2048x64 .bf16 × Vec F S2048x1 .f32 × Vec F S2048x1 .f32 × Vec F S2048x64 .f32
  | 0, hn => (outIdle3, sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_2 ⟨0, hn⟩).mp h)) (iblk3 V c 0 ⟨0, hn⟩) (iblk3 V c 1 ⟨0, hn⟩) (iblk3 V c 2 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_2 ⟨0, hn⟩).mp h)) (iblk3 V c 0 ⟨0, hn⟩) (iblk3 V c 1 ⟨0, hn⟩) (iblk3 V c 2 ⟨0, hn⟩), sout3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_2 ⟨0, hn⟩).mp h)) (iblk3 V c 0 ⟨0, hn⟩) (iblk3 V c 1 ⟨0, hn⟩) (iblk3 V c 2 ⟨0, hn⟩))
  | n + 1, hn =>
    if h0 : (n + 1) % 8 = 0 then
      (outIdle3, sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) ((hcond3_0 ⟨n + 1, hn⟩).mpr h0) (fun h => (fun h => by (try dsimp only at h); omega) ((hcond3_2 ⟨n + 1, hn⟩).mp h)) (iblk3 V c 0 ⟨n + 1, hn⟩) (iblk3 V c 1 ⟨n + 1, hn⟩) (iblk3 V c 2 ⟨n + 1, hn⟩), sout3_A_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) ((hcond3_0 ⟨n + 1, hn⟩).mpr h0) (fun h => (fun h => by (try dsimp only at h); omega) ((hcond3_2 ⟨n + 1, hn⟩).mp h)) (iblk3 V c 0 ⟨n + 1, hn⟩) (iblk3 V c 1 ⟨n + 1, hn⟩) (iblk3 V c 2 ⟨n + 1, hn⟩), sout3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) ((hcond3_0 ⟨n + 1, hn⟩).mpr h0) (fun h => (fun h => by (try dsimp only at h); omega) ((hcond3_2 ⟨n + 1, hn⟩).mp h)) (iblk3 V c 0 ⟨n + 1, hn⟩) (iblk3 V c 1 ⟨n + 1, hn⟩) (iblk3 V c 2 ⟨n + 1, hn⟩))
    else
      if h2 : (n + 1) % 8 = 7 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) ((hcond3_2 ⟨n + 1, hn⟩).mpr h2) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) ((hcond3_2 ⟨n + 1, hn⟩).mpr h2) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_C_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) ((hcond3_2 ⟨n + 1, hn⟩).mpr h2) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) ((hcond3_2 ⟨n + 1, hn⟩).mpr h2) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2)
      else
        (outIdle3, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) (fun h => h2 ((hcond3_2 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) (fun h => h2 ((hcond3_2 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) (fun h => h2 ((hcond3_2 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2)

theorem outsAt3_A (c : Dev nD) (t : Fin cfg3.N) (h0 : t.val % 8 = 0) (h2 : ¬t.val % 8 = 7) :
    outsAt3 V c t.val t.isLt = (outIdle3, sout3_A_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h2 ((hcond3_2 t).mp h)) (iblk3 V c 0 t) (iblk3 V c 1 t) (iblk3 V c 2 t), sout3_A_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h2 ((hcond3_2 t).mp h)) (iblk3 V c 0 t) (iblk3 V c 1 t) (iblk3 V c 2 t), sout3_A_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h2 ((hcond3_2 t).mp h)) (iblk3 V c 0 t) (iblk3 V c 1 t) (iblk3 V c 2 t)) := by
  obtain ⟨n, hn⟩ := t
  cases n with
  | zero => exact rfl
  | succ n => exact (dif_pos h0).trans rfl

theorem outsAt3_B (c : Dev nD) (t : Fin cfg3.N) (h0 : ¬t.val % 8 = 0) (h2 : ¬t.val % 8 = 7) :
    outsAt3 V c t.val t.isLt = (outIdle3, sout3_B_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h2 ((hcond3_2 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h2 ((hcond3_2 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h2 ((hcond3_2 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h2).trans rfl)

theorem outsAt3_C (c : Dev nD) (t : Fin cfg3.N) (h0 : ¬t.val % 8 = 0) (h2 : t.val % 8 = 7) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_2 t).mpr h2) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_2 t).mpr h2) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_2 t).mpr h2) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_2 t).mpr h2) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h2).trans rfl)

/-- The region's invariant before position `n`: before the first point nothing is known of the scratch; afterwards
    each scratch buffer holds what the point before left in it. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.1) ∗ owns (c : Thread nD τ) scM3_1 fullShare ((outsAt3 V c n hn).2.2.1) ∗ owns (c : Thread nD τ) scM3_2 fullShare ((outsAt3 V c n hn).2.2.2)) ∗ restBut3 c) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(iprop(owns (c : Thread nD τ) scM3_0 fullShare ((outsAt3 V c n hn).2.1) ∗ owns (c : Thread nD τ) scM3_1 fullShare ((outsAt3 V c n hn).2.2.1) ∗ owns (c : Thread nD τ) scM3_2 fullShare ((outsAt3 V c n hn).2.2.2)) ∗ restBut3 c) ∗ (∃ r, prngReg c r)) := rfl
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.1) ∗ owns (c : Thread nD τ) scM3_1 fullShare ((outsAt3 V c (n - 1) (by omega)).2.2.1) ∗ owns (c : Thread nD τ) scM3_2 fullShare ((outsAt3 V c (n - 1) (by omega)).2.2.2)) ∗ restBut3 c) ∗ (∃ r, prngReg c r)) := by
  cases n with
  | zero => exact absurd rfl hz
  | succ n => rfl

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 8000000 in
/-- The body at any point: the inputs' buffers hold their blocks; the position modulo 8 says which case the point is
    in; the invariant hands the body the scratch at what the point before left (at anything before the first point)
    and takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  by_cases h0 : t.val % 8 = 0
  · have h2 : ¬t.val % 8 = 7 := by omega
    rw [show (dat3 V c).leavesExact 0 t = owns (c : Thread nD τ) (ms3_0 t) fullShare ((dat3 V c).after 0 t) from by
        unfold Dat.leavesExact; rw [liveAt3_0 t], after3_0]
    rw [show (dat3 V c).leavesExact 1 t = owns (c : Thread nD τ) (ms3_1 t) fullShare ((dat3 V c).after 1 t) from by
        unfold Dat.leavesExact; rw [liveAt3_1 t], after3_1]
    rw [show (dat3 V c).leavesExact 2 t = owns (c : Thread nD τ) (ms3_2 t) fullShare ((dat3 V c).after 2 t) from by
        unfold Dat.leavesExact; rw [liveAt3_2 t], after3_2]
    rw [Dat.leavesExact_idle (dat3 V c) 3 t (idleAt3_3 t (fun h => h2 ((hcond3_2 t).mp h))) (noFlush3_3 t (fun h => h2 ((hcond3_2 t).mp h)))]
    rw [outsAt3_A V c t h0 h2]
    unfold sout3_A_0 sout3_A_1 sout3_A_2; (try dsimp only)
    by_cases hz : t.val = 0
    · rw [PhiS3_castSucc V c t, PhiS3_zero V c _ _ hz, PhiA3_eq]
      iintro ⟨⟨⟨⟨HS0, HS1, HS2⟩, Hrb⟩, Hg⟩, Ho, ⟨%d0, H0⟩, ⟨%d1, H1⟩, ⟨%d2, H2⟩, ⟨%d3, H3⟩⟩
      iapply ((kernelRun3_A c (grid3.coords t) _ _ _ _ _ _ _ _ _ _ _ _ _ _ ((hcond3_0 t).mpr h0) (fun h => h2 ((hcond3_2 t).mp h)) (iblk3 V c 0 t) (iblk3 V c 1 t) (iblk3 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hrb Hg]
      · isplitl [HS0 HS1 HS2 Hrb]
        · isplitl [HS0 HS1 HS2]
          · isplitl [HS0]
            · unfold owns; iexists _; isplitr
              swap; · iexact HS0
              ipureintro; exact View.read_writes_of_cover _ _ _ _ _ (scover3_A_0 c _ _ _ _ _ _ _ _ _ _ _ _ _ _ _ _ _ _ _ _)
            isplitl [HS1]
            · unfold owns; iexists _; isplitr
              swap; · iexact HS1
              ipureintro; exact View.read_writes_of_cover _ _ _ _ _ (scover3_A_1 c _ _ _ _ _ _ _ _ _ _ _ _ _ _ _ _ _ _ _ _)
            unfold owns; iexists _; isplitr
            swap; · iexact HS2
            ipureintro; exact View.read_writes_of_cover _ _ _ _ _ (scover3_A_2 c _ _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨⟨HS0, HS1, HS2⟩, Hrb⟩, Hg⟩, Ho, ⟨%d0, H0⟩, ⟨%d1, H1⟩, ⟨%d2, H2⟩, ⟨%d3, H3⟩⟩
      iapply ((kernelRun3_A c (grid3.coords t) _ _ _ _ _ _ _ _ _ _ _ _ _ _ ((hcond3_0 t).mpr h0) (fun h => h2 ((hcond3_2 t).mp h)) (iblk3 V c 0 t) (iblk3 V c 1 t) (iblk3 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hrb Hg]
      · isplitl [HS0 HS1 HS2 Hrb]
        · isplitl [HS0 HS1 HS2]
          · isplitl [HS0]
            · unfold owns; iexists _; isplitr
              swap; · iexact HS0
              ipureintro; exact View.read_writes_of_cover _ _ _ _ _ (scover3_A_0 c _ _ _ _ _ _ _ _ _ _ _ _ _ _ _ _ _ _ _ _)
            isplitl [HS1]
            · unfold owns; iexists _; isplitr
              swap; · iexact HS1
              ipureintro; exact View.read_writes_of_cover _ _ _ _ _ (scover3_A_1 c _ _ _ _ _ _ _ _ _ _ _ _ _ _ _ _ _ _ _ _)
            unfold owns; iexists _; isplitr
            swap; · iexact HS2
            ipureintro; exact View.read_writes_of_cover _ _ _ _ _ (scover3_A_2 c _ _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h2 : t.val % 8 = 7
    · rw [show (dat3 V c).leavesExact 0 t = owns (c : Thread nD τ) (ms3_0 t) fullShare ((dat3 V c).after 0 t) from by
          unfold Dat.leavesExact; rw [liveAt3_0 t], after3_0]
      rw [show (dat3 V c).leavesExact 1 t = owns (c : Thread nD τ) (ms3_1 t) fullShare ((dat3 V c).after 1 t) from by
          unfold Dat.leavesExact; rw [liveAt3_1 t], after3_1]
      rw [show (dat3 V c).leavesExact 2 t = owns (c : Thread nD τ) (ms3_2 t) fullShare ((dat3 V c).after 2 t) from by
          unfold Dat.leavesExact; rw [liveAt3_2 t], after3_2]
      rw [show (dat3 V c).leavesExact 3 t = owns (c : Thread nD τ) (ms3_3 t) fullShare ((dat3 V c).after 3 t) from by
          unfold Dat.leavesExact; rw [liveAt3_3 t ((hcond3_2 t).mpr h2)], after3_3]
      rw [outsAt3_C V c t h0 h2]
      unfold out3_C_3 sout3_C_0 sout3_C_1 sout3_C_2; (try dsimp only)
      rw [PhiS3_castSucc V c t, PhiS3_pos V c _ _ hz]
      iintro ⟨⟨⟨⟨HS0, HS1, HS2⟩, Hrb⟩, Hg⟩, Ho, ⟨%d0, H0⟩, ⟨%d1, H1⟩, ⟨%d2, H2⟩, ⟨%d3, H3⟩⟩
      iapply ((kernelRun3_C c (grid3.coords t) _ _ _ _ _ _ _ _ _ _ _ _ _ _ (fun h => h0 ((hcond3_0 t).mp h)) ((hcond3_2 t).mpr h2) (iblk3 V c 0 t) (iblk3 V c 1 t) (iblk3 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hrb Hg]
      · isplitl [HS0 HS1 HS2 Hrb]
        · isplitl [HS0 HS1 HS2]
          · isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover3_C_1 c _ _ _ _ _ _ _ _ _ _ _ _ _ _ _ _ _ _ _ _ _ _ _)
            unfold owns; iexists _; isplitr
            swap; · iexact HS2
            ipureintro; exact View.read_writes_of_cover _ _ _ _ _ (scover3_C_2 c _ _ _ _ _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _ _ _ _ _ _ _)
    · rw [show (dat3 V c).leavesExact 0 t = owns (c : Thread nD τ) (ms3_0 t) fullShare ((dat3 V c).after 0 t) from by
          unfold Dat.leavesExact; rw [liveAt3_0 t], after3_0]
      rw [show (dat3 V c).leavesExact 1 t = owns (c : Thread nD τ) (ms3_1 t) fullShare ((dat3 V c).after 1 t) from by
          unfold Dat.leavesExact; rw [liveAt3_1 t], after3_1]
      rw [show (dat3 V c).leavesExact 2 t = owns (c : Thread nD τ) (ms3_2 t) fullShare ((dat3 V c).after 2 t) from by
          unfold Dat.leavesExact; rw [liveAt3_2 t], after3_2]
      rw [Dat.leavesExact_idle (dat3 V c) 3 t (idleAt3_3 t (fun h => h2 ((hcond3_2 t).mp h))) (noFlush3_3 t (fun h => h2 ((hcond3_2 t).mp h)))]
      rw [outsAt3_B V c t h0 h2]
      unfold sout3_B_0 sout3_B_1 sout3_B_2; (try dsimp only)
      rw [PhiS3_castSucc V c t, PhiS3_pos V c _ _ hz]
      iintro ⟨⟨⟨⟨HS0, HS1, HS2⟩, Hrb⟩, Hg⟩, Ho, ⟨%d0, H0⟩, ⟨%d1, H1⟩, ⟨%d2, H2⟩, ⟨%d3, H3⟩⟩
      iapply ((kernelRun3_B c (grid3.coords t) _ _ _ _ _ _ _ _ _ _ _ _ _ _ (fun h => h0 ((hcond3_0 t).mp h)) (fun h => h2 ((hcond3_2 t).mp h)) (iblk3 V c 0 t) (iblk3 V c 1 t) (iblk3 V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hrb Hg]
      · isplitl [HS0 HS1 HS2 Hrb]
        · isplitl [HS0 HS1 HS2]
          · isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover3_B_1 c _ _ _ _ _ _ _ _ _ _ _ _ _ _ _ _ _ _ _ _ _ _ _)
            unfold owns; iexists _; isplitr
            swap; · iexact HS2
            ipureintro; exact View.read_writes_of_cover _ _ _ _ _ (scover3_B_2 c _ _ _ _ _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the entry form back: the scratch contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1, HS2⟩, Hrb⟩, Hg⟩
  isplitl [HS0 HS1 HS2 Hrb]
  · isplitl [HS0 HS1 HS2]
    · isplitl [HS0]; · iexists _; iexact HS0
      isplitl [HS1]; · iexists _; iexact HS1
      iexists _; iexact HS2
    iexact Hrb
  iexact Hg

theorem hout3 (c : Dev nD) : (dat3 V c).Φ (Fin.last cfg3.N) ⊢ Pipeline.ΦA spec3 c :=
  Phi_out3 V c _ (by rw [Fin.val_last]; have : cfg3.N = 512 := N_3; omega)

end Cert.KernelIdeal.Fr

end
-- ==== Proof.KernelIdeal.Region4.lean ====
/-
  Region 4 of the program (a row-block matrix product with a bias): one grid point per block of 512 rows.  The body
  reads the point's 512×1024 block of the activations, the whole 1024×1024 weight and the 1×1024 bias, and stores one
  512×1024 block: the product of the block with the weight plus the bias row.  Stated at a parameter `V`, the contents
  the region finds in the arrays: what each window's block is at a point, what the body leaves in the output's buffer
  as a function of the three input blocks, the body's triple, the pipeline's proof data and the body obligation at
  every point.  Nothing here reads a number; the same text holds at every float instance.
-/
import proofs.«137242_j37349035606739_2_alg».proof.Proof.Gen.KernelIdeal.Launch
import proofs.«137242_j37349035606739_2_alg».proof.Proof.Gen.KernelIdeal.Skeleton
import proofs.«137242_j37349035606739_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether the point fetched it or an
    earlier one did (the index has not moved since). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The body's accesses: each buffer whole. -/
abbrev r4_0 : Rect S512x1024 := Rect.unit (s := S512x1024) ![0, 0] S512x1024.size inb_S512x1024_S512x1024_0_0
abbrev r4_1 : Rect S1024x1024 := Rect.unit (s := S1024x1024) ![0, 0] S1024x1024.size inb_S1024x1024_S1024x1024_0_0
abbrev r4_2 : Rect S1x1024 := Rect.unit (s := S1x1024) ![0, 0] S1x1024.size inb_S1x1024_S1x1024_0_0

/-- The output's buffer after the body: its one store, of the product-plus-bias of the three input blocks. -/
def out4_3 (x0 : Vec F S512x1024 .bf16) (x1 : Vec F S1024x1024 .bf16) (x2 : Vec F S1x1024 .f32) : Vec F S512x1024 .f32 :=
  View.canon [⟨r4_0, k4_pay1 (View.ld x0 r4_0) (View.ld x1 r4_1) (View.ld x2 r4_2)⟩]

/-- The one store covers the buffer. -/
theorem cover4_3 (p0 : Vec F S512x1024 .f32) (y : S512x1024.Idx) :
    ∃ pc ∈ ([⟨r4_0, p0⟩] : List (View.Piece (Elt F) S512x1024 .f32)), y ∈ pc.1.set :=
  View.cover_of_tiled [⟨r4_0, p0⟩] S512x1024.size (by rfl) y

set_option maxHeartbeats 1000000 in
/-- The body on whole staging buffers, the inputs' at read contents and the output's at anything, runs to the
    continuation holding the inputs' as they were and the output's at `out4_3` of the inputs'. -/
theorem sound_kernel4 (c : Dev nD) (E : Set ℕ) (i : grid4.Coords) (arg0 : Memref sig .tc .vmem S512x1024 .bf16) (harg0 : arg0.IsWhole) (arg1 : Memref sig .tc .vmem S1024x1024 .bf16) (harg1 : arg1.IsWhole) (arg2 : Memref sig .tc .vmem S1x1024 .f32) (harg2 : arg2.IsWhole) (arg3 : Memref sig .tc .vmem S512x1024 .f32) (harg3 : arg3.IsWhole)
    (x0 : Vec F S512x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out4_3 x0 x1 x2)) -∗ K ⟨⟩))
      ⊢ wp frame (wpE (defs₀ (F := F)) Variants.none c none) E (cc4__matmul_bias_kernel i arg0 harg0 arg1 harg1 arg2 harg2 arg3 harg3) K := by
  simp only [cc4__matmul_bias_kernel_eq_skeleton]; unfold cc4__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The pipeline's proof data on core `c`: the arrays as the region finds them; after the body at point `t` each
    input's buffer at its block and the output's at `out4_3` of the input blocks; the invariant keeps the scoped
    rest and the generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KernelIdeal.Run.lean ====
/-
  The run of the whole program: the contents of every buffer at each boundary between a stretch of host operations and
  a launch, folded from the launch memory — a stretch applies its operations, a launch leaves in its windows' arrays
  what its write-backs fold to (`arrAt` of its proof data at the last point) and every other buffer as it found it —;
  each launch as a segment entered from one boundary and left at the next; and the run: every weakly fair execution
  terminates without a fault in a state whose every buffer holds the last boundary's contents.  No host stretch and no
  launch writes an argument array, so each ends as launched.
-/
import proofs.«137242_j37349035606739_2_alg».proof.Proof.KernelIdeal.Region0
import proofs.«137242_j37349035606739_2_alg».proof.Proof.KernelIdeal.Region1
import proofs.«137242_j37349035606739_2_alg».proof.Proof.KernelIdeal.Region2
import proofs.«137242_j37349035606739_2_alg».proof.Proof.KernelIdeal.Region3
import proofs.«137242_j37349035606739_2_alg».proof.Proof.KernelIdeal.Region4
import proofs.«137242_j37349035606739_2_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)

/-- After host stretch 0 (launch 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At launch 0's exit: its arrays at what its write-backs fold to, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1 (launch 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At launch 1's exit: its arrays at what its write-backs fold to, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2 (launch 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At launch 2's exit: its arrays at what its write-backs fold to, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3 (launch 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At launch 3's exit: its arrays at what its write-backs fold to, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After host stretch 4 (launch 4's entry). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At launch 4's exit: its arrays at what its write-backs fold to, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the last host stretch. -/
abbrev W11 : Dev nD → Valuation τ sig (Elt F) := fun c => StableHlo.after hostOps5 (W10 m ρ c)

/-! ## The arguments end as launched -/

theorem W11_main_arg0 (c : Dev nD) : W11 m ρ c (Proc.devRef .tc main_arg0) = m ((c : Thread nD τ).loc main_arg0) :=
  (StableHlo.after_of_writes_sub hostOps5 _ hostOps5_writes (r := main_arg0) (by decide)).trans <|
  (W10_of_ne m ρ c main_arg0 (by decide)).trans <|
  (StableHlo.after_of_writes_sub hostOps4 _ hostOps4_writes (r := main_arg0) (by decide)).trans <|
  (W8_of_ne m ρ c main_arg0 (by decide)).trans <|
  (StableHlo.after_of_writes_sub hostOps3 _ hostOps3_writes (r := main_arg0) (by decide)).trans <|
  (W6_of_ne m ρ c main_arg0 (by decide)).trans <|
  (StableHlo.after_of_writes_sub hostOps2 _ hostOps2_writes (r := main_arg0) (by decide)).trans <|
  (W4_of_ne m ρ c main_arg0 (by decide)).trans <|
  (StableHlo.after_of_writes_sub hostOps1 _ hostOps1_writes (r := main_arg0) (by decide)).trans <|
  (W2_of_ne m ρ c main_arg0 (by decide)).trans <|
  (StableHlo.after_of_writes_sub hostOps0 _ hostOps0_writes (r := main_arg0) (by decide)).trans rfl

theorem W11_main_arg1 (c : Dev nD) : W11 m ρ c (Proc.devRef .tc main_arg1) = m ((c : Thread nD τ).loc main_arg1) :=
  (StableHlo.after_of_writes_sub hostOps5 _ hostOps5_writes (r := main_arg1) (by decide)).trans <|
  (W10_of_ne m ρ c main_arg1 (by decide)).trans <|
  (StableHlo.after_of_writes_sub hostOps4 _ hostOps4_writes (r := main_arg1) (by decide)).trans <|
  (W8_of_ne m ρ c main_arg1 (by decide)).trans <|
  (StableHlo.after_of_writes_sub hostOps3 _ hostOps3_writes (r := main_arg1) (by decide)).trans <|
  (W6_of_ne m ρ c main_arg1 (by decide)).trans <|
  (StableHlo.after_of_writes_sub hostOps2 _ hostOps2_writes (r := main_arg1) (by decide)).trans <|
  (W4_of_ne m ρ c main_arg1 (by decide)).trans <|
  (StableHlo.after_of_writes_sub hostOps1 _ hostOps1_writes (r := main_arg1) (by decide)).trans <|
  (W2_of_ne m ρ c main_arg1 (by decide)).trans <|
  (StableHlo.after_of_writes_sub hostOps0 _ hostOps0_writes (r := main_arg1) (by decide)).trans rfl

theorem W11_main_arg2 (c : Dev nD) : W11 m ρ c (Proc.devRef .tc main_arg2) = m ((c : Thread nD τ).loc main_arg2) :=
  (StableHlo.after_of_writes_sub hostOps5 _ hostOps5_writes (r := main_arg2) (by decide)).trans <|
  (W10_of_ne m ρ c main_arg2 (by decide)).trans <|
  (StableHlo.after_of_writes_sub hostOps4 _ hostOps4_writes (r := main_arg2) (by decide)).trans <|
  (W8_of_ne m ρ c main_arg2 (by decide)).trans <|
  (StableHlo.after_of_writes_sub hostOps3 _ hostOps3_writes (r := main_arg2) (by decide)).trans <|
  (W6_of_ne m ρ c main_arg2 (by decide)).trans <|
  (StableHlo.after_of_writes_sub hostOps2 _ hostOps2_writes (r := main_arg2) (by decide)).trans <|
  (W4_of_ne m ρ c main_arg2 (by decide)).trans <|
  (StableHlo.after_of_writes_sub hostOps1 _ hostOps1_writes (r := main_arg2) (by decide)).trans <|
  (W2_of_ne m ρ c main_arg2 (by decide)).trans <|
  (StableHlo.after_of_writes_sub hostOps0 _ hostOps0_writes (r := main_arg2) (by decide)).trans rfl

theorem W11_main_arg3 (c : Dev nD) : W11 m ρ c (Proc.devRef .tc main_arg3) = m ((c : Thread nD τ).loc main_arg3) :=
  (StableHlo.after_of_writes_sub hostOps5 _ hostOps5_writes (r := main_arg3) (by decide)).trans <|
  (W10_of_ne m ρ c main_arg3 (by decide)).trans <|
  (StableHlo.after_of_writes_sub hostOps4 _ hostOps4_writes (r := main_arg3) (by decide)).trans <|
  (W8_of_ne m ρ c main_arg3 (by decide)).trans <|
  (StableHlo.after_of_writes_sub hostOps3 _ hostOps3_writes (r := main_arg3) (by decide)).trans <|
  (W6_of_ne m ρ c main_arg3 (by decide)).trans <|
  (StableHlo.after_of_writes_sub hostOps2 _ hostOps2_writes (r := main_arg3) (by decide)).trans <|
  (W4_of_ne m ρ c main_arg3 (by decide)).trans <|
  (StableHlo.after_of_writes_sub hostOps1 _ hostOps1_writes (r := main_arg3) (by decide)).trans <|
  (W2_of_ne m ρ c main_arg3 (by decide)).trans <|
  (StableHlo.after_of_writes_sub hostOps0 _ hostOps0_writes (r := main_arg3) (by decide)).trans rfl

theorem W11_main_arg4 (c : Dev nD) : W11 m ρ c (Proc.devRef .tc main_arg4) = m ((c : Thread nD τ).loc main_arg4) :=
  (StableHlo.after_of_writes_sub hostOps5 _ hostOps5_writes (r := main_arg4) (by decide)).trans <|
  (W10_of_ne m ρ c main_arg4 (by decide)).trans <|
  (StableHlo.after_of_writes_sub hostOps4 _ hostOps4_writes (r := main_arg4) (by decide)).trans <|
  (W8_of_ne m ρ c main_arg4 (by decide)).trans <|
  (StableHlo.after_of_writes_sub hostOps3 _ hostOps3_writes (r := main_arg4) (by decide)).trans <|
  (W6_of_ne m ρ c main_arg4 (by decide)).trans <|
  (StableHlo.after_of_writes_sub hostOps2 _ hostOps2_writes (r := main_arg4) (by decide)).trans <|
  (W4_of_ne m ρ c main_arg4 (by decide)).trans <|
  (StableHlo.after_of_writes_sub hostOps1 _ hostOps1_writes (r := main_arg4) (by decide)).trans <|
  (W2_of_ne m ρ c main_arg4 (by decide)).trans <|
  (StableHlo.after_of_writes_sub hostOps0 _ hostOps0_writes (r := main_arg4) (by decide)).trans rfl

theorem W11_main_arg5 (c : Dev nD) : W11 m ρ c (Proc.devRef .tc main_arg5) = m ((c : Thread nD τ).loc main_arg5) :=
  (StableHlo.after_of_writes_sub hostOps5 _ hostOps5_writes (r := main_arg5) (by decide)).trans <|
  (W10_of_ne m ρ c main_arg5 (by decide)).trans <|
  (StableHlo.after_of_writes_sub hostOps4 _ hostOps4_writes (r := main_arg5) (by decide)).trans <|
  (W8_of_ne m ρ c main_arg5 (by decide)).trans <|
  (StableHlo.after_of_writes_sub hostOps3 _ hostOps3_writes (r := main_arg5) (by decide)).trans <|
  (W6_of_ne m ρ c main_arg5 (by decide)).trans <|
  (StableHlo.after_of_writes_sub hostOps2 _ hostOps2_writes (r := main_arg5) (by decide)).trans <|
  (W4_of_ne m ρ c main_arg5 (by decide)).trans <|
  (StableHlo.after_of_writes_sub hostOps1 _ hostOps1_writes (r := main_arg5) (by decide)).trans <|
  (W2_of_ne m ρ c main_arg5 (by decide)).trans <|
  (StableHlo.after_of_writes_sub hostOps0 _ hostOps0_writes (r := main_arg5) (by decide)).trans rfl

theorem W11_main_arg6 (c : Dev nD) : W11 m ρ c (Proc.devRef .tc main_arg6) = m ((c : Thread nD τ).loc main_arg6) :=
  (StableHlo.after_of_writes_sub hostOps5 _ hostOps5_writes (r := main_arg6) (by decide)).trans <|
  (W10_of_ne m ρ c main_arg6 (by decide)).trans <|
  (StableHlo.after_of_writes_sub hostOps4 _ hostOps4_writes (r := main_arg6) (by decide)).trans <|
  (W8_of_ne m ρ c main_arg6 (by decide)).trans <|
  (StableHlo.after_of_writes_sub hostOps3 _ hostOps3_writes (r := main_arg6) (by decide)).trans <|
  (W6_of_ne m ρ c main_arg6 (by decide)).trans <|
  (StableHlo.after_of_writes_sub hostOps2 _ hostOps2_writes (r := main_arg6) (by decide)).trans <|
  (W4_of_ne m ρ c main_arg6 (by decide)).trans <|
  (StableHlo.after_of_writes_sub hostOps1 _ hostOps1_writes (r := main_arg6) (by decide)).trans <|
  (W2_of_ne m ρ c main_arg6 (by decide)).trans <|
  (StableHlo.after_of_writes_sub hostOps0 _ hostOps0_writes (r := main_arg6) (by decide)).trans rfl

theorem W11_main_arg7 (c : Dev nD) : W11 m ρ c (Proc.devRef .tc main_arg7) = m ((c : Thread nD τ).loc main_arg7) :=
  (StableHlo.after_of_writes_sub hostOps5 _ hostOps5_writes (r := main_arg7) (by decide)).trans <|
  (W10_of_ne m ρ c main_arg7 (by decide)).trans <|
  (StableHlo.after_of_writes_sub hostOps4 _ hostOps4_writes (r := main_arg7) (by decide)).trans <|
  (W8_of_ne m ρ c main_arg7 (by decide)).trans <|
  (StableHlo.after_of_writes_sub hostOps3 _ hostOps3_writes (r := main_arg7) (by decide)).trans <|
  (W6_of_ne m ρ c main_arg7 (by decide)).trans <|
  (StableHlo.after_of_writes_sub hostOps2 _ hostOps2_writes (r := main_arg7) (by decide)).trans <|
  (W4_of_ne m ρ c main_arg7 (by decide)).trans <|
  (StableHlo.after_of_writes_sub hostOps1 _ hostOps1_writes (r := main_arg7) (by decide)).trans <|
  (W2_of_ne m ρ c main_arg7 (by decide)).trans <|
  (StableHlo.after_of_writes_sub hostOps0 _ hostOps0_writes (r := main_arg7) (by decide)).trans rfl

theorem W11_main_arg8 (c : Dev nD) : W11 m ρ c (Proc.devRef .tc main_arg8) = m ((c : Thread nD τ).loc main_arg8) :=
  (StableHlo.after_of_writes_sub hostOps5 _ hostOps5_writes (r := main_arg8) (by decide)).trans <|
  (W10_of_ne m ρ c main_arg8 (by decide)).trans <|
  (StableHlo.after_of_writes_sub hostOps4 _ hostOps4_writes (r := main_arg8) (by decide)).trans <|
  (W8_of_ne m ρ c main_arg8 (by decide)).trans <|
  (StableHlo.after_of_writes_sub hostOps3 _ hostOps3_writes (r := main_arg8) (by decide)).trans <|
  (W6_of_ne m ρ c main_arg8 (by decide)).trans <|
  (StableHlo.after_of_writes_sub hostOps2 _ hostOps2_writes (r := main_arg8) (by decide)).trans <|
  (W4_of_ne m ρ c main_arg8 (by decide)).trans <|
  (StableHlo.after_of_writes_sub hostOps1 _ hostOps1_writes (r := main_arg8) (by decide)).trans <|
  (W2_of_ne m ρ c main_arg8 (by decide)).trans <|
  (StableHlo.after_of_writes_sub hostOps0 _ hostOps0_writes (r := main_arg8) (by decide)).trans rfl

theorem W11_main_arg9 (c : Dev nD) : W11 m ρ c (Proc.devRef .tc main_arg9) = m ((c : Thread nD τ).loc main_arg9) :=
  (StableHlo.after_of_writes_sub hostOps5 _ hostOps5_writes (r := main_arg9) (by decide)).trans <|
  (W10_of_ne m ρ c main_arg9 (by decide)).trans <|
  (StableHlo.after_of_writes_sub hostOps4 _ hostOps4_writes (r := main_arg9) (by decide)).trans <|
  (W8_of_ne m ρ c main_arg9 (by decide)).trans <|
  (StableHlo.after_of_writes_sub hostOps3 _ hostOps3_writes (r := main_arg9) (by decide)).trans <|
  (W6_of_ne m ρ c main_arg9 (by decide)).trans <|
  (StableHlo.after_of_writes_sub hostOps2 _ hostOps2_writes (r := main_arg9) (by decide)).trans <|
  (W4_of_ne m ρ c main_arg9 (by decide)).trans <|
  (StableHlo.after_of_writes_sub hostOps1 _ hostOps1_writes (r := main_arg9) (by decide)).trans <|
  (W2_of_ne m ρ c main_arg9 (by decide)).trans <|
  (StableHlo.after_of_writes_sub hostOps0 _ hostOps0_writes (r := main_arg9) (by decide)).trans rfl

theorem W11_main_arg10 (c : Dev nD) : W11 m ρ c (Proc.devRef .tc main_arg10) = m ((c : Thread nD τ).loc main_arg10) :=
  (StableHlo.after_of_writes_sub hostOps5 _ hostOps5_writes (r := main_arg10) (by decide)).trans <|
  (W10_of_ne m ρ c main_arg10 (by decide)).trans <|
  (StableHlo.after_of_writes_sub hostOps4 _ hostOps4_writes (r := main_arg10) (by decide)).trans <|
  (W8_of_ne m ρ c main_arg10 (by decide)).trans <|
  (StableHlo.after_of_writes_sub hostOps3 _ hostOps3_writes (r := main_arg10) (by decide)).trans <|
  (W6_of_ne m ρ c main_arg10 (by decide)).trans <|
  (StableHlo.after_of_writes_sub hostOps2 _ hostOps2_writes (r := main_arg10) (by decide)).trans <|
  (W4_of_ne m ρ c main_arg10 (by decide)).trans <|
  (StableHlo.after_of_writes_sub hostOps1 _ hostOps1_writes (r := main_arg10) (by decide)).trans <|
  (W2_of_ne m ρ c main_arg10 (by decide)).trans <|
  (StableHlo.after_of_writes_sub hostOps0 _ hostOps0_writes (r := main_arg10) (by decide)).trans rfl

/-! ## The proof data family and the thread state -/

abbrev adm' : (p : Fin 5) → (pcfgs (F := F) p).Adm := fun p => (cfgs p).toPCfg_adm
/-- Every launch's proof data, each at its entry contents. -/
def pdats : (p : Fin 5) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀' : Variants := Variants.none
abbrev L' : GSem nD τ sig → Finset Unit := fun _ => ∅
abbrev lv' : GSem nD τ sig → Unit → ℕ := fun _ _ => 0
/-- What rides beside the buffers through every segment: the generator register at some state, nothing owed. -/
abbrev R' (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀' L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R'
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The launches as segments -/

set_option backward.isDefEq.respectTransparency.types false in
/-- Launch 0: entered from every unscoped buffer at `W1`, left at `W2`. -/
def reg0 : Pipeline.RegionSeg (pcfgs (F := F)) adm' (pdats m ρ) () defs₀ 𝒱₀' L' lv' 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L' lv' 0 fun _ _ => rfl
  pre c := iprop(StableHlo.held (c : Thread nD τ) (Pipeline.ucRefs τ sig) (W1 m ρ c) ∗ R' c)
  post c := iprop(StableHlo.held (c : Thread nD τ) (Pipeline.ucRefs τ sig) (W2 m ρ c) ∗ R' c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1: entered from every unscoped buffer at `W3`, left at `W4`. -/
def reg1 : Pipeline.RegionSeg (pcfgs (F := F)) adm' (pdats m ρ) () defs₀ 𝒱₀' L' lv' 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L' lv' 1 fun _ _ => rfl
  pre c := iprop(StableHlo.held (c : Thread nD τ) (Pipeline.ucRefs τ sig) (W3 m ρ c) ∗ R' c)
  post c := iprop(StableHlo.held (c : Thread nD τ) (Pipeline.ucRefs τ sig) (W4 m ρ c) ∗ R' c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2: entered from every unscoped buffer at `W5`, left at `W6`. -/
def reg2 : Pipeline.RegionSeg (pcfgs (F := F)) adm' (pdats m ρ) () defs₀ 𝒱₀' L' lv' 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L' lv' 2 fun _ _ => rfl
  pre c := iprop(StableHlo.held (c : Thread nD τ) (Pipeline.ucRefs τ sig) (W5 m ρ c) ∗ R' c)
  post c := iprop(StableHlo.held (c : Thread nD τ) (Pipeline.ucRefs τ sig) (W6 m ρ c) ∗ R' c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3: entered from every unscoped buffer at `W7`, left at `W8`. -/
def reg3 : Pipeline.RegionSeg (pcfgs (F := F)) adm' (pdats m ρ) () defs₀ 𝒱₀' L' lv' 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L' lv' 3 fun _ _ => rfl
  pre c := iprop(StableHlo.held (c : Thread nD τ) (Pipeline.ucRefs τ sig) (W7 m ρ c) ∗ R' c)
  post c := iprop(StableHlo.held (c : Thread nD τ) (Pipeline.ucRefs τ sig) (W8 m ρ c) ∗ R' c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm' (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (V7 m ρ) c)
    unfold Pipeline.ΦA
    iintro ⟨Hp, -, Hr⟩
    isplitl [Hr]; · iexact Hr
    iexact Hp
  hout c := by
    rw [Pipeline.ownSems0_none]
    refine (hout3 (V7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm' (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 4: entered from every unscoped buffer at `W9`, left at `W10`. -/
def reg4 : Pipeline.RegionSeg (pcfgs (F := F)) adm' (pdats m ρ) () defs₀ 𝒱₀' L' lv' 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L' lv' 4 fun _ _ => rfl
  pre c := iprop(StableHlo.held (c : Thread nD τ) (Pipeline.ucRefs τ sig) (W9 m ρ c) ∗ R' c)
  post c := iprop(StableHlo.held (c : Thread nD τ) (Pipeline.ucRefs τ sig) (W10 m ρ c) ∗ R' c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm' (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm' (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm' (pdats m ρ) () defs₀ 𝒱₀' L' lv') :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]

theorem main_run (c : Dev nD) : main (F := F) c = Pipeline.Seg.run (segs m ρ) := (main_chain c).trans (by chain_rfl)

/-- The last thread state: every unscoped buffer at the last boundary's contents, the generator register at some state. -/
abbrev Tₙ' (c : Dev nD) : sProp 𝕄 := iprop(StableHlo.held (c : Thread nD τ) (Pipeline.ucRefs τ sig) (W11 m ρ c) ∗ ∃ r, prngReg c r)

set_option backward.isDefEq.respectTransparency.types false in
/-- THE RUN: from any memory with zero counters every weakly fair execution of the program terminates without a fault,
    and in the final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm' (pdats m ρ) () cellOf_inj emb₁ defs₀ 𝒱₀' L' lv' m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R' c)) (Tₙ := Tₙ' m ρ)
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W11 m ρ c) ∗ R' c)
          ⊢ iprop(Tₙ' m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L' lv' fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W11_main_arg0 m ρ c),
      (h c _ (mem_uc main_arg1 (by decide))).trans (W11_main_arg1 m ρ c),
      (h c _ (mem_uc main_arg2 (by decide))).trans (W11_main_arg2 m ρ c),
      (h c _ (mem_uc main_arg3 (by decide))).trans (W11_main_arg3 m ρ c),
      (h c _ (mem_uc main_arg4 (by decide))).trans (W11_main_arg4 m ρ c),
      (h c _ (mem_uc main_arg5 (by decide))).trans (W11_main_arg5 m ρ c),
      (h c _ (mem_uc main_arg6 (by decide))).trans (W11_main_arg6 m ρ c),
      (h c _ (mem_uc main_arg7 (by decide))).trans (W11_main_arg7 m ρ c),
      (h c _ (mem_uc main_arg8 (by decide))).trans (W11_main_arg8 m ρ c),
      (h c _ (mem_uc main_arg9 (by decide))).trans (W11_main_arg9 m ρ c),
      (h c _ (mem_uc main_arg10 (by decide))).trans (W11_main_arg10 m ρ c)⟩) (run_all m ρ)

end Cert.KernelIdeal.Fr

end
-- ==== Proof.KernelIdeal.Chain1.lean ====
/-
  The buffers between the launches, on the extended reals: what each stretch of host operations writes, as the
  operations' term of what the stretch finds, and which buffers pass a launch or a stretch unchanged (a stretch
  changes only what its operations write, a launch only its result array).
-/
import proofs.«137242_j37349035606739_2_alg».proof.Proof.KernelIdeal.Run
import Idealize.ShloMosaic.Lib.StableHlo.Run
import Idealize.ShloMosaic.PureOps.Ideal

set_option maxRecDepth 16384

noncomputable section

namespace Cert.KernelIdeal.Fr

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## What the first stretch writes -/

theorem W0_arg (r : Ref sig .tc) : W0 (F := Ideal) m ρ c (Proc.devRef .tc r) = m ((c.tc : Thread nD τ).loc r) := rfl

theorem W1_v12 : (W1 (F := Ideal) m ρ c (Proc.devRef .tc main_v12) : FVec Ideal S8192x1024 .f32)
    = (fun i => shapeCast S8192x1024 ((m ((c.tc : Thread nD τ).loc main_arg0)) : FVec Ideal S4x2048x1024 .f32) shapeCasts_S4x2048x1024_S8192x1024 i) := by
  show StableHlo.after hostOps0 (W0 m ρ c) (Proc.devRef .tc main_v12) = _
  after_results <;> rfl
theorem W1_v5 : (W1 (F := Ideal) m ρ c (Proc.devRef .tc main_v5) : FVec Ideal S1024x1024 .bf16)
    = truncf (F := Ideal) .bf16 (transpose S1024x1024 [1, 0] (mulf ((m ((c.tc : Thread nD τ).loc main_arg3)) : FVec Ideal S1024x1024 .f32) (broadcastInDim S1024x1024 ![] bcast_S_S1024x1024 (constant (F := Ideal) S_ .f32 0x3E000000#32))) transposes_S1024x1024_S1024x1024_1_0) bitsLt_bf16_f32 := by
  show StableHlo.after hostOps0 (W0 m ρ c) (Proc.devRef .tc main_v5) = _
  after_results <;> rfl
theorem W1_v13 : (W1 (F := Ideal) m ρ c (Proc.devRef .tc main_v13) : FVec Ideal S1x1024 .f32)
    = (fun i => shapeCast S1x1024 (mulf ((m ((c.tc : Thread nD τ).loc main_arg4)) : FVec Ideal S1024 .f32) (broadcastInDim S1024 ![] bcast_S_S1024 (constant (F := Ideal) S_ .f32 0x3E000000#32))) shapeCasts_S1024_S1x1024 i) := by
  show StableHlo.after hostOps0 (W0 m ρ c) (Proc.devRef .tc main_v13) = _
  after_results <;> rfl
theorem W1_v7 : (W1 (F := Ideal) m ρ c (Proc.devRef .tc main_v7) : FVec Ideal S1024x1024 .bf16)
    = truncf (F := Ideal) .bf16 (transpose S1024x1024 [1, 0] ((m ((c.tc : Thread nD τ).loc main_arg5)) : FVec Ideal S1024x1024 .f32) transposes_S1024x1024_S1024x1024_1_0) bitsLt_bf16_f32 := by
  show StableHlo.after hostOps0 (W0 m ρ c) (Proc.devRef .tc main_v7) = _
  after_results <;> rfl
theorem W1_v9 : (W1 (F := Ideal) m ρ c (Proc.devRef .tc main_v9) : FVec Ideal S1024x1024 .bf16)
    = truncf (F := Ideal) .bf16 (transpose S1024x1024 [1, 0] ((m ((c.tc : Thread nD τ).loc main_arg7)) : FVec Ideal S1024x1024 .f32) transposes_S1024x1024_S1024x1024_1_0) bitsLt_bf16_f32 := by
  show StableHlo.after hostOps0 (W0 m ρ c) (Proc.devRef .tc main_v9) = _
  after_results <;> rfl
theorem W1_v11 : (W1 (F := Ideal) m ρ c (Proc.devRef .tc main_v11) : FVec Ideal S1024x1024 .bf16)
    = truncf (F := Ideal) .bf16 (transpose S1024x1024 [1, 0] ((m ((c.tc : Thread nD τ).loc main_arg9)) : FVec Ideal S1024x1024 .f32) transposes_S1024x1024_S1024x1024_1_0) bitsLt_bf16_f32 := by
  show StableHlo.after hostOps0 (W0 m ρ c) (Proc.devRef .tc main_v11) = _
  after_results <;> rfl

/-! ## The later stretches -/

theorem W3_v17 : (W3 (F := Ideal) m ρ c (Proc.devRef .tc main_v17) : FVec Ideal S64x2048x64 .bf16)
    = (fun i => shapeCast S64x2048x64 (transpose S4x16x2048x64 [0, 2, 1, 3] (fun i => shapeCast S4x2048x16x64 (W2 (F := Ideal) m ρ c (Proc.devRef .tc main_v14) : FVec Ideal S8192x1024 .bf16) shapeCasts_S8192x1024_S4x2048x16x64 i) transposes_S4x2048x16x64_S4x16x2048x64_0_2_1_3) shapeCasts_S4x16x2048x64_S64x2048x64 i) := by
  show StableHlo.after hostOps1 (W2 m ρ c) (Proc.devRef .tc main_v17) = _
  after_results <;> rfl
theorem W3_v18 : (W3 (F := Ideal) m ρ c (Proc.devRef .tc main_v18) : FVec Ideal S8192x1024 .f32)
    = (fun i => shapeCast S8192x1024 (W2 (F := Ideal) m ρ c (Proc.devRef .tc main_arg1) : FVec Ideal S4x2048x1024 .f32) shapeCasts_S4x2048x1024_S8192x1024 i) := by
  show StableHlo.after hostOps1 (W2 m ρ c) (Proc.devRef .tc main_v18) = _
  after_results <;> rfl
theorem W3_v19 : (W3 (F := Ideal) m ρ c (Proc.devRef .tc main_v19) : FVec Ideal S1x1024 .f32)
    = (fun i => shapeCast S1x1024 (W2 (F := Ideal) m ρ c (Proc.devRef .tc main_arg6) : FVec Ideal S1024 .f32) shapeCasts_S1024_S1x1024 i) := by
  show StableHlo.after hostOps1 (W2 m ρ c) (Proc.devRef .tc main_v19) = _
  after_results <;> rfl
theorem W5_v23 : (W5 (F := Ideal) m ρ c (Proc.devRef .tc main_v23) : FVec Ideal S64x2048x64 .bf16)
    = (fun i => shapeCast S64x2048x64 (transpose S4x16x2048x64 [0, 2, 1, 3] (fun i => shapeCast S4x2048x16x64 (W4 (F := Ideal) m ρ c (Proc.devRef .tc main_v20) : FVec Ideal S8192x1024 .bf16) shapeCasts_S8192x1024_S4x2048x16x64 i) transposes_S4x2048x16x64_S4x16x2048x64_0_2_1_3) shapeCasts_S4x16x2048x64_S64x2048x64 i) := by
  show StableHlo.after hostOps2 (W4 m ρ c) (Proc.devRef .tc main_v23) = _
  after_results <;> rfl
theorem W5_v24 : (W5 (F := Ideal) m ρ c (Proc.devRef .tc main_v24) : FVec Ideal S8192x1024 .f32)
    = (fun i => shapeCast S8192x1024 (W4 (F := Ideal) m ρ c (Proc.devRef .tc main_arg2) : FVec Ideal S4x2048x1024 .f32) shapeCasts_S4x2048x1024_S8192x1024 i) := by
  show StableHlo.after hostOps2 (W4 m ρ c) (Proc.devRef .tc main_v24) = _
  after_results <;> rfl
theorem W5_v25 : (W5 (F := Ideal) m ρ c (Proc.devRef .tc main_v25) : FVec Ideal S1x1024 .f32)
    = (fun i => shapeCast S1x1024 (W4 (F := Ideal) m ρ c (Proc.devRef .tc main_arg8) : FVec Ideal S1024 .f32) shapeCasts_S1024_S1x1024 i) := by
  show StableHlo.after hostOps2 (W4 m ρ c) (Proc.devRef .tc main_v25) = _
  after_results <;> rfl
theorem W7_v29 : (W7 (F := Ideal) m ρ c (Proc.devRef .tc main_v29) : FVec Ideal S64x2048x64 .bf16)
    = (fun i => shapeCast S64x2048x64 (transpose S4x16x2048x64 [0, 2, 1, 3] (fun i => shapeCast S4x2048x16x64 (W6 (F := Ideal) m ρ c (Proc.devRef .tc main_v26) : FVec Ideal S8192x1024 .bf16) shapeCasts_S8192x1024_S4x2048x16x64 i) transposes_S4x2048x16x64_S4x16x2048x64_0_2_1_3) shapeCasts_S4x16x2048x64_S64x2048x64 i) := by
  show StableHlo.after hostOps3 (W6 m ρ c) (Proc.devRef .tc main_v29) = _
  after_results <;> rfl
theorem W9_v34 : (W9 (F := Ideal) m ρ c (Proc.devRef .tc main_v34) : FVec Ideal S8192x1024 .bf16)
    = (fun i => shapeCast S8192x1024 (fun i => shapeCast S4x2048x1024 (transpose S4x2048x16x64 [0, 2, 1, 3] (fun i => shapeCast S4x16x2048x64 (W8 (F := Ideal) m ρ c (Proc.devRef .tc main_v30) : FVec Ideal S64x2048x64 .bf16) shapeCasts_S64x2048x64_S4x16x2048x64 i) transposes_S4x16x2048x64_S4x2048x16x64_0_2_1_3) shapeCasts_S4x2048x16x64_S4x2048x1024 i) shapeCasts_S4x2048x1024_S8192x1024 i) := by
  show StableHlo.after hostOps4 (W8 m ρ c) (Proc.devRef .tc main_v34) = _
  after_results <;> rfl
theorem W9_v35 : (W9 (F := Ideal) m ρ c (Proc.devRef .tc main_v35) : FVec Ideal S1x1024 .f32)
    = (fun i => shapeCast S1x1024 (W8 (F := Ideal) m ρ c (Proc.devRef .tc main_arg10) : FVec Ideal S1024 .f32) shapeCasts_S1024_S1x1024 i) := by
  show StableHlo.after hostOps4 (W8 m ρ c) (Proc.devRef .tc main_v35) = _
  after_results <;> rfl
theorem W11_v37 : (W11 (F := Ideal) m ρ c (Proc.devRef .tc main_v37) : FVec Ideal S4x2048x1024 .f32)
    = (fun i => shapeCast S4x2048x1024 (W10 (F := Ideal) m ρ c (Proc.devRef .tc main_v36) : FVec Ideal S8192x1024 .f32) shapeCasts_S8192x1024_S4x2048x1024 i) := by
  show StableHlo.after hostOps5 (W10 m ρ c) (Proc.devRef .tc main_v37) = _
  after_results <;> rfl

/-! ## What passes unchanged -/

theorem keep1 (r : Ref sig .tc) (h : r ∉ hostOps0_W) : W1 (F := Ideal) m ρ c (Proc.devRef .tc r) = W0 m ρ c (Proc.devRef .tc r) :=
  StableHlo.after_of_writes_sub hostOps0 _ hostOps0_writes h
theorem keep3 (r : Ref sig .tc) (h : r ∉ hostOps1_W) : W3 (F := Ideal) m ρ c (Proc.devRef .tc r) = W2 m ρ c (Proc.devRef .tc r) :=
  StableHlo.after_of_writes_sub hostOps1 _ hostOps1_writes h
theorem keep5 (r : Ref sig .tc) (h : r ∉ hostOps2_W) : W5 (F := Ideal) m ρ c (Proc.devRef .tc r) = W4 m ρ c (Proc.devRef .tc r) :=
  StableHlo.after_of_writes_sub hostOps2 _ hostOps2_writes h
theorem keep7 (r : Ref sig .tc) (h : r ∉ hostOps3_W) : W7 (F := Ideal) m ρ c (Proc.devRef .tc r) = W6 m ρ c (Proc.devRef .tc r) :=
  StableHlo.after_of_writes_sub hostOps3 _ hostOps3_writes h
theorem keep9 (r : Ref sig .tc) (h : r ∉ hostOps4_W) : W9 (F := Ideal) m ρ c (Proc.devRef .tc r) = W8 m ρ c (Proc.devRef .tc r) :=
  StableHlo.after_of_writes_sub hostOps4 _ hostOps4_writes h

theorem W7_v17 : W7 (F := Ideal) m ρ c (Proc.devRef .tc main_v17) = W3 m ρ c (Proc.devRef .tc main_v17) :=
  (keep7 m ρ c main_v17 (by decide)).trans <| (W6_of_ne m ρ c main_v17 (by decide)).trans <|
  (keep5 m ρ c main_v17 (by decide)).trans <| (W4_of_ne m ρ c main_v17 (by decide))
theorem W7_v23 : W7 (F := Ideal) m ρ c (Proc.devRef .tc main_v23) = W5 m ρ c (Proc.devRef .tc main_v23) :=
  (keep7 m ρ c main_v23 (by decide)).trans <| (W6_of_ne m ρ c main_v23 (by decide))
theorem W3_v7 : W3 (F := Ideal) m ρ c (Proc.devRef .tc main_v7) = W1 m ρ c (Proc.devRef .tc main_v7) :=
  (keep3 m ρ c main_v7 (by decide)).trans <| (W2_of_ne m ρ c main_v7 (by decide))
theorem W5_v9 : W5 (F := Ideal) m ρ c (Proc.devRef .tc main_v9) = W1 m ρ c (Proc.devRef .tc main_v9) :=
  (keep5 m ρ c main_v9 (by decide)).trans <| (W4_of_ne m ρ c main_v9 (by decide)).trans <|
  (keep3 m ρ c main_v9 (by decide)).trans <| (W2_of_ne m ρ c main_v9 (by decide))
theorem W9_v11 : W9 (F := Ideal) m ρ c (Proc.devRef .tc main_v11) = W1 m ρ c (Proc.devRef .tc main_v11) :=
  (keep9 m ρ c main_v11 (by decide)).trans <| (W8_of_ne m ρ c main_v11 (by decide)).trans <|
  (keep7 m ρ c main_v11 (by decide)).trans <| (W6_of_ne m ρ c main_v11 (by decide)).trans <|
  (keep5 m ρ c main_v11 (by decide)).trans <| (W4_of_ne m ρ c main_v11 (by decide)).trans <|
  (keep3 m ρ c main_v11 (by decide)).trans <| (W2_of_ne m ρ c main_v11 (by decide))

/-- The argument arrays as the later stretches find them. -/
theorem W2_arg (r : Ref sig .tc) (h0 : r ∉ hostOps0_W) (h : ∀ w, Pipeline.arrRef spec0 w ≠ r) :
    W2 (F := Ideal) m ρ c (Proc.devRef .tc r) = m ((c.tc : Thread nD τ).loc r) :=
  (W2_of_ne m ρ c r h).trans <| (keep1 m ρ c r h0).trans rfl
theorem W4_arg (r : Ref sig .tc) (h0 : r ∉ hostOps0_W) (h1 : r ∉ hostOps1_W) (g0 : ∀ w, Pipeline.arrRef spec0 w ≠ r) (g1 : ∀ w, Pipeline.arrRef spec1 w ≠ r) :
    W4 (F := Ideal) m ρ c (Proc.devRef .tc r) = m ((c.tc : Thread nD τ).loc r) :=
  (W4_of_ne m ρ c r g1).trans <| (keep3 m ρ c r h1).trans <| W2_arg m ρ c r h0 g0
theorem W8_arg (r : Ref sig .tc) (h0 : r ∉ hostOps0_W) (h1 : r ∉ hostOps1_W) (h2 : r ∉ hostOps2_W) (h3 : r ∉ hostOps3_W)
    (g0 : ∀ w, Pipeline.arrRef spec0 w ≠ r) (g1 : ∀ w, Pipeline.arrRef spec1 w ≠ r) (g2 : ∀ w, Pipeline.arrRef spec2 w ≠ r) (g3 : ∀ w, Pipeline.arrRef spec3 w ≠ r) :
    W8 (F := Ideal) m ρ c (Proc.devRef .tc r) = m ((c.tc : Thread nD τ).loc r) :=
  (W8_of_ne m ρ c r g3).trans <| (keep7 m ρ c r h3).trans <| (W6_of_ne m ρ c r g2).trans <| (keep5 m ρ c r h2).trans <| W4_arg m ρ c r h0 h1 g0 g1

end Cert.KernelIdeal.Fr

end
-- ==== Proof.LibPlainDot.lean ====
/-
  A plain matrix product read at an entry.

  For a contraction of an [A, K] array with a [K, B] array over the shared axis — no batch axes, the rows of the left
  operand and the columns of the right operand kept — the (p, q) entry is the sum over k < K of left (p, k) times
  right (k, q). This holds for the product taken on the host and, into a zero accumulator, for the product taken in the
  kernel; both are stated here as sums over `Fin K`.
-/
import Idealize.ShloMosaic.Lib.ValueIdx
import Idealize.ShloMosaic.PureOps.Ideal.Laws

noncomputable section
open scoped BigOperators
namespace Cert.PlainDot
open Idealize.ShloMosaic Idealize.ShloMosaic.ValueIdx

variable {A K B : Nat}

/-- The dimension numbers of an [A, K] by [K, B] product. -/
abbrev Dot2 (A K B : Nat) : Type :=
  DotDims (⟨2, ![A, K]⟩ : Shape) (⟨2, ![K, B]⟩ : Shape) (⟨2, ![A, B]⟩ : Shape)

/-- The left operand's second axis meets the right operand's first; the other two axes are kept; nothing is batched. -/
structure IsPlain (d : Dot2 A K B) : Prop where
  lc : d.lhsContracting = [1]
  rc : d.rhsContracting = [0]
  ln : d.lhsNonContracting = [0]
  rn : d.rhsNonContracting = [1]
  lb : d.lhsBatch = []
  rb : d.rhsBatch = []

section Coordinates
variable (wf : DotDims.WF (⟨2, ![A, K]⟩ : Shape) (⟨2, ![K, B]⟩ : Shape) (⟨2, ![A, B]⟩ : Shape) [1] [0] [0] [1] [] [])

/-- The left operand's row is the entry's row. -/
theorem lhs0 (i : (⟨2, ![A, B]⟩ : Shape).Idx) (q : (⟨[1], [0], [0], [1], [], [], wf⟩ : Dot2 A K B).contr.Idx) :
    ((⟨[1], [0], [0], [1], [], [], wf⟩ : Dot2 A K B).lhsIdx i q 0).val = (i 0).val := by
  unfold DotDims.lhsIdx
  rw [dif_neg (show ¬(0 : Fin 2) ∈ (⟨[1], [0], [0], [1], [], [], wf⟩ : Dot2 A K B).lhsBatch from List.not_mem_nil),
    dif_pos (show (0 : Fin 2) ∈ (⟨[1], [0], [0], [1], [], [], wf⟩ : Dot2 A K B).lhsNonContracting from List.mem_singleton.mpr rfl)]
  rfl

/-- The left operand's column is the contracted index. -/
theorem lhs1 (i : (⟨2, ![A, B]⟩ : Shape).Idx) (q : (⟨[1], [0], [0], [1], [], [], wf⟩ : Dot2 A K B).contr.Idx) :
    ((⟨[1], [0], [0], [1], [], [], wf⟩ : Dot2 A K B).lhsIdx i q 1).val = (q ⟨0, Nat.one_pos⟩).val :=
  (⟨[1], [0], [0], [1], [], [], wf⟩ : Dot2 A K B).lhsIdx_val_of_single rfl i q

/-- The right operand's row is the contracted index. -/
theorem rhs0 (i : (⟨2, ![A, B]⟩ : Shape).Idx) (q : (⟨[1], [0], [0], [1], [], [], wf⟩ : Dot2 A K B).contr.Idx) :
    ((⟨[1], [0], [0], [1], [], [], wf⟩ : Dot2 A K B).rhsIdx i q 0).val = (q ⟨0, Nat.one_pos⟩).val :=
  (⟨[1], [0], [0], [1], [], [], wf⟩ : Dot2 A K B).rhsIdx_val_of_single rfl i q

/-- The right operand's column is the entry's column. -/
theorem rhs1 (i : (⟨2, ![A, B]⟩ : Shape).Idx) (q : (⟨[1], [0], [0], [1], [], [], wf⟩ : Dot2 A K B).contr.Idx) :
    ((⟨[1], [0], [0], [1], [], [], wf⟩ : Dot2 A K B).rhsIdx i q 1).val = (i 1).val := by
  unfold DotDims.rhsIdx
  rw [dif_neg (show ¬(1 : Fin 2) ∈ (⟨[1], [0], [0], [1], [], [], wf⟩ : Dot2 A K B).rhsBatch from List.not_mem_nil),
    dif_pos (show (1 : Fin 2) ∈ (⟨[1], [0], [0], [1], [], [], wf⟩ : Dot2 A K B).rhsNonContracting from List.mem_singleton.mpr rfl)]
  rfl

end Coordinates

/-- The sum over the contracted index, re-indexed by `Fin K`, with the operand entries named by their coordinates. -/
theorem sum_contr (d : Dot2 A K B) (hd : IsPlain d) (l : (⟨2, ![A, K]⟩ : Shape).Idx → EReal)
    (r : (⟨2, ![K, B]⟩ : Shape).Idx → EReal) (i : (⟨2, ![A, B]⟩ : Shape).Idx) :
    ∑ q : d.contr.Idx, l (d.lhsIdx i q) * r (d.rhsIdx i q) = ∑ k : Fin K, l (ix2 (i 0) k) * r (ix2 k (i 1)) := by
  obtain ⟨lc, rc, ln, rn, lb, rb, wf⟩ := d
  obtain ⟨h1, h2, h3, h4, h5, h6⟩ := hd
  dsimp only at h1 h2 h3 h4 h5 h6
  subst h1 h2 h3 h4 h5 h6
  rw [← Equiv.sum_comp (contrEquiv1 (⟨[1], [0], [0], [1], [], [], wf⟩ : Dot2 A K B) K rfl rfl).symm]
  refine Finset.sum_congr rfl fun k _ => ?_
  have hk := contrEquiv1_symm_val (⟨[1], [0], [0], [1], [], [], wf⟩ : Dot2 A K B) K rfl rfl k
  have el : (⟨[1], [0], [0], [1], [], [], wf⟩ : Dot2 A K B).lhsIdx i
      ((contrEquiv1 (⟨[1], [0], [0], [1], [], [], wf⟩ : Dot2 A K B) K rfl rfl).symm k) = ix2 (i 0) k :=
    funext fun a => Fin.ext (by
      match a with
      | ⟨0, _⟩ => exact lhs0 wf _ _
      | ⟨1, _⟩ => exact (lhs1 wf _ _).trans hk)
  have er : (⟨[1], [0], [0], [1], [], [], wf⟩ : Dot2 A K B).rhsIdx i
      ((contrEquiv1 (⟨[1], [0], [0], [1], [], [], wf⟩ : Dot2 A K B) K rfl rfl).symm k) = ix2 k (i 1) :=
    funext fun a => Fin.ext (by
      match a with
      | ⟨0, _⟩ => exact (rhs0 wf _ _).trans hk
      | ⟨1, _⟩ => exact rhs1 wf _ _)
  exact congrArg₂ (· * ·) (congrArg l el) (congrArg r er)

/-- The host's product at an entry. -/
theorem dotGeneral_plain {φ₁ φ₂ : FTy} (d : Dot2 A K B) (hd : IsPlain d) (prec : Option ContractPrecision) (sched : HostSchedule)
    (l : FVec Ideal (⟨2, ![A, K]⟩ : Shape) φ₁) (r : FVec Ideal (⟨2, ![K, B]⟩ : Shape) φ₂) (i : (⟨2, ![A, B]⟩ : Shape).Idx) :
    FloatOps.dotGeneral d prec sched l r i = ∑ k : Fin K, l (ix2 (i 0) k) * r (ix2 k (i 1)) := by
  rw [Ideal.dotGeneral_apply]
  exact sum_contr d hd l r i

/-- The kernel's product into a zero accumulator at an entry. -/
theorem matmul_zero_plain {φ₁ φ₂ : FTy} (d : Dot2 A K B) (hd : IsPlain d) (prec : Option ContractPrecision)
    (l : FVec Ideal (⟨2, ![A, K]⟩ : Shape) φ₁) (r : FVec Ideal (⟨2, ![K, B]⟩ : Shape) φ₂) (i : (⟨2, ![A, B]⟩ : Shape).Idx) :
    FloatOps.matmul d prec l r (constant (⟨2, ![A, B]⟩ : Shape) .f32 0x00000000#32) i
      = ∑ k : Fin K, l (ix2 (i 0) k) * r (ix2 k (i 1)) := by
  rw [Ideal.matmul_constant_zero_apply]
  exact sum_contr d hd l r i

end Cert.PlainDot
-- ==== Proof.KernelIdeal.Lin0.lean ====
/-
  The value of launch 0 (a tiled matrix product with a bias) on the extended reals: the array it leaves is, entry by
  entry, (row of the activations) · (column of the weight) + (the bias at the column) — whatever the tiling: point `t`
  writes back rows 512·t … 512·t+511 of that function, and the 16 points' blocks cover the array.
-/
import proofs.«137242_j37349035606739_2_alg».proof.Proof.KernelIdeal.Region0
import proofs.«137242_j37349035606739_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

theorem hz0 : (![0, 0] : Fin 2 → Nat) = fun _ => 0 := funext fun a => by fin_cases a <;> rfl

/-- Row times column plus the bias, at an entry of the whole [8192, 1024] array. -/
def Glin0 (x : FVec Ideal S8192x1024 .f32) (w : FVec Ideal S1024x1024 .bf16) (b : FVec Ideal S1x1024 .f32) : FVec Ideal S8192x1024 .bf16 :=
  fun i => (∑ k : Fin 1024, x (ix2 (i 0) k) * w (ix2 k (i 1))) + b (ix2 (0 : Fin 1) (i 1))

/-- The body's one stored value at an entry of the block: a change of float format is the identity on the extended
    reals, the product into a zero accumulator is the plain sum, the bias row is repeated down the rows. -/
theorem pay0_at (x0 : FVec Ideal S512x1024 .f32) (x1 : FVec Ideal S1024x1024 .bf16) (x2 : FVec Ideal S1x1024 .f32) (p : Fin 512) (q : Fin 1024) :
    k0_pay1 (F := Ideal) x0 x1 x2 (ix2 p q) = (∑ k : Fin 1024, x0 (ix2 p k) * x1 (ix2 k q)) + x2 (ix2 (0 : Fin 1) q) := by
  unfold k0_pay1
  simp only [shapeCast_self]
  refine (addf_apply _ _ _).trans ?_
  refine congrArg₂ (· + ·) ?_ ?_
  · exact Cert.PlainDot.matmul_zero_plain dot_S512x1024_S1024x1024_S512x1024_1_0_0_1_n_n ⟨rfl, rfl, rfl, rfl, rfl, rfl⟩ none _ x1 (ix2 p q)
  · exact broadcastTo_1b_ab_apply x2 _ p q

/-- The windows' block indices over the grid: the activations and the result move with the point along the rows,
    the weight and the bias stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The block equation at explicitly typed arrays: the entries the body's sum reads through the three input windows'
    blocks at point `t` are the entries the whole-array function reads at the output block's entry. -/
theorem blk0_eq (X : FVec Ideal S8192x1024 .f32) (Wt : FVec Ideal S1024x1024 .bf16) (B : FVec Ideal S1x1024 .f32)
    (t : Fin cfg0.N) (p : Fin 512) (q : Fin 1024) :
    (∑ k : Fin 1024, X (((cfg0.win 0).blk t).view.emb (ix2 p k)) * Wt (((cfg0.win 1).blk t).view.emb (ix2 k q)))
        + B (((cfg0.win 2).blk t).view.emb (ix2 (0 : Fin 1) q))
      = Glin0 X Wt B (((cfg0.win 3).blk t).view.emb (ix2 p q)) := by
  obtain ⟨e0, e1, e2, e3, e4, e5, e6, e7⟩ := idx_facts0 t
  have hp : p.val < 512 := p.isLt
  have hq : q.val < 1024 := q.isLt
  have h0 : ∀ k : Fin 1024, ((cfg0.win 0).blk t).view.emb (ix2 p k) = ix2 ((((cfg0.win 3).blk t).view.emb (ix2 p q)) 0) k := fun k => by
    funext a; apply Fin.ext
    match a with
    | ⟨0, _⟩ => show win0_0.index t (0 : Fin 2) * 512 + 1 * p.val = win0_3.index t (0 : Fin 2) * 512 + 1 * p.val; omega
    | ⟨1, _⟩ => show win0_0.index t (1 : Fin 2) * 1024 + 1 * k.val = k.val; omega
  have h1 : ∀ k : Fin 1024, ((cfg0.win 1).blk t).view.emb (ix2 k q) = ix2 k ((((cfg0.win 3).blk t).view.emb (ix2 p q)) 1) := fun k => by
    funext a; apply Fin.ext
    match a with
    | ⟨0, _⟩ => show win0_1.index t (0 : Fin 2) * 1024 + 1 * k.val = k.val; omega
    | ⟨1, _⟩ => show win0_1.index t (1 : Fin 2) * 1024 + 1 * q.val = win0_3.index t (1 : Fin 2) * 1024 + 1 * q.val; omega
  have h2 : ((cfg0.win 2).blk t).view.emb (ix2 (0 : Fin 1) q) = ix2 (0 : Fin 1) ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + 1 * q.val; omega
  unfold Glin0
  rw [h2]
  exact congrArg (· + _) (Finset.sum_congr rfl fun k _ => congrArg₂ (· * ·) (congrArg X (h0 k)) (congrArg Wt (h1 k)))

variable (V : (c : Dev nD) → (b : Ref sig .tc) → Buf (Elt Ideal) ((c : Thread nD τ).loc b))

/-- What point `t` writes back is block `t` of the whole-array function. -/
theorem flushed0_eq (c : Dev nD) (t : Fin cfg0.N) :
    (dat0 (F := Ideal) V c).flushed 3 t = ((cfg0.win 3).blk t).view.read (Elt Ideal)
      (Glin0 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz0]
  simp only [View.ld_unit_zero (S := S512x1024) hz0, View.ld_unit_zero (S := S1024x1024) hz0, View.ld_unit_zero (S := S1x1024) hz0]
  funext j
  obtain ⟨p, q, rfl⟩ : ∃ (p : Fin 512) (q : Fin 1024), j = ix2 p q := ⟨j 0, j 1, eq_ix2 j⟩
  refine (pay0_at _ _ _ p q).trans ?_
  exact blk0_eq (V c (Pipeline.arrRef spec0 0)) (V c (Pipeline.arrRef spec0 1)) (V c (Pipeline.arrRef spec0 2)) t p q

/-- An index of the result array is in point `t`'s block iff each coordinate is in the block's range on its axis. -/
theorem mem_blk0 (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole (Pipeline.arrRef spec0 3)).slice (win0_3.rect t)).set ↔ _
  rw [View.set_slice_whole, Rect.mem_set_unit]
  exact Iff.rfl

/-- The 16 blocks cover the array: row r is in block r / 512. -/
theorem cover0 (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  refine ⟨⟨(i 0).val / 512, by rw [show cfg0.N = 16 from N_0]; omega⟩, flush0_3 _, ?_⟩
  rw [mem_blk0]
  obtain ⟨e0, e1, e2, e3, e4, e5, e6, e7⟩ := idx_facts0 ⟨(i 0).val / 512, by rw [show cfg0.N = 16 from N_0]; omega⟩
  intro a
  match a with
  | ⟨0, _⟩ => show win0_3.index _ (0 : Fin 2) * 512 ≤ (i 0).val ∧ (i 0).val < win0_3.index _ (0 : Fin 2) * 512 + 512; rw [e6]; dsimp only; omega
  | ⟨1, _⟩ => show win0_3.index _ (1 : Fin 2) * 1024 ≤ (i 1).val ∧ (i 1).val < win0_3.index _ (1 : Fin 2) * 1024 + 1024; rw [e7]; omega

/-- THE ARRAY the launch leaves: row times column plus bias, of the arrays it finds. -/
theorem final0 (c : Dev nD) :
    (dat0 (F := Ideal) V c).arrAt 3 cfg0.N
      = Glin0 (V c (Pipeline.arrRef spec0 0)) (V c (Pipeline.arrRef spec0 1)) (V c (Pipeline.arrRef spec0 2)) :=
  (dat0 (F := Ideal) V c).arrAt_eq_of_cover 3 _ (fun t _ => flushed0_eq V c t) (cover0)

end Cert.KernelIdeal.Fr

end
-- ==== Proof.KernelIdeal.Lin1.lean ====
/-
  The value of launch 1 (a tiled matrix product with a bias) on the extended reals: the array it leaves is, entry by
  entry, (row of the activations) · (column of the weight) + (the bias at the column) — whatever the tiling: point `t`
  writes back rows 512·t … 512·t+511 of that function, and the 16 points' blocks cover the array.
-/
import proofs.«137242_j37349035606739_2_alg».proof.Proof.KernelIdeal.Region1
import proofs.«137242_j37349035606739_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

theorem hz1 : (![0, 0] : Fin 2 → Nat) = fun _ => 0 := funext fun a => by fin_cases a <;> rfl

/-- Row times column plus the bias, at an entry of the whole [8192, 1024] array. -/
def Glin1 (x : FVec Ideal S8192x1024 .f32) (w : FVec Ideal S1024x1024 .bf16) (b : FVec Ideal S1x1024 .f32) : FVec Ideal S8192x1024 .bf16 :=
  fun i => (∑ k : Fin 1024, x (ix2 (i 0) k) * w (ix2 k (i 1))) + b (ix2 (0 : Fin 1) (i 1))

/-- The body's one stored value at an entry of the block: a change of float format is the identity on the extended
    reals, the product into a zero accumulator is the plain sum, the bias row is repeated down the rows. -/
theorem pay1_at (x0 : FVec Ideal S512x1024 .f32) (x1 : FVec Ideal S1024x1024 .bf16) (x2 : FVec Ideal S1x1024 .f32) (p : Fin 512) (q : Fin 1024) :
    k1_pay1 (F := Ideal) x0 x1 x2 (ix2 p q) = (∑ k : Fin 1024, x0 (ix2 p k) * x1 (ix2 k q)) + x2 (ix2 (0 : Fin 1) q) := by
  unfold k1_pay1
  simp only [shapeCast_self]
  refine (addf_apply _ _ _).trans ?_
  refine congrArg₂ (· + ·) ?_ ?_
  · exact Cert.PlainDot.matmul_zero_plain dot_S512x1024_S1024x1024_S512x1024_1_0_0_1_n_n ⟨rfl, rfl, rfl, rfl, rfl, rfl⟩ none _ x1 (ix2 p q)
  · exact broadcastTo_1b_ab_apply x2 _ p q

/-- The windows' block indices over the grid: the activations and the result move with the point along the rows,
    the weight and the bias stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The block equation at explicitly typed arrays: the entries the body's sum reads through the three input windows'
    blocks at point `t` are the entries the whole-array function reads at the output block's entry. -/
theorem blk1_eq (X : FVec Ideal S8192x1024 .f32) (Wt : FVec Ideal S1024x1024 .bf16) (B : FVec Ideal S1x1024 .f32)
    (t : Fin cfg1.N) (p : Fin 512) (q : Fin 1024) :
    (∑ k : Fin 1024, X (((cfg1.win 0).blk t).view.emb (ix2 p k)) * Wt (((cfg1.win 1).blk t).view.emb (ix2 k q)))
        + B (((cfg1.win 2).blk t).view.emb (ix2 (0 : Fin 1) q))
      = Glin1 X Wt B (((cfg1.win 3).blk t).view.emb (ix2 p q)) := by
  obtain ⟨e0, e1, e2, e3, e4, e5, e6, e7⟩ := idx_facts1 t
  have hp : p.val < 512 := p.isLt
  have hq : q.val < 1024 := q.isLt
  have h0 : ∀ k : Fin 1024, ((cfg1.win 0).blk t).view.emb (ix2 p k) = ix2 ((((cfg1.win 3).blk t).view.emb (ix2 p q)) 0) k := fun k => by
    funext a; apply Fin.ext
    match a with
    | ⟨0, _⟩ => show win1_0.index t (0 : Fin 2) * 512 + 1 * p.val = win1_3.index t (0 : Fin 2) * 512 + 1 * p.val; omega
    | ⟨1, _⟩ => show win1_0.index t (1 : Fin 2) * 1024 + 1 * k.val = k.val; omega
  have h1 : ∀ k : Fin 1024, ((cfg1.win 1).blk t).view.emb (ix2 k q) = ix2 k ((((cfg1.win 3).blk t).view.emb (ix2 p q)) 1) := fun k => by
    funext a; apply Fin.ext
    match a with
    | ⟨0, _⟩ => show win1_1.index t (0 : Fin 2) * 1024 + 1 * k.val = k.val; omega
    | ⟨1, _⟩ => show win1_1.index t (1 : Fin 2) * 1024 + 1 * q.val = win1_3.index t (1 : Fin 2) * 1024 + 1 * q.val; omega
  have h2 : ((cfg1.win 2).blk t).view.emb (ix2 (0 : Fin 1) q) = ix2 (0 : Fin 1) ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 1024 + 1 * q.val = win1_3.index t (1 : Fin 2) * 1024 + 1 * q.val; omega
  unfold Glin1
  rw [h2]
  exact congrArg (· + _) (Finset.sum_congr rfl fun k _ => congrArg₂ (· * ·) (congrArg X (h0 k)) (congrArg Wt (h1 k)))

variable (V : (c : Dev nD) → (b : Ref sig .tc) → Buf (Elt Ideal) ((c : Thread nD τ).loc b))

/-- What point `t` writes back is block `t` of the whole-array function. -/
theorem flushed1_eq (c : Dev nD) (t : Fin cfg1.N) :
    (dat1 (F := Ideal) V c).flushed 3 t = ((cfg1.win 3).blk t).view.read (Elt Ideal)
      (Glin1 (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz1]
  simp only [View.ld_unit_zero (S := S512x1024) hz1, View.ld_unit_zero (S := S1024x1024) hz1, View.ld_unit_zero (S := S1x1024) hz1]
  funext j
  obtain ⟨p, q, rfl⟩ : ∃ (p : Fin 512) (q : Fin 1024), j = ix2 p q := ⟨j 0, j 1, eq_ix2 j⟩
  refine (pay1_at _ _ _ p q).trans ?_
  exact blk1_eq (V c (Pipeline.arrRef spec1 0)) (V c (Pipeline.arrRef spec1 1)) (V c (Pipeline.arrRef spec1 2)) t p q

/-- An index of the result array is in point `t`'s block iff each coordinate is in the block's range on its axis. -/
theorem mem_blk1 (t : Fin cfg1.N) (i : S8192x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole (Pipeline.arrRef spec1 3)).slice (win1_3.rect t)).set ↔ _
  rw [View.set_slice_whole, Rect.mem_set_unit]
  exact Iff.rfl

/-- The 16 blocks cover the array: row r is in block r / 512. -/
theorem cover1 (i : S8192x1024.Idx) : ∃ t : Fin cfg1.N, (cfg1.win 3).flush t = true ∧ i ∈ ((cfg1.win 3).blk t).view.set := by
  have hi0 : (i 0).val < 8192 := (i 0).isLt
  have hi1 : (i 1).val < 1024 := (i 1).isLt
  refine ⟨⟨(i 0).val / 512, by rw [show cfg1.N = 16 from N_1]; omega⟩, flush1_3 _, ?_⟩
  rw [mem_blk1]
  obtain ⟨e0, e1, e2, e3, e4, e5, e6, e7⟩ := idx_facts1 ⟨(i 0).val / 512, by rw [show cfg1.N = 16 from N_1]; omega⟩
  intro a
  match a with
  | ⟨0, _⟩ => show win1_3.index _ (0 : Fin 2) * 512 ≤ (i 0).val ∧ (i 0).val < win1_3.index _ (0 : Fin 2) * 512 + 512; rw [e6]; dsimp only; omega
  | ⟨1, _⟩ => show win1_3.index _ (1 : Fin 2) * 1024 ≤ (i 1).val ∧ (i 1).val < win1_3.index _ (1 : Fin 2) * 1024 + 1024; rw [e7]; omega

/-- THE ARRAY the launch leaves: row times column plus bias, of the arrays it finds. -/
theorem final1 (c : Dev nD) :
    (dat1 (F := Ideal) V c).arrAt 3 cfg1.N
      = Glin1 (V c (Pipeline.arrRef spec1 0)) (V c (Pipeline.arrRef spec1 1)) (V c (Pipeline.arrRef spec1 2)) :=
  (dat1 (F := Ideal) V c).arrAt_eq_of_cover 3 _ (fun t _ => flushed1_eq V c t) (cover1)

end Cert.KernelIdeal.Fr

end
-- ==== Proof.KernelIdeal.Lin2.lean ====
/-
  The value of launch 2 (a tiled matrix product with a bias) on the extended reals: the array it leaves is, entry by
  entry, (row of the activations) · (column of the weight) + (the bias at the column) — whatever the tiling: point `t`
  writes back rows 512·t … 512·t+511 of that function, and the 16 points' blocks cover the array.
-/
import proofs.«137242_j37349035606739_2_alg».proof.Proof.KernelIdeal.Region2
import proofs.«137242_j37349035606739_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

theorem hz2 : (![0, 0] : Fin 2 → Nat) = fun _ => 0 := funext fun a => by fin_cases a <;> rfl

/-- Row times column plus the bias, at an entry of the whole [8192, 1024] array. -/
def Glin2 (x : FVec Ideal S8192x1024 .f32) (w : FVec Ideal S1024x1024 .bf16) (b : FVec Ideal S1x1024 .f32) : FVec Ideal S8192x1024 .bf16 :=
  fun i => (∑ k : Fin 1024, x (ix2 (i 0) k) * w (ix2 k (i 1))) + b (ix2 (0 : Fin 1) (i 1))

/-- The body's one stored value at an entry of the block: a change of float format is the identity on the extended
    reals, the product into a zero accumulator is the plain sum, the bias row is repeated down the rows. -/
theorem pay2_at (x0 : FVec Ideal S512x1024 .f32) (x1 : FVec Ideal S1024x1024 .bf16) (x2 : FVec Ideal S1x1024 .f32) (p : Fin 512) (q : Fin 1024) :
    k2_pay1 (F := Ideal) x0 x1 x2 (ix2 p q) = (∑ k : Fin 1024, x0 (ix2 p k) * x1 (ix2 k q)) + x2 (ix2 (0 : Fin 1) q) := by
  unfold k2_pay1
  simp only [shapeCast_self]
  refine (addf_apply _ _ _).trans ?_
  refine congrArg₂ (· + ·) ?_ ?_
  · exact Cert.PlainDot.matmul_zero_plain dot_S512x1024_S1024x1024_S512x1024_1_0_0_1_n_n ⟨rfl, rfl, rfl, rfl, rfl, rfl⟩ none _ x1 (ix2 p q)
  · exact broadcastTo_1b_ab_apply x2 _ p q

/-- The windows' block indices over the grid: the activations and the result move with the point along the rows,
    the weight and the bias stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The block equation at explicitly typed arrays: the entries the body's sum reads through the three input windows'
    blocks at point `t` are the entries the whole-array function reads at the output block's entry. -/
theorem blk2_eq (X : FVec Ideal S8192x1024 .f32) (Wt : FVec Ideal S1024x1024 .bf16) (B : FVec Ideal S1x1024 .f32)
    (t : Fin cfg2.N) (p : Fin 512) (q : Fin 1024) :
    (∑ k : Fin 1024, X (((cfg2.win 0).blk t).view.emb (ix2 p k)) * Wt (((cfg2.win 1).blk t).view.emb (ix2 k q)))
        + B (((cfg2.win 2).blk t).view.emb (ix2 (0 : Fin 1) q))
      = Glin2 X Wt B (((cfg2.win 3).blk t).view.emb (ix2 p q)) := by
  obtain ⟨e0, e1, e2, e3, e4, e5, e6, e7⟩ := idx_facts2 t
  have hp : p.val < 512 := p.isLt
  have hq : q.val < 1024 := q.isLt
  have h0 : ∀ k : Fin 1024, ((cfg2.win 0).blk t).view.emb (ix2 p k) = ix2 ((((cfg2.win 3).blk t).view.emb (ix2 p q)) 0) k := fun k => by
    funext a; apply Fin.ext
    match a with
    | ⟨0, _⟩ => show win2_0.index t (0 : Fin 2) * 512 + 1 * p.val = win2_3.index t (0 : Fin 2) * 512 + 1 * p.val; omega
    | ⟨1, _⟩ => show win2_0.index t (1 : Fin 2) * 1024 + 1 * k.val = k.val; omega
  have h1 : ∀ k : Fin 1024, ((cfg2.win 1).blk t).view.emb (ix2 k q) = ix2 k ((((cfg2.win 3).blk t).view.emb (ix2 p q)) 1) := fun k => by
    funext a; apply Fin.ext
    match a with
    | ⟨0, _⟩ => show win2_1.index t (0 : Fin 2) * 1024 + 1 * k.val = k.val; omega
    | ⟨1, _⟩ => show win2_1.index t (1 : Fin 2) * 1024 + 1 * q.val = win2_3.index t (1 : Fin 2) * 1024 + 1 * q.val; omega
  have h2 : ((cfg2.win 2).blk t).view.emb (ix2 (0 : Fin 1) q) = ix2 (0 : Fin 1) ((((cfg2.win 3).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 1024 + 1 * q.val = win2_3.index t (1 : Fin 2) * 1024 + 1 * q.val; omega
  unfold Glin2
  rw [h2]
  exact congrArg (· + _) (Finset.sum_congr rfl fun k _ => congrArg₂ (· * ·) (congrArg X (h0 k)) (congrArg Wt (h1 k)))

variable (V : (c : Dev nD) → (b : Ref sig .tc) → Buf (Elt Ideal) ((c : Thread nD τ).loc b))

/-- What point `t` writes back is block `t` of the whole-array function. -/
theorem flushed2_eq (c : Dev nD) (t : Fin cfg2.N) :
    (dat2 (F := Ideal) V c).flushed 3 t = ((cfg2.win 3).blk t).view.read (Elt Ideal)
      (Glin2 (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz2]
  simp only [View.ld_unit_zero (S := S512x1024) hz2, View.ld_unit_zero (S := S1024x1024) hz2, View.ld_unit_zero (S := S1x1024) hz2]
  funext j
  obtain ⟨p, q, rfl⟩ : ∃ (p : Fin 512) (q : Fin 1024), j = ix2 p q := ⟨j 0, j 1, eq_ix2 j⟩
  refine (pay2_at _ _ _ p q).trans ?_
  exact blk2_eq (V c (Pipeline.arrRef spec2 0)) (V c (Pipeline.arrRef spec2 1)) (V c (Pipeline.arrRef spec2 2)) t p q

/-- An index of the result array is in point `t`'s block iff each coordinate is in the block's range on its axis. -/
theorem mem_blk2 (t : Fin cfg2.N) (i : S8192x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole (Pipeline.arrRef spec2 3)).slice (win2_3.rect t)).set ↔ _
  rw [View.set_slice_whole, Rect.mem_set_unit]
  exact Iff.rfl

/-- The 16 blocks cover the array: row r is in block r / 512. -/
theorem cover2 (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  refine ⟨⟨(i 0).val / 512, by rw [show cfg2.N = 16 from N_2]; omega⟩, flush2_3 _, ?_⟩
  rw [mem_blk2]
  obtain ⟨e0, e1, e2, e3, e4, e5, e6, e7⟩ := idx_facts2 ⟨(i 0).val / 512, by rw [show cfg2.N = 16 from N_2]; omega⟩
  intro a
  match a with
  | ⟨0, _⟩ => show win2_3.index _ (0 : Fin 2) * 512 ≤ (i 0).val ∧ (i 0).val < win2_3.index _ (0 : Fin 2) * 512 + 512; rw [e6]; dsimp only; omega
  | ⟨1, _⟩ => show win2_3.index _ (1 : Fin 2) * 1024 ≤ (i 1).val ∧ (i 1).val < win2_3.index _ (1 : Fin 2) * 1024 + 1024; rw [e7]; omega

/-- THE ARRAY the launch leaves: row times column plus bias, of the arrays it finds. -/
theorem final2 (c : Dev nD) :
    (dat2 (F := Ideal) V c).arrAt 3 cfg2.N
      = Glin2 (V c (Pipeline.arrRef spec2 0)) (V c (Pipeline.arrRef spec2 1)) (V c (Pipeline.arrRef spec2 2)) :=
  (dat2 (F := Ideal) V c).arrAt_eq_of_cover 3 _ (fun t _ => flushed2_eq V c t) (cover2)

end Cert.KernelIdeal.Fr

end
-- ==== Proof.KernelIdeal.Lin4.lean ====
/-
  The value of launch 4 (a tiled matrix product with a bias) on the extended reals: the array it leaves is, entry by
  entry, (row of the activations) · (column of the weight) + (the bias at the column) — whatever the tiling: point `t`
  writes back rows 512·t … 512·t+511 of that function, and the 16 points' blocks cover the array.
-/
import proofs.«137242_j37349035606739_2_alg».proof.Proof.KernelIdeal.Region4
import proofs.«137242_j37349035606739_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

theorem hz4 : (![0, 0] : Fin 2 → Nat) = fun _ => 0 := funext fun a => by fin_cases a <;> rfl

/-- Row times column plus the bias, at an entry of the whole [8192, 1024] array. -/
def Glin4 (x : FVec Ideal S8192x1024 .bf16) (w : FVec Ideal S1024x1024 .bf16) (b : FVec Ideal S1x1024 .f32) : FVec Ideal S8192x1024 .f32 :=
  fun i => (∑ k : Fin 1024, x (ix2 (i 0) k) * w (ix2 k (i 1))) + b (ix2 (0 : Fin 1) (i 1))

/-- The body's one stored value at an entry of the block: a change of float format is the identity on the extended
    reals, the product into a zero accumulator is the plain sum, the bias row is repeated down the rows. -/
theorem pay4_at (x0 : FVec Ideal S512x1024 .bf16) (x1 : FVec Ideal S1024x1024 .bf16) (x2 : FVec Ideal S1x1024 .f32) (p : Fin 512) (q : Fin 1024) :
    k4_pay1 (F := Ideal) x0 x1 x2 (ix2 p q) = (∑ k : Fin 1024, x0 (ix2 p k) * x1 (ix2 k q)) + x2 (ix2 (0 : Fin 1) q) := by
  unfold k4_pay1
  simp only [shapeCast_self]
  refine (addf_apply _ _ _).trans ?_
  refine congrArg₂ (· + ·) ?_ ?_
  · exact Cert.PlainDot.matmul_zero_plain dot_S512x1024_S1024x1024_S512x1024_1_0_0_1_n_n ⟨rfl, rfl, rfl, rfl, rfl, rfl⟩ none _ x1 (ix2 p q)
  · exact broadcastTo_1b_ab_apply x2 _ p q

/-- The windows' block indices over the grid: the activations and the result move with the point along the rows,
    the weight and the bias stay. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The block equation at explicitly typed arrays: the entries the body's sum reads through the three input windows'
    blocks at point `t` are the entries the whole-array function reads at the output block's entry. -/
theorem blk4_eq (X : FVec Ideal S8192x1024 .bf16) (Wt : FVec Ideal S1024x1024 .bf16) (B : FVec Ideal S1x1024 .f32)
    (t : Fin cfg4.N) (p : Fin 512) (q : Fin 1024) :
    (∑ k : Fin 1024, X (((cfg4.win 0).blk t).view.emb (ix2 p k)) * Wt (((cfg4.win 1).blk t).view.emb (ix2 k q)))
        + B (((cfg4.win 2).blk t).view.emb (ix2 (0 : Fin 1) q))
      = Glin4 X Wt B (((cfg4.win 3).blk t).view.emb (ix2 p q)) := by
  obtain ⟨e0, e1, e2, e3, e4, e5, e6, e7⟩ := idx_facts4 t
  have hp : p.val < 512 := p.isLt
  have hq : q.val < 1024 := q.isLt
  have h0 : ∀ k : Fin 1024, ((cfg4.win 0).blk t).view.emb (ix2 p k) = ix2 ((((cfg4.win 3).blk t).view.emb (ix2 p q)) 0) k := fun k => by
    funext a; apply Fin.ext
    match a with
    | ⟨0, _⟩ => show win4_0.index t (0 : Fin 2) * 512 + 1 * p.val = win4_3.index t (0 : Fin 2) * 512 + 1 * p.val; omega
    | ⟨1, _⟩ => show win4_0.index t (1 : Fin 2) * 1024 + 1 * k.val = k.val; omega
  have h1 : ∀ k : Fin 1024, ((cfg4.win 1).blk t).view.emb (ix2 k q) = ix2 k ((((cfg4.win 3).blk t).view.emb (ix2 p q)) 1) := fun k => by
    funext a; apply Fin.ext
    match a with
    | ⟨0, _⟩ => show win4_1.index t (0 : Fin 2) * 1024 + 1 * k.val = k.val; omega
    | ⟨1, _⟩ => show win4_1.index t (1 : Fin 2) * 1024 + 1 * q.val = win4_3.index t (1 : Fin 2) * 1024 + 1 * q.val; omega
  have h2 : ((cfg4.win 2).blk t).view.emb (ix2 (0 : Fin 1) q) = ix2 (0 : Fin 1) ((((cfg4.win 3).blk t).view.emb (ix2 p q)) 1) := by
    funext a; apply Fin.ext
    match a with
    | ⟨0, _⟩ => show win4_2.index t (0 : Fin 2) * 1 + 1 * 0 = 0; omega
    | ⟨1, _⟩ => show win4_2.index t (1 : Fin 2) * 1024 + 1 * q.val = win4_3.index t (1 : Fin 2) * 1024 + 1 * q.val; omega
  unfold Glin4
  rw [h2]
  exact congrArg (· + _) (Finset.sum_congr rfl fun k _ => congrArg₂ (· * ·) (congrArg X (h0 k)) (congrArg Wt (h1 k)))

variable (V : (c : Dev nD) → (b : Ref sig .tc) → Buf (Elt Ideal) ((c : Thread nD τ).loc b))

/-- What point `t` writes back is block `t` of the whole-array function. -/
theorem flushed4_eq (c : Dev nD) (t : Fin cfg4.N) :
    (dat4 (F := Ideal) V c).flushed 3 t = ((cfg4.win 3).blk t).view.read (Elt Ideal)
      (Glin4 (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero hz4]
  simp only [View.ld_unit_zero (S := S512x1024) hz4, View.ld_unit_zero (S := S1024x1024) hz4, View.ld_unit_zero (S := S1x1024) hz4]
  funext j
  obtain ⟨p, q, rfl⟩ : ∃ (p : Fin 512) (q : Fin 1024), j = ix2 p q := ⟨j 0, j 1, eq_ix2 j⟩
  refine (pay4_at _ _ _ p q).trans ?_
  exact blk4_eq (V c (Pipeline.arrRef spec4 0)) (V c (Pipeline.arrRef spec4 1)) (V c (Pipeline.arrRef spec4 2)) t p q

/-- An index of the result array is in point `t`'s block iff each coordinate is in the block's range on its axis. -/
theorem mem_blk4 (t : Fin cfg4.N) (i : S8192x1024.Idx) :
    i ∈ ((cfg4.win 3).blk t).view.set ↔ ∀ a : Fin 2, win4_3.index t a * S512x1024.size a ≤ (i a).val ∧ (i a).val < win4_3.index t a * S512x1024.size a + S512x1024.size a := by
  show i ∈ ((View.whole (Pipeline.arrRef spec4 3)).slice (win4_3.rect t)).set ↔ _
  rw [View.set_slice_whole, Rect.mem_set_unit]
  exact Iff.rfl

/-- The 16 blocks cover the array: row r is in block r / 512. -/
theorem cover4 (i : S8192x1024.Idx) : ∃ t : Fin cfg4.N, (cfg4.win 3).flush t = true ∧ i ∈ ((cfg4.win 3).blk t).view.set := by
  have hi0 : (i 0).val < 8192 := (i 0).isLt
  have hi1 : (i 1).val < 1024 := (i 1).isLt
  refine ⟨⟨(i 0).val / 512, by rw [show cfg4.N = 16 from N_4]; omega⟩, flush4_3 _, ?_⟩
  rw [mem_blk4]
  obtain ⟨e0, e1, e2, e3, e4, e5, e6, e7⟩ := idx_facts4 ⟨(i 0).val / 512, by rw [show cfg4.N = 16 from N_4]; omega⟩
  intro a
  match a with
  | ⟨0, _⟩ => show win4_3.index _ (0 : Fin 2) * 512 ≤ (i 0).val ∧ (i 0).val < win4_3.index _ (0 : Fin 2) * 512 + 512; rw [e6]; dsimp only; omega
  | ⟨1, _⟩ => show win4_3.index _ (1 : Fin 2) * 1024 ≤ (i 1).val ∧ (i 1).val < win4_3.index _ (1 : Fin 2) * 1024 + 1024; rw [e7]; omega

/-- THE ARRAY the launch leaves: row times column plus bias, of the arrays it finds. -/
theorem final4 (c : Dev nD) :
    (dat4 (F := Ideal) V c).arrAt 3 cfg4.N
      = Glin4 (V c (Pipeline.arrRef spec4 0)) (V c (Pipeline.arrRef spec4 1)) (V c (Pipeline.arrRef spec4 2)) :=
  (dat4 (F := Ideal) V c).arrAt_eq_of_cover 3 _ (fun t _ => flushed4_eq V c t) (cover4)

end Cert.KernelIdeal.Fr

end
-- ==== Proof.LibOnlineSoftmax.lean ====
/-
  GENERAL LEMMAS — softmax pooling in its running (online) form against its plain two-pass form, on the extended
  reals.  Imports Mathlib and the ideal float instance only.

  Over the reals.  A softmax-weighted average  (∑ₛ f s · e^(p s − M)) / (∑ₛ e^(p s − M))  does not depend on the
  shift M.  The running form keeps, over consecutive blocks of positions, a running shift, a running normaliser and
  a running weighted sum, and rescales the two sums by e^(M₀ − M₁) when the shift moves from M₀ to M₁; since
  e^(M₀ − M₁) · e^(p − M₀) = e^(p − M₁), what it ends with is the same quotient at the last shift, hence at any
  shift (`pool_real`, for two blocks).  The shifts are arbitrary reals: that they are maxima is never used.

  On the extended reals.  `newMax`, `newSum`, `newAcc` are one step of the running form on one row; `onePass` is
  two steps from the state (−∞, 0, 0) followed by the division; `twoPass` is the plain form.  On rows of REAL
  numbers every quantity is a real number — a nonempty row of reals has a real maximum (`rowMax_real`), a step from
  a real state is the real step (`newSum_coe`, `newAcc_coe`; from (−∞, 0, 0): `newSum_first`, `newAcc_first`), the
  normalisers are positive — so the two forms agree (`onePass_eq_twoPass`).  With an infinite entry they need not:
  the rescaling moves a factor across a sum.  The per-step lemmas serve a running form of any number of steps.

  Also here: a finite sum of reals taken in the extended reals is the real sum (`coe_sum`); a maximum folded from
  −∞ over finitely many reals is real as soon as there is one of them (`fold_max_real`).
-/
import Mathlib
import Idealize.ShloMosaic.PureOps.Ideal

noncomputable section

namespace Cert.Pooling

open Idealize.ShloMosaic Finset

/-! ## Over the reals -/

/-- A finite sum of real numbers, taken in the extended reals, is the real sum. -/
theorem coe_sum {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- A maximum folded over real numbers from a start that is −∞ or real is −∞ or real. -/
theorem fold_max_bot_or_real {ι : Type*} (s : Finset ι) (g : ι → ℝ) (b : EReal) (hb : b = ⊥ ∨ ∃ r : ℝ, b = r) :
    s.fold max b (fun i => ((g i : ℝ) : EReal)) = ⊥ ∨ ∃ r : ℝ, s.fold max b (fun i => ((g i : ℝ) : EReal)) = r := by
  classical
  induction s using Finset.induction_on with
  | empty => simpa using hb
  | insert a s ha ih =>
    rw [Finset.fold_insert ha]
    right
    rcases ih with h | ⟨r, h⟩
    · exact ⟨g a, by rw [h]; exact max_eq_left bot_le⟩
    · exact ⟨max (g a) r, by rw [h]; exact (EReal.coe_strictMono.monotone.map_max).symm⟩

/-- Over at least one real number, the maximum folded from −∞ is a real number. -/
theorem fold_max_real {ι : Type*} (s : Finset ι) (hs : s.Nonempty) (g : ι → ℝ) :
    ∃ r : ℝ, s.fold max (⊥ : EReal) (fun i => ((g i : ℝ) : EReal)) = r := by
  classical
  obtain ⟨a, ha⟩ := hs
  rw [← Finset.insert_erase ha, Finset.fold_insert (Finset.notMem_erase a s)]
  rcases fold_max_bot_or_real (s.erase a) g ⊥ (Or.inl rfl) with h | ⟨r, h⟩
  · exact ⟨g a, by rw [h]; exact max_eq_left bot_le⟩
  · exact ⟨max (g a) r, by rw [h]; exact (EReal.coe_strictMono.monotone.map_max).symm⟩

/-- THE IDENTITY.  Two blocks of positions (ι₀ then ι₁) with scores p and features f.  The one-pass form — the
    first block's sums at shift M₀ rescaled by e^(M₀ − M₁), plus the second block's at shift M₁, numerator over
    denominator — is the two-pass softmax average at any shift M. -/
theorem pool_real {ι₀ ι₁ : Type*} [Fintype ι₀] [Fintype ι₁] [Nonempty ι₀] (p0 f0 : ι₀ → ℝ) (p1 f1 : ι₁ → ℝ)
    (M0 M1 M : ℝ) :
    (Real.exp (M0 - M1) * (∑ s, Real.exp (p0 s - M0) * f0 s) + ∑ s, Real.exp (p1 s - M1) * f1 s)
      / (Real.exp (M0 - M1) * (∑ s, Real.exp (p0 s - M0)) + ∑ s, Real.exp (p1 s - M1))
    = ∑ s, f0 s * (Real.exp (p0 s - M) / (∑ s, Real.exp (p0 s - M) + ∑ s, Real.exp (p1 s - M)))
      + ∑ s, f1 s * (Real.exp (p1 s - M) / (∑ s, Real.exp (p0 s - M) + ∑ s, Real.exp (p1 s - M))) := by
  have h0 : ∀ s, Real.exp (M0 - M1) * Real.exp (p0 s - M0) = Real.exp (M - M1) * Real.exp (p0 s - M) := fun s => by
    rw [← Real.exp_add, ← Real.exp_add]; congr 1; ring
  have h1 : ∀ s, Real.exp (p1 s - M1) = Real.exp (M - M1) * Real.exp (p1 s - M) := fun s => by
    rw [← Real.exp_add]; congr 1; ring
  have hZ : 0 < ∑ s, Real.exp (p0 s - M) + ∑ s, Real.exp (p1 s - M) := by
    have a : 0 < ∑ s, Real.exp (p0 s - M) := Finset.sum_pos (fun s _ => Real.exp_pos _) Finset.univ_nonempty
    have b : 0 ≤ ∑ s, Real.exp (p1 s - M) := Finset.sum_nonneg (fun s _ => (Real.exp_pos _).le)
    linarith
  have hnum : Real.exp (M0 - M1) * (∑ s, Real.exp (p0 s - M0) * f0 s) + ∑ s, Real.exp (p1 s - M1) * f1 s
      = Real.exp (M - M1) * (∑ s, f0 s * Real.exp (p0 s - M) + ∑ s, f1 s * Real.exp (p1 s - M)) := by
    rw [Finset.mul_sum, mul_add, Finset.mul_sum, Finset.mul_sum]
    congr 1
    · refine Finset.sum_congr rfl fun s _ => ?_
      rw [← mul_assoc, h0 s]; ring
    · refine Finset.sum_congr rfl fun s _ => ?_
      rw [h1 s]; ring
  have hden : Real.exp (M0 - M1) * (∑ s, Real.exp (p0 s - M0)) + ∑ s, Real.exp (p1 s - M1)
      = Real.exp (M - M1) * (∑ s, Real.exp (p0 s - M) + ∑ s, Real.exp (p1 s - M)) := by
    rw [Finset.mul_sum, mul_add, Finset.mul_sum, Finset.mul_sum]
    congr 1
    · exact Finset.sum_congr rfl fun s _ => h0 s
    · exact Finset.sum_congr rfl fun s _ => h1 s
  rw [hnum, hden, mul_div_mul_left _ _ (Real.exp_pos _).ne', add_div, Finset.sum_div, Finset.sum_div]
  congr 1 <;> exact Finset.sum_congr rfl fun s _ => (mul_div_assoc _ _ _)

/-! ## The two forms on the extended reals -/

variable {n : ℕ}

/-- A row's maximum, folded from −∞. -/
def rowMax (p : Fin n → EReal) : EReal := (Finset.univ : Finset (Fin n)).fold max ⊥ p

/-- The shift after a step: the larger of the shift before it and the row's maximum. -/
def newMax (m : EReal) (p : Fin n → EReal) : EReal := max m (rowMax p)

/-- The normaliser after a step: the old one rescaled to the new shift, plus the row's weights. -/
def newSum (m l : EReal) (p : Fin n → EReal) : EReal :=
  Ideal.exp (m - newMax m p) * l + ∑ s, Ideal.exp (p s - newMax m p)

/-- The weighted sum after a step: the old one rescaled to the new shift, plus the row's weighted features. -/
def newAcc (m a : EReal) (p f : Fin n → EReal) : EReal :=
  Ideal.exp (m - newMax m p) * a + ∑ s, Ideal.exp (p s - newMax m p) * f s

/-- The running form over two half rows, from the state (−∞, 0, 0). -/
def onePass (p0 f0 p1 f1 : Fin n → EReal) : EReal :=
  Ideal.div (newAcc (newMax ⊥ p0) (newAcc ⊥ 0 p0 f0) p1 f1) (newSum (newMax ⊥ p0) (newSum ⊥ 0 p0) p1)

/-- The plain form over one row. -/
def twoPass {N : ℕ} (p f : Fin N → EReal) : EReal :=
  ∑ s, f s * Ideal.div (Ideal.exp (p s - max ⊥ (rowMax p))) (∑ s', Ideal.exp (p s' - max ⊥ (rowMax p)))

/-! ## On real rows everything is real -/

theorem exp_sub_coe (x M : ℝ) : Ideal.exp ((x : EReal) - (M : EReal)) = ((Real.exp (x - M) : ℝ) : EReal) := by
  rw [← EReal.coe_sub]; rfl

theorem div_coe_coe (a : ℝ) {l : ℝ} (hl : l ≠ 0) : Ideal.div (a : EReal) (l : EReal) = ((a / l : ℝ) : EReal) := by
  rw [Ideal.div_coe hl, ← EReal.coe_mul, mul_one_div]

/-- A nonempty row of reals has a real maximum. -/
theorem rowMax_real (hn : 0 < n) (p : Fin n → EReal) (pr : Fin n → ℝ) (hp : ∀ s, p s = pr s) :
    ∃ M : ℝ, rowMax p = M := by
  obtain rfl : p = fun s => ((pr s : ℝ) : EReal) := funext hp
  exact fold_max_real Finset.univ ⟨⟨0, hn⟩, Finset.mem_univ _⟩ pr

theorem sum_exp_coe (p : Fin n → EReal) (pr : Fin n → ℝ) (hp : ∀ s, p s = pr s) (M : ℝ) :
    ∑ s, Ideal.exp (p s - (M : EReal)) = ((∑ s, Real.exp (pr s - M) : ℝ) : EReal) := by
  rw [← coe_sum]
  exact Finset.sum_congr rfl fun s _ => by rw [hp s, exp_sub_coe]

theorem sum_exp_mul_coe (p f : Fin n → EReal) (pr fr : Fin n → ℝ) (hp : ∀ s, p s = pr s) (hf : ∀ s, f s = fr s)
    (M : ℝ) :
    ∑ s, Ideal.exp (p s - (M : EReal)) * f s = ((∑ s, Real.exp (pr s - M) * fr s : ℝ) : EReal) := by
  rw [← coe_sum]
  exact Finset.sum_congr rfl fun s _ => by rw [hp s, hf s, exp_sub_coe, EReal.coe_mul]

/-- The first step, from (−∞, 0, 0): the rescaled old state contributes 0 whatever the factor. -/
theorem newSum_first (p : Fin n → EReal) (pr : Fin n → ℝ) (hp : ∀ s, p s = pr s) {M : ℝ} (hM : rowMax p = M) :
    newSum ⊥ 0 p = ((∑ s, Real.exp (pr s - M) : ℝ) : EReal) := by
  unfold newSum newMax
  rw [max_eq_right (bot_le : (⊥ : EReal) ≤ rowMax p), hM, mul_zero, zero_add]
  exact sum_exp_coe p pr hp M

theorem newAcc_first (p f : Fin n → EReal) (pr fr : Fin n → ℝ) (hp : ∀ s, p s = pr s) (hf : ∀ s, f s = fr s)
    {M : ℝ} (hM : rowMax p = M) :
    newAcc ⊥ 0 p f = ((∑ s, Real.exp (pr s - M) * fr s : ℝ) : EReal) := by
  unfold newAcc newMax
  rw [max_eq_right (bot_le : (⊥ : EReal) ≤ rowMax p), hM, mul_zero, zero_add]
  exact sum_exp_mul_coe p f pr fr hp hf M

/-- A later step, from a real state. -/
theorem newSum_coe (m l : ℝ) (p : Fin n → EReal) (pr : Fin n → ℝ) (hp : ∀ s, p s = pr s) {M : ℝ}
    (hM : newMax (m : EReal) p = M) :
    newSum (m : EReal) (l : EReal) p = ((Real.exp (m - M) * l + ∑ s, Real.exp (pr s - M) : ℝ) : EReal) := by
  unfold newSum
  rw [hM, exp_sub_coe, ← EReal.coe_mul, sum_exp_coe p pr hp M, ← EReal.coe_add]

theorem newAcc_coe (m a : ℝ) (p f : Fin n → EReal) (pr fr : Fin n → ℝ) (hp : ∀ s, p s = pr s)
    (hf : ∀ s, f s = fr s) {M : ℝ} (hM : newMax (m : EReal) p = M) :
    newAcc (m : EReal) (a : EReal) p f = ((Real.exp (m - M) * a + ∑ s, Real.exp (pr s - M) * fr s : ℝ) : EReal) := by
  unfold newAcc
  rw [hM, exp_sub_coe, ← EReal.coe_mul, sum_exp_mul_coe p f pr fr hp hf M, ← EReal.coe_add]

/-- The running form on real half rows is the real running quotient, at two real shifts. -/
theorem onePass_coe (hn : 0 < n) (p0 f0 p1 f1 : Fin n → EReal) (pr0 fr0 pr1 fr1 : Fin n → ℝ)
    (hp0 : ∀ s, p0 s = pr0 s) (hf0 : ∀ s, f0 s = fr0 s) (hp1 : ∀ s, p1 s = pr1 s) (hf1 : ∀ s, f1 s = fr1 s) :
    ∃ M0 M1 : ℝ, onePass p0 f0 p1 f1
      = (((Real.exp (M0 - M1) * (∑ s, Real.exp (pr0 s - M0) * fr0 s) + ∑ s, Real.exp (pr1 s - M1) * fr1 s)
          / (Real.exp (M0 - M1) * (∑ s, Real.exp (pr0 s - M0)) + ∑ s, Real.exp (pr1 s - M1)) : ℝ) : EReal) := by
  obtain ⟨M0, hM0⟩ := rowMax_real hn p0 pr0 hp0
  obtain ⟨R1, hR1⟩ := rowMax_real hn p1 pr1 hp1
  have hm0 : newMax ⊥ p0 = (M0 : EReal) := by
    unfold newMax; rw [max_eq_right (bot_le : (⊥ : EReal) ≤ rowMax p0), hM0]
  have hm1 : newMax (M0 : EReal) p1 = ((max M0 R1 : ℝ) : EReal) := by
    unfold newMax; rw [hR1]; exact (EReal.coe_strictMono.monotone.map_max).symm
  refine ⟨M0, max M0 R1, ?_⟩
  have hL0 : 0 < ∑ s, Real.exp (pr0 s - M0) :=
    Finset.sum_pos (fun s _ => Real.exp_pos _) ⟨⟨0, hn⟩, Finset.mem_univ _⟩
  have hS1 : 0 ≤ ∑ s, Real.exp (pr1 s - max M0 R1) := Finset.sum_nonneg fun s _ => (Real.exp_pos _).le
  have hpos : 0 < Real.exp (M0 - max M0 R1) * (∑ s, Real.exp (pr0 s - M0)) + ∑ s, Real.exp (pr1 s - max M0 R1) := by
    have := mul_pos (Real.exp_pos (M0 - max M0 R1)) hL0
    linarith
  unfold onePass
  rw [hm0, newSum_first p0 pr0 hp0 hM0, newAcc_first p0 f0 pr0 fr0 hp0 hf0 hM0,
    newSum_coe M0 _ p1 pr1 hp1 hm1, newAcc_coe M0 _ p1 f1 pr1 fr1 hp1 hf1 hm1, div_coe_coe _ hpos.ne']

/-- The plain form on a real row is the real softmax average, at a real shift. -/
theorem twoPass_coe {N : ℕ} (hN : 0 < N) (p f : Fin N → EReal) (pr fr : Fin N → ℝ) (hp : ∀ s, p s = pr s)
    (hf : ∀ s, f s = fr s) :
    ∃ M : ℝ, twoPass p f = ((∑ s, fr s * (Real.exp (pr s - M) / ∑ s', Real.exp (pr s' - M)) : ℝ) : EReal) := by
  obtain ⟨M, hM⟩ := rowMax_real hN p pr hp
  refine ⟨M, ?_⟩
  have hZ : 0 < ∑ s', Real.exp (pr s' - M) :=
    Finset.sum_pos (fun s _ => Real.exp_pos _) ⟨⟨0, hN⟩, Finset.mem_univ _⟩
  unfold twoPass
  rw [← coe_sum, max_eq_right (bot_le : (⊥ : EReal) ≤ rowMax p), hM, sum_exp_coe p pr hp M]
  exact Finset.sum_congr rfl fun s _ => by rw [hp s, hf s, exp_sub_coe, div_coe_coe _ hZ.ne', EReal.coe_mul]

/-- THE LAW.  On a row of real scores and real features cut into two halves, the running form over the halves is
    the plain form over the row. -/
theorem onePass_eq_twoPass (hn : 0 < n) (p f : Fin (n + n) → EReal) (hp : ∀ s, ∃ r : ℝ, p s = r)
    (hf : ∀ s, ∃ r : ℝ, f s = r) :
    onePass (fun s => p (Fin.castAdd n s)) (fun s => f (Fin.castAdd n s))
        (fun s => p (Fin.natAdd n s)) (fun s => f (Fin.natAdd n s))
      = twoPass p f := by
  choose pr hpr using hp
  choose fr hfr using hf
  haveI : Nonempty (Fin n) := ⟨⟨0, hn⟩⟩
  obtain ⟨M0, M1, h1⟩ := onePass_coe hn (fun s => p (Fin.castAdd n s)) (fun s => f (Fin.castAdd n s))
    (fun s => p (Fin.natAdd n s)) (fun s => f (Fin.natAdd n s))
    (fun s => pr (Fin.castAdd n s)) (fun s => fr (Fin.castAdd n s))
    (fun s => pr (Fin.natAdd n s)) (fun s => fr (Fin.natAdd n s))
    (fun s => hpr _) (fun s => hfr _) (fun s => hpr _) (fun s => hfr _)
  obtain ⟨M, h2⟩ := twoPass_coe (by omega) p f pr fr hpr hfr
  rw [h1, h2]
  congr 1
  rw [pool_real (fun s => pr (Fin.castAdd n s)) (fun s => fr (Fin.castAdd n s))
    (fun s => pr (Fin.natAdd n s)) (fun s => fr (Fin.natAdd n s)) M0 M1 M]
  simp only [Fin.sum_univ_add]

end Cert.Pooling

end
-- ==== Proof.LibOnlineSoftmaxBlocks.lean ====
/-
  GENERAL LEMMAS — softmax pooling in its running (online) form over ANY number of consecutive blocks of positions,
  against the plain two-pass quotient, on the extended reals.  The companion of the two-block file it imports, whose
  one-step operations `newMax`, `newSum`, `newAcc` and their values on real rows it reuses.

  The running form keeps a shift m, a normaliser l and a weighted sum a, starting from (−∞, 0, 0).  A step over a block
  with scores p and features f moves the shift to m' = max m (max p) and replaces l by e^(m − m')·l + ∑ e^(p − m') and a
  by e^(m − m')·a + ∑ e^(p − m')·f.  On real scores and features, after K ≥ 1 blocks the state is real: the shift is
  some real M, and l, a are the sums over all positions seen so far of e^(p − M) and e^(p − M)·f (`runBlocks_coe`),
  because e^(M − M')·e^(p − M) = e^(p − M') moves every earlier term to the new shift (`rescale_sum`).  The quotient
  a / l therefore is the softmax-weighted average of the features over all positions, written at ANY real shift
  (`runBlocks_div`): a quotient of two sums of e^(p − M)-weights does not depend on M.  That the shifts are maxima is
  never used.  With an infinite score or feature the statement fails: the rescaling moves a factor across a sum.
-/
import Mathlib
import Idealize.ShloMosaic.PureOps.Ideal
import proofs.«137242_j37349035606739_2_alg».proof.Proof.LibOnlineSoftmax

noncomputable section

namespace Cert.Pooling

open Idealize.ShloMosaic Finset

variable {b : ℕ}

/-! ## Over the reals: moving a block of weights to another shift -/

/-- Every term e^(p − M)·f of a double sum, multiplied by e^(M − M'), is the term at shift M'. -/
theorem rescale_sum (K : ℕ) (pr fr : ℕ → Fin b → ℝ) (M M' : ℝ) :
    Real.exp (M - M') * (∑ k ∈ range K, ∑ s, Real.exp (pr k s - M) * fr k s)
      = ∑ k ∈ range K, ∑ s, Real.exp (pr k s - M') * fr k s := by
  rw [Finset.mul_sum]
  refine Finset.sum_congr rfl fun k _ => ?_
  rw [Finset.mul_sum]
  refine Finset.sum_congr rfl fun s _ => ?_
  rw [← mul_assoc, ← Real.exp_add]
  congr 2
  ring

/-- The same for the weights alone. -/
theorem rescale_sum_one (K : ℕ) (pr : ℕ → Fin b → ℝ) (M M' : ℝ) :
    Real.exp (M - M') * (∑ k ∈ range K, ∑ s, Real.exp (pr k s - M))
      = ∑ k ∈ range K, ∑ s, Real.exp (pr k s - M') := by
  rw [Finset.mul_sum]
  refine Finset.sum_congr rfl fun k _ => ?_
  rw [Finset.mul_sum]
  refine Finset.sum_congr rfl fun s _ => ?_
  rw [← Real.exp_add]
  congr 1
  ring

/-- A quotient of a weighted sum by the sum of the weights is the sum of the features times the normalised weights. -/
theorem quot_eq_weighted (K : ℕ) (e fr : ℕ → Fin b → ℝ) (Z : ℝ) :
    (∑ k ∈ range K, ∑ s, e k s * fr k s) / Z = ∑ k ∈ range K, ∑ s, fr k s * (e k s / Z) := by
  rw [Finset.sum_div]
  refine Finset.sum_congr rfl fun k _ => ?_
  rw [Finset.sum_div]
  refine Finset.sum_congr rfl fun s _ => ?_
  rw [mul_comm (e k s) (fr k s), mul_div_assoc]

/-! ## The running form over K blocks -/

/-- The running state (shift, normaliser, weighted sum) after the first K blocks, from (−∞, 0, 0). -/
def runBlocks (p f : ℕ → Fin b → EReal) : ℕ → EReal × EReal × EReal
  | 0 => (⊥, 0, 0)
  | K + 1 => (newMax (runBlocks p f K).1 (p K), newSum (runBlocks p f K).1 (runBlocks p f K).2.1 (p K),
      newAcc (runBlocks p f K).1 (runBlocks p f K).2.2 (p K) (f K))

theorem runBlocks_succ (p f : ℕ → Fin b → EReal) (K : ℕ) :
    runBlocks p f (K + 1) = (newMax (runBlocks p f K).1 (p K), newSum (runBlocks p f K).1 (runBlocks p f K).2.1 (p K),
      newAcc (runBlocks p f K).1 (runBlocks p f K).2.2 (p K) (f K)) := rfl

/-- On real rows, after at least one block the state is real: at some real shift M, the normaliser is the sum of
    e^(p − M) over every position seen and the weighted sum that of e^(p − M)·f. -/
theorem runBlocks_coe (hb : 0 < b) (p f : ℕ → Fin b → EReal) (pr fr : ℕ → Fin b → ℝ)
    (hp : ∀ k s, p k s = pr k s) (hf : ∀ k s, f k s = fr k s) (K : ℕ) :
    ∃ M : ℝ, runBlocks p f (K + 1)
      = ((M : EReal), ((∑ k ∈ range (K + 1), ∑ s, Real.exp (pr k s - M) : ℝ) : EReal),
          ((∑ k ∈ range (K + 1), ∑ s, Real.exp (pr k s - M) * fr k s : ℝ) : EReal)) := by
  induction K with
  | zero =>
    obtain ⟨M0, hM0⟩ := rowMax_real hb (p 0) (pr 0) (hp 0)
    refine ⟨M0, ?_⟩
    have h1 : newMax ⊥ (p 0) = (M0 : EReal) := by
      unfold newMax; rw [max_eq_right (bot_le : (⊥ : EReal) ≤ rowMax (p 0)), hM0]
    rw [runBlocks_succ]
    simp only [runBlocks, zero_add, Finset.sum_range_one]
    rw [h1, newSum_first (p 0) (pr 0) (hp 0) hM0, newAcc_first (p 0) (f 0) (pr 0) (fr 0) (hp 0) (hf 0) hM0]
  | succ K ih =>
    obtain ⟨M, hM⟩ := ih
    obtain ⟨R, hR⟩ := rowMax_real hb (p (K + 1)) (pr (K + 1)) (hp (K + 1))
    have hm : newMax (M : EReal) (p (K + 1)) = ((max M R : ℝ) : EReal) := by
      unfold newMax; rw [hR]; exact (EReal.coe_strictMono.monotone.map_max).symm
    refine ⟨max M R, ?_⟩
    rw [runBlocks_succ p f (K + 1), hM]
    dsimp only
    rw [hm, newSum_coe M _ (p (K + 1)) (pr (K + 1)) (hp (K + 1)) hm,
      newAcc_coe M _ (p (K + 1)) (f (K + 1)) (pr (K + 1)) (fr (K + 1)) (hp (K + 1)) (hf (K + 1)) hm,
      Finset.sum_range_succ (fun k => ∑ s, Real.exp (pr k s - max M R)) (K + 1),
      Finset.sum_range_succ (fun k => ∑ s, Real.exp (pr k s - max M R) * fr k s) (K + 1),
      ← rescale_sum_one (K + 1) pr M (max M R), ← rescale_sum (K + 1) pr fr M (max M R)]

/-- THE LAW, for any number of blocks.  On real rows the running form's final quotient (weighted sum over normaliser)
    is the softmax-weighted quotient over every position of every block, at any real shift M'. -/
theorem runBlocks_div (hb : 0 < b) (p f : ℕ → Fin b → EReal) (pr fr : ℕ → Fin b → ℝ)
    (hp : ∀ k s, p k s = pr k s) (hf : ∀ k s, f k s = fr k s) (K : ℕ) (M' : ℝ) :
    Ideal.div (runBlocks p f (K + 1)).2.2 (runBlocks p f (K + 1)).2.1
      = (((∑ k ∈ range (K + 1), ∑ s, Real.exp (pr k s - M') * fr k s)
          / (∑ k ∈ range (K + 1), ∑ s, Real.exp (pr k s - M')) : ℝ) : EReal) := by
  obtain ⟨M, hM⟩ := runBlocks_coe hb p f pr fr hp hf K
  have hL : 0 < ∑ k ∈ range (K + 1), ∑ s, Real.exp (pr k s - M) :=
    Finset.sum_pos (fun k _ => Finset.sum_pos (fun s _ => Real.exp_pos _) ⟨⟨0, hb⟩, Finset.mem_univ _⟩)
      Finset.nonempty_range_add_one
  rw [hM]
  dsimp only
  rw [div_coe_coe _ hL.ne', ← rescale_sum (K + 1) pr fr M M', ← rescale_sum_one (K + 1) pr M M',
    mul_div_mul_left _ _ (Real.exp_pos _).ne']

end Cert.Pooling

end
-- ==== Proof.Spec.lean ====
/-
  The two arrangements of multi-head attention that the two programs compute, as functions of the argument arrays,
  entry by entry on the extended reals.  Shapes: batch 4, sequence 2048, model width 1024 = 16 heads × 64.

  Both start from three projections  y(b,s,e) = Σ_k x(b,s,k)·W(e,k) + bias(e)  and end with a fourth.  Between them:

  * the reference (`outRef`): scores S(b,h,s,t) = (Σ_j Q(b,s,h·64+j)·K(b,t,h·64+j)) / 8, weights
    e^(S − M) / Σ_t e^(S − M) with M the row's maximum (folded from −∞), and the weighted sum of V over all keys t;
  * the kernel (`outKer`): the query projection taken with the weight and the bias both multiplied by 1/8 beforehand,
    scores without a division, and the keys taken in 8 consecutive blocks of 256 through the running form
    (`Cert.Pooling.runBlocks`: running maximum, normaliser and weighted sum from (−∞, 0, 0)), the weighted sum divided
    by the normaliser at the end.

  This module only states the two functions; that they agree on real arguments is another module's.
-/
import Mathlib
import Idealize.ShloMosaic.PureOps.Ideal
import Idealize.ShloMosaic.Lib.ValueIdx
import proofs.«137242_j37349035606739_2_alg».proof.Proof.LibOnlineSoftmaxBlocks

noncomputable section

namespace Cert.Attn

open Idealize.ShloMosaic Finset Cert.Pooling

/-- The model coordinate of head `h`, lane `j`. -/
def hd (h : Fin 16) (j : Fin 64) : Fin 1024 := ⟨h.val * 64 + j.val, by omega⟩
/-- The key position of block `kv` (taken modulo 8), offset `u`. -/
def keyAt (kv : ℕ) (u : Fin 256) : Fin 2048 := ⟨(kv % 8) * 256 + u.val, by omega⟩

/-- The literal 8 the reference divides the scores by, and the literal 1/8 the kernel scales the query weights by. -/
def c8 : EReal := Ideal.ofBits .f32 0x41000000#32
def c18 : EReal := Ideal.ofBits .f32 0x3E000000#32

abbrev Act := Fin 4 → Fin 2048 → Fin 1024 → EReal
abbrev Wt := Fin 1024 → Fin 1024 → EReal
abbrev Bias := Fin 1024 → EReal

/-- An array of the three argument shapes read as a function of its coordinates. -/
def actOf (a : (⟨3, ![4, 2048, 1024]⟩ : Shape).Idx → EReal) : Act := fun b s k => a (ValueIdx.ix3 b s k)
def wtOf (a : (⟨2, ![1024, 1024]⟩ : Shape).Idx → EReal) : Wt := fun e k => a (ValueIdx.ix2 e k)
def biasOf (a : (⟨1, ![1024]⟩ : Shape).Idx → EReal) : Bias := fun e => a (ValueIdx.ix1 e)

/-- A projection: y(b,s,e) = Σ_k x(b,s,k)·W(e,k) + bias(e). -/
def proj (x : Act) (W : Wt) (bias : Bias) : Act := fun b s e => (∑ k, x b s k * W e k) + bias e

/-- The query projection with weight and bias scaled by 1/8 beforehand. -/
def projScaled (x : Act) (W : Wt) (bias : Bias) : Act := fun b s e => (∑ k, x b s k * (W e k * c18)) + bias e * c18

/-! ## The reference's arrangement -/

/-- Scaled scores of head `h`: (Σ_j Q·K) / 8. -/
def scoreRef (Q K : Act) (b : Fin 4) (h : Fin 16) (s t : Fin 2048) : EReal :=
  Ideal.div (∑ j, Q b s (hd h j) * K b t (hd h j)) c8

/-- The row's shift: the maximum folded from −∞, once more against −∞. -/
def shiftRef (S : Fin 2048 → EReal) : EReal := max ⊥ ((Finset.univ : Finset (Fin 2048)).fold max ⊥ S)

/-- Softmax weights of a row. -/
def weightRef (S : Fin 2048 → EReal) (t : Fin 2048) : EReal :=
  Ideal.div (Ideal.exp (S t - shiftRef S)) (∑ t', Ideal.exp (S t' - shiftRef S))

/-- The attention output before the last projection, at model coordinate h·64+j. -/
def attnRef (Q K Vv : Act) (b : Fin 4) (h : Fin 16) (s : Fin 2048) (j : Fin 64) : EReal :=
  ∑ t, weightRef (scoreRef Q K b h s) t * Vv b t (hd h j)

/-- The reference's result. -/
def outRef (query key value : Act) (Wq : Wt) (bq : Bias) (Wk : Wt) (bk : Bias) (Wv : Wt) (bv : Bias) (Wo : Wt) (bo : Bias) : Act :=
  fun b s e => (∑ d : Fin 1024,
      attnRef (proj query Wq bq) (proj key Wk bk) (proj value Wv bv) b ⟨d.val / 64, by omega⟩ s ⟨d.val % 64, by omega⟩ * Wo e d) + bo e

/-! ## The kernel's arrangement -/

/-- Unscaled scores of head `h` against key block `kv`. -/
def scoreKer (Q K : Act) (b : Fin 4) (h : Fin 16) (s : Fin 2048) (kv : ℕ) (u : Fin 256) : EReal :=
  ∑ j, Q b s (hd h j) * K b (keyAt kv u) (hd h j)

/-- The attention output by the running form over the 8 key blocks: weighted sum over normaliser. -/
def attnKer (Q K Vv : Act) (b : Fin 4) (h : Fin 16) (s : Fin 2048) (j : Fin 64) : EReal :=
  Ideal.div (runBlocks (scoreKer Q K b h s) (fun kv u => Vv b (keyAt kv u) (hd h j)) 8).2.2
    (runBlocks (scoreKer Q K b h s) (fun kv u => Vv b (keyAt kv u) (hd h j)) 8).2.1

/-- The kernel's result. -/
def outKer (query key value : Act) (Wq : Wt) (bq : Bias) (Wk : Wt) (bk : Bias) (Wv : Wt) (bv : Bias) (Wo : Wt) (bo : Bias) : Act :=
  fun b s e => (∑ d : Fin 1024,
      attnKer (projScaled query Wq bq) (proj key Wk bk) (proj value Wv bv) b ⟨d.val / 64, by omega⟩ s ⟨d.val % 64, by omega⟩ * Wo e d) + bo e

end Cert.Attn

end
-- ==== Proof.Layout.lean ====
/-
  The re-layouts between the launches, read at an entry.  Rows of the [8192, 1024] arrays are (batch, position) pairs,
  row b·2048 + s; the 1024 columns are (head, lane) pairs, column h·64 + j; the attention launch sees [64, 2048, 64]
  arrays whose leading index is (batch, head), b·16 + h.  A reshape keeps the row-major position of an entry and a
  transpose permutes its coordinates, so each composite below is a renaming of coordinates.
-/
import Idealize.ShloMosaic.Lib.ValueIdx
import Idealize.ShloMosaic.Lib.ValueLayout
import Idealize.ShloMosaic.Lib.Pipeline.Value
import proofs.«137242_j37349035606739_2_alg».proof.Proof.Spec

noncomputable section

namespace Cert.Layout

open Idealize.ShloMosaic Idealize.ShloMosaic.ValueIdx Cert.Attn

variable {α : Type}

/-- Row of (batch, position). -/
def flat (b : Fin 4) (s : Fin 2048) : Fin 8192 := ⟨b.val * 2048 + s.val, by omega⟩
/-- Leading index of (batch, head). -/
def bhOf (b : Fin 4) (h : Fin 16) : Fin 64 := ⟨b.val * 16 + h.val, by omega⟩

abbrev T3 : Shape := ⟨3, ![4, 2048, 1024]⟩
abbrev T2 : Shape := ⟨2, ![8192, 1024]⟩
abbrev T4a : Shape := ⟨4, ![4, 2048, 16, 64]⟩
abbrev T4b : Shape := ⟨4, ![4, 16, 2048, 64]⟩
abbrev TH : Shape := ⟨3, ![64, 2048, 64]⟩

/-- [4,2048,1024] → [8192,1024]. -/
theorem flatten_apply (x : T3.Idx → α) (hc : T3.ShapeCasts T2) (b : Fin 4) (s : Fin 2048) (k : Fin 1024) :
    shapeCast T2 x hc (ix2 (flat b s) k) = x (ix3 b s k) :=
  shapeCast_apply x hc _ _ (by
    rw [Shape.rowMajor_val_three, Shape.rowMajor_val_two]
    show (b.val * 2048 + s.val) * 1024 + k.val = (b.val * 2048 + s.val) * 1024 + k.val
    rfl)

/-- [8192,1024] → [4,2048,1024]. -/
theorem unflatten_apply (x : T2.Idx → α) (hc : T2.ShapeCasts T3) (b : Fin 4) (s : Fin 2048) (e : Fin 1024) :
    shapeCast T3 x hc (ix3 b s e) = x (ix2 (flat b s) e) :=
  shapeCast_apply x hc _ _ (by
    rw [Shape.rowMajor_val_three, Shape.rowMajor_val_two]
    show (b.val * 2048 + s.val) * 1024 + e.val = (b.val * 2048 + s.val) * 1024 + e.val
    rfl)

/-- Splitting the columns into heads and moving the head axis forward: entry ((b,h), s, j) of the heads array is entry
    (row (b,s), column (h,j)) of the flat one. -/
theorem heads_apply (x : T2.Idx → α) (h1 : T2.ShapeCasts T4a) (h2 : T4a.Transposes [0, 2, 1, 3] T4b) (h3 : T4b.ShapeCasts TH)
    (b : Fin 4) (h : Fin 16) (s : Fin 2048) (j : Fin 64) :
    shapeCast TH (transpose T4b [0, 2, 1, 3] (shapeCast T4a x h1) h2) h3 (ix3 (bhOf b h) s j) = x (ix2 (flat b s) (hd h j)) := by
  refine (shapeCast_apply _ h3 _ (ix4 b h s j) ?_).trans ?_
  · rw [Shape.rowMajor_val_four, Shape.rowMajor_val_three]
    show ((b.val * 16 + h.val) * 2048 + s.val) * 64 + j.val = ((b.val * 16 + h.val) * 2048 + s.val) * 64 + j.val
    rfl
  refine (transpose_apply [0, 2, 1, 3] _ h2 (ix4 b h s j) (ix4 b s h j) ?_).trans ?_
  · intro a
    match a with
    | ⟨0, _⟩ => rfl
    | ⟨1, _⟩ => rfl
    | ⟨2, _⟩ => rfl
    | ⟨3, _⟩ => rfl
  refine shapeCast_apply x h1 _ _ ?_
  rw [Shape.rowMajor_val_two, Shape.rowMajor_val_four]
  show (b.val * 2048 + s.val) * 1024 + (h.val * 64 + j.val) = ((b.val * 2048 + s.val) * 16 + h.val) * 64 + j.val
  ring

/-- The way back: entry (row (b,s), column (h,j)) of the flat array is entry ((b,h), s, j) of the heads array. -/
theorem unheads_apply (x : TH.Idx → α) (g1 : TH.ShapeCasts T4b) (g2 : T4b.Transposes [0, 2, 1, 3] T4a) (g3 : T4a.ShapeCasts T3) (g4 : T3.ShapeCasts T2)
    (b : Fin 4) (s : Fin 2048) (h : Fin 16) (j : Fin 64) :
    shapeCast T2 (shapeCast T3 (transpose T4a [0, 2, 1, 3] (shapeCast T4b x g1) g2) g3) g4 (ix2 (flat b s) (hd h j)) = x (ix3 (bhOf b h) s j) := by
  refine (flatten_apply _ g4 b s (hd h j)).trans ?_
  refine (shapeCast_apply _ g3 _ (ix4 b s h j) ?_).trans ?_
  · rw [Shape.rowMajor_val_four, Shape.rowMajor_val_three]
    show ((b.val * 2048 + s.val) * 16 + h.val) * 64 + j.val = (b.val * 2048 + s.val) * 1024 + (h.val * 64 + j.val)
    ring
  refine (transpose_apply [0, 2, 1, 3] _ g2 (ix4 b s h j) (ix4 b h s j) ?_).trans ?_
  · intro a
    match a with
    | ⟨0, _⟩ => rfl
    | ⟨1, _⟩ => rfl
    | ⟨2, _⟩ => rfl
    | ⟨3, _⟩ => rfl
  refine shapeCast_apply x g1 _ _ ?_
  rw [Shape.rowMajor_val_three, Shape.rowMajor_val_four]
  show ((b.val * 16 + h.val) * 2048 + s.val) * 64 + j.val = ((b.val * 16 + h.val) * 2048 + s.val) * 64 + j.val
  rfl

/-- Every column is a (head, lane) pair. -/
theorem hd_div_mod (d : Fin 1024) : hd ⟨d.val / 64, by omega⟩ ⟨d.val % 64, by omega⟩ = d := by
  apply Fin.ext; show d.val / 64 * 64 + d.val % 64 = d.val; omega

end Cert.Layout

end
-- ==== Proof.KernelIdeal.Chain2.lean ====
/-
  The three projections as the attention launch finds them, and the last launch's weight and bias, entry by entry in
  terms of the argument arrays: each launch leaves row·column + bias of the arrays it finds; a row of the flat
  activations is a (batch, position) pair and a column a (head, lane) pair; the weights reach the launches transposed
  (and, for the queries, multiplied by 1/8 together with the bias).
-/
import proofs.«137242_j37349035606739_2_alg».proof.Proof.KernelIdeal.Chain1
import proofs.«137242_j37349035606739_2_alg».proof.Proof.KernelIdeal.Lin0
import proofs.«137242_j37349035606739_2_alg».proof.Proof.KernelIdeal.Lin1
import proofs.«137242_j37349035606739_2_alg».proof.Proof.KernelIdeal.Lin2
import proofs.«137242_j37349035606739_2_alg».proof.Proof.KernelIdeal.Lin4
import proofs.«137242_j37349035606739_2_alg».proof.Proof.Layout

set_option maxRecDepth 16384

noncomputable section

namespace Cert.KernelIdeal.Fr

open Idealize.ShloMosaic Idealize.ShloMosaic.TcCoe Idealize.SL.Sem Idealize.ShloMosaic.ValueIdx
open Cert.KernelIdeal Cert.KernelIdeal.Gen Cert.Attn Cert.Layout

/-- A weight as a launch finds it — transposed, the change of float format the identity — at an entry. -/
theorem wT_apply (A : FVec Ideal S1024x1024 .f32) (k q : Fin 1024) (i : S1024x1024.Idx) (hi : i = ix2 k q) :
    (truncf (F := Ideal) .bf16 (transpose S1024x1024 [1, 0] A transposes_S1024x1024_S1024x1024_1_0) bitsLt_bf16_f32 : FVec Ideal S1024x1024 .bf16) i
      = A (ix2 q k) := by
  subst hi
  refine (truncf_apply (ψ := .bf16) (transpose S1024x1024 [1, 0] A transposes_S1024x1024_S1024x1024_1_0) bitsLt_bf16_f32 (ix2 k q)).trans ?_
  refine transpose_apply [1, 0] A _ (ix2 k q) (ix2 q k) fun a => ?_
  match a with
  | ⟨0, _⟩ => rfl
  | ⟨1, _⟩ => rfl

variable (m : (ℓ : Loc nD τ sig) → Buf (Elt Ideal) ℓ) (ρ : Dev nD → PrngReg) (c : Dev nD)

/-- The scaled query projection as the attention launch finds it, at head (b,h), position s, lane j. -/
theorem q_at (b : Fin 4) (h : Fin 16) (s : Fin 2048) (j : Fin 64) :
    (W7 (F := Ideal) m ρ c (Proc.devRef .tc main_v17) : FVec Ideal S64x2048x64 .bf16) (ix3 (bhOf b h) s j)
      = projScaled (actOf (m ((c.tc : Thread nD τ).loc main_arg0))) (wtOf (m ((c.tc : Thread nD τ).loc main_arg3))) (biasOf (m ((c.tc : Thread nD τ).loc main_arg4))) b s (hd h j) := by
  refine (congrFun ((W7_v17 m ρ c).trans (W3_v17 m ρ c)) _).trans ?_
  refine (heads_apply _ _ _ _ b h s j).trans ?_
  refine (congrFun ((W2_arr m ρ c 3).trans (final0 (V1 m ρ) c)) _).trans ?_
  unfold Glin0 projScaled actOf wtOf biasOf
  refine congrArg₂ (· + ·) (Finset.sum_congr rfl fun k _ => congrArg₂ (· * ·) ?_ ?_) ?_
  · refine (congrFun (W1_v12 m ρ c) _).trans ?_
    exact flatten_apply _ _ b s k
  · refine (congrFun (W1_v5 m ρ c) _).trans ?_
    exact (wT_apply _ k (hd h j) _ rfl).trans rfl
  · refine (congrFun (W1_v13 m ρ c) _).trans ?_
    exact (shapeCast_a_1a_apply _ _ 0 (hd h j)).trans rfl

/-- The key projection as the attention launch finds it, at head (b,h), position s, lane j. -/
theorem k_at (b : Fin 4) (h : Fin 16) (s : Fin 2048) (j : Fin 64) :
    (W7 (F := Ideal) m ρ c (Proc.devRef .tc main_v23) : FVec Ideal S64x2048x64 .bf16) (ix3 (bhOf b h) s j)
      = proj (actOf (m ((c.tc : Thread nD τ).loc main_arg1))) (wtOf (m ((c.tc : Thread nD τ).loc main_arg5))) (biasOf (m ((c.tc : Thread nD τ).loc main_arg6))) b s (hd h j) := by
  refine (congrFun ((W7_v23 m ρ c).trans (W5_v23 m ρ c)) _).trans ?_
  refine (heads_apply _ _ _ _ b h s j).trans ?_
  refine (congrFun ((W4_arr m ρ c 3).trans (final1 (V3 m ρ) c)) _).trans ?_
  unfold Glin1 proj actOf wtOf biasOf
  refine congrArg₂ (· + ·) (Finset.sum_congr rfl fun k _ => congrArg₂ (· * ·) ?_ ?_) ?_
  · refine (congrFun ((W3_v18 m ρ c).trans (congrArg (fun x => fun i => shapeCast S8192x1024 x shapeCasts_S4x2048x1024_S8192x1024 i) (W2_arg m ρ c main_arg1 (by decide) (by decide)))) _).trans ?_
    exact flatten_apply _ _ b s k
  · refine (congrFun ((W3_v7 m ρ c).trans (W1_v7 m ρ c)) _).trans ?_
    exact (wT_apply _ k (hd h j) _ rfl).trans rfl
  · refine (congrFun ((W3_v19 m ρ c).trans (congrArg (fun x => fun i => shapeCast S1x1024 x shapeCasts_S1024_S1x1024 i) (W2_arg m ρ c main_arg6 (by decide) (by decide)))) _).trans ?_
    exact (shapeCast_a_1a_apply _ _ 0 (hd h j)).trans rfl

/-- The value projection as the attention launch finds it, at head (b,h), position s, lane j. -/
theorem v_at (b : Fin 4) (h : Fin 16) (s : Fin 2048) (j : Fin 64) :
    (W7 (F := Ideal) m ρ c (Proc.devRef .tc main_v29) : FVec Ideal S64x2048x64 .bf16) (ix3 (bhOf b h) s j)
      = proj (actOf (m ((c.tc : Thread nD τ).loc main_arg2))) (wtOf (m ((c.tc : Thread nD τ).loc main_arg7))) (biasOf (m ((c.tc : Thread nD τ).loc main_arg8))) b s (hd h j) := by
  refine (congrFun (W7_v29 m ρ c) _).trans ?_
  refine (heads_apply _ _ _ _ b h s j).trans ?_
  refine (congrFun ((W6_arr m ρ c 3).trans (final2 (V5 m ρ) c)) _).trans ?_
  unfold Glin2 proj actOf wtOf biasOf
  refine congrArg₂ (· + ·) (Finset.sum_congr rfl fun k _ => congrArg₂ (· * ·) ?_ ?_) ?_
  · refine (congrFun ((W5_v24 m ρ c).trans (congrArg (fun x => fun i => shapeCast S8192x1024 x shapeCasts_S4x2048x1024_S8192x1024 i) (W4_arg m ρ c main_arg2 (by decide) (by decide) (by decide) (by decide)))) _).trans ?_
    exact flatten_apply _ _ b s k
  · refine (congrFun ((W5_v9 m ρ c).trans (W1_v9 m ρ c)) _).trans ?_
    exact (wT_apply _ k (hd h j) _ rfl).trans rfl
  · refine (congrFun ((W5_v25 m ρ c).trans (congrArg (fun x => fun i => shapeCast S1x1024 x shapeCasts_S1024_S1x1024 i) (W4_arg m ρ c main_arg8 (by decide) (by decide) (by decide) (by decide)))) _).trans ?_
    exact (shapeCast_a_1a_apply _ _ 0 (hd h j)).trans rfl

/-- The last launch's weight, as it finds it: the output weight transposed. -/
theorem wo_at (d e : Fin 1024) :
    (W9 (F := Ideal) m ρ c (Proc.devRef .tc main_v11) : FVec Ideal S1024x1024 .bf16) (ix2 d e) = wtOf (m ((c.tc : Thread nD τ).loc main_arg9)) e d := by
  refine (congrFun ((W9_v11 m ρ c).trans (W1_v11 m ρ c)) _).trans ?_
  exact (wT_apply _ d e _ rfl).trans rfl

/-- The last launch's bias row. -/
theorem bo_at (e : Fin 1024) :
    (W9 (F := Ideal) m ρ c (Proc.devRef .tc main_v35) : FVec Ideal S1x1024 .f32) (ix2 (0 : Fin 1) e) = biasOf (m ((c.tc : Thread nD τ).loc main_arg10)) e := by
  refine (congrFun ((W9_v35 m ρ c).trans (congrArg (fun x => fun i => shapeCast S1x1024 x shapeCasts_S1024_S1x1024 i)
    (W8_arg m ρ c main_arg10 (by decide) (by decide) (by decide) (by decide) (by decide) (by decide) (by decide) (by decide)))) _).trans ?_
  exact (shapeCast_a_1a_apply _ _ 0 e).trans rfl

end Cert.KernelIdeal.Fr

end
-- ==== Proof.KernelIdeal.FlashPieces.lean ====
/-
  Region 3 (attention in its running form): what each case of the body leaves in the three scratch buffers and in the
  output's buffer, as the body's arithmetic applied to the blocks it loaded and to the scratch it found.

  Every store of the body writes a whole buffer, so a buffer reads back as the payload of its last store, and a load
  after a store reads that store's payload.  At a key block that is not a head's first, with m, l, a the running
  maximum, normaliser and weighted sum found: the maximum becomes the new maximum of m and the block's scores, the
  normaliser the rescaled l plus the block's weights, the weighted sum the rescaled a plus the weights times the values.
  At a head's first key block the same holds with m, l, a the reset values (−∞, 0, 0) the body has just stored.  At a
  head's last key block the output's buffer receives the new weighted sum divided by the new normaliser.
-/
import proofs.«137242_j37349035606739_2_alg».proof.Proof.KernelIdeal.Region3
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The zero offsets of a whole rank-2 and a whole rank-3 rectangle. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## A key block that is neither a head's first nor its last -/

theorem flashB_0 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : ¬cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) :
    sout3_B_0 c i arg2 harg2 arg3 harg3 arg4 harg4 arg5 harg5 arg6 harg6 arg7 harg7 arg8 harg8 hc0 hc2 x0 x1 x2 xs0 xs1 xs2 = k3_pay2 (k3_pay9 x0 x1 xs0) := by
  unfold sout3_B_0
  rw [View.read_writes_eq_canon _ _ _ (scover3_B_0 c i arg2 harg2 arg3 harg3 arg4 harg4 arg5 harg5 arg6 harg6 arg7 harg7 arg8 harg8 hc0 hc2 x0 x1 x2 xs0 xs1 xs2)]
  unfold kernelRun3_B
  dsimp only
  sl_unfold_words
  rw [View.canon_cons_unit_zero (S := S2048x1) hz2]
  simp only [View.readAt_eq_ld, harg2.read_unread, harg3.read_unread, harg4.read_unread, harg6.read_unread, harg7.read_unread, harg8.read_unread, View.ld_unit_zero (S := S1x2048x64) hz3, View.ld_unit_zero (S := S1x256x64) hz3, View.ld_unit_zero (S := S2048x1) hz2, View.ld_unit_zero (S := S2048x64) hz2, View.readCov_unit_zero (S := S2048x1) _ hz2, View.readCov_unit_zero (S := S2048x64) _ hz2]

theorem flashB_1 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : ¬cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) :
    sout3_B_1 c i arg2 harg2 arg3 harg3 arg4 harg4 arg5 harg5 arg6 harg6 arg7 harg7 arg8 harg8 hc0 hc2 x0 x1 x2 xs0 xs1 xs2 = k3_pay12 x0 x1 xs0 xs0 xs1 := by
  unfold sout3_B_1
  rw [View.read_writes_eq_canon _ _ _ (scover3_B_1 c i arg2 harg2 arg3 harg3 arg4 harg4 arg5 harg5 arg6 harg6 arg7 harg7 arg8 harg8 hc0 hc2 x0 x1 x2 xs0 xs1 xs2)]
  unfold kernelRun3_B
  dsimp only
  sl_unfold_words
  rw [View.canon_cons_unit_zero (S := S2048x1) hz2]
  simp only [View.readAt_eq_ld, harg2.read_unread, harg3.read_unread, harg4.read_unread, harg6.read_unread, harg7.read_unread, harg8.read_unread, View.ld_unit_zero (S := S1x2048x64) hz3, View.ld_unit_zero (S := S1x256x64) hz3, View.ld_unit_zero (S := S2048x1) hz2, View.ld_unit_zero (S := S2048x64) hz2, View.readCov_unit_zero (S := S2048x1) _ hz2, View.readCov_unit_zero (S := S2048x64) _ hz2]

theorem flashB_2 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : ¬cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) :
    sout3_B_2 c i arg2 harg2 arg3 harg3 arg4 harg4 arg5 harg5 arg6 harg6 arg7 harg7 arg8 harg8 hc0 hc2 x0 x1 x2 xs0 xs1 xs2 = k3_pay1 (k3_pay7 x2) (k3_pay11 x0 x1 xs0) (k3_pay13 x0 x1 xs0 xs0 xs2) := by
  unfold sout3_B_2
  rw [View.read_writes_eq_canon _ _ _ (scover3_B_2 c i arg2 harg2 arg3 harg3 arg4 harg4 arg5 harg5 arg6 harg6 arg7 harg7 arg8 harg8 hc0 hc2 x0 x1 x2 xs0 xs1 xs2)]
  unfold kernelRun3_B
  dsimp only
  sl_unfold_words
  rw [View.canon_cons_unit_zero (S := S2048x64) hz2]
  simp only [View.readAt_eq_ld, harg2.read_unread, harg3.read_unread, harg4.read_unread, harg6.read_unread, harg7.read_unread, harg8.read_unread, View.ld_unit_zero (S := S1x2048x64) hz3, View.ld_unit_zero (S := S1x256x64) hz3, View.ld_unit_zero (S := S2048x1) hz2, View.ld_unit_zero (S := S2048x64) hz2, View.readCov_unit_zero (S := S2048x1) _ hz2, View.readCov_unit_zero (S := S2048x64) _ hz2]

/-! ## A head's last key block: the same step, then the quotient into the output's buffer -/

theorem flashC_0 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) :
    sout3_C_0 c i arg2 harg2 arg3 harg3 arg4 harg4 arg5 harg5 arg6 harg6 arg7 harg7 arg8 harg8 hc0 hc2 x0 x1 x2 xs0 xs1 xs2 = k3_pay2 (k3_pay9 x0 x1 xs0) := by
  unfold sout3_C_0
  rw [View.read_writes_eq_canon _ _ _ (scover3_C_0 c i arg2 harg2 arg3 harg3 arg4 harg4 arg5 harg5 arg6 harg6 arg7 harg7 arg8 harg8 hc0 hc2 x0 x1 x2 xs0 xs1 xs2)]
  unfold kernelRun3_C
  dsimp only
  sl_unfold_words
  rw [View.canon_cons_unit_zero (S := S2048x1) hz2]
  simp only [View.readAt_eq_ld, harg2.read_unread, harg3.read_unread, harg4.read_unread, harg6.read_unread, harg7.read_unread, harg8.read_unread, View.ld_unit_zero (S := S1x2048x64) hz3, View.ld_unit_zero (S := S1x256x64) hz3, View.ld_unit_zero (S := S2048x1) hz2, View.ld_unit_zero (S := S2048x64) hz2, View.readCov_unit_zero (S := S2048x1) _ hz2, View.readCov_unit_zero (S := S2048x64) _ hz2]

theorem flashC_1 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) :
    sout3_C_1 c i arg2 harg2 arg3 harg3 arg4 harg4 arg5 harg5 arg6 harg6 arg7 harg7 arg8 harg8 hc0 hc2 x0 x1 x2 xs0 xs1 xs2 = k3_pay12 x0 x1 xs0 xs0 xs1 := by
  unfold sout3_C_1
  rw [View.read_writes_eq_canon _ _ _ (scover3_C_1 c i arg2 harg2 arg3 harg3 arg4 harg4 arg5 harg5 arg6 harg6 arg7 harg7 arg8 harg8 hc0 hc2 x0 x1 x2 xs0 xs1 xs2)]
  unfold kernelRun3_C
  dsimp only
  sl_unfold_words
  rw [View.canon_cons_unit_zero (S := S2048x1) hz2]
  simp only [View.readAt_eq_ld, harg2.read_unread, harg3.read_unread, harg4.read_unread, harg6.read_unread, harg7.read_unread, harg8.read_unread, View.ld_unit_zero (S := S1x2048x64) hz3, View.ld_unit_zero (S := S1x256x64) hz3, View.ld_unit_zero (S := S2048x1) hz2, View.ld_unit_zero (S := S2048x64) hz2, View.readCov_unit_zero (S := S2048x1) _ hz2, View.readCov_unit_zero (S := S2048x64) _ hz2]

theorem flashC_2 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) :
    sout3_C_2 c i arg2 harg2 arg3 harg3 arg4 harg4 arg5 harg5 arg6 harg6 arg7 harg7 arg8 harg8 hc0 hc2 x0 x1 x2 xs0 xs1 xs2 = k3_pay1 (k3_pay7 x2) (k3_pay11 x0 x1 xs0) (k3_pay13 x0 x1 xs0 xs0 xs2) := by
  unfold sout3_C_2
  rw [View.read_writes_eq_canon _ _ _ (scover3_C_2 c i arg2 harg2 arg3 harg3 arg4 harg4 arg5 harg5 arg6 harg6 arg7 harg7 arg8 harg8 hc0 hc2 x0 x1 x2 xs0 xs1 xs2)]
  unfold kernelRun3_C
  dsimp only
  sl_unfold_words
  rw [View.canon_cons_unit_zero (S := S2048x64) hz2]
  simp only [View.readAt_eq_ld, harg2.read_unread, harg3.read_unread, harg4.read_unread, harg6.read_unread, harg7.read_unread, harg8.read_unread, View.ld_unit_zero (S := S1x2048x64) hz3, View.ld_unit_zero (S := S1x256x64) hz3, View.ld_unit_zero (S := S2048x1) hz2, View.ld_unit_zero (S := S2048x64) hz2, View.readCov_unit_zero (S := S2048x1) _ hz2, View.readCov_unit_zero (S := S2048x64) _ hz2]

theorem flashC_3 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond3_0 i) (hc2 : cond3_2 i) (x0 : Vec F S1x2048x64 .bf16) (x1 : Vec F S1x256x64 .bf16) (x2 : Vec F S1x256x64 .bf16) (xs0 : Vec F S2048x1 .f32) (xs1 : Vec F S2048x1 .f32) (xs2 : Vec F S2048x64 .f32) :
    out3_C_3 c i arg2 harg2 arg3 harg3 arg4 harg4 arg5 harg5 arg6 harg6 arg7 harg7 arg8 harg8 hc0 hc2 x0 x1 x2 xs0 xs1 xs2 = k3_pay3 (k3_pay1 (k3_pay7 x2) (k3_pay11 x0 x1 xs0) (k3_pay13 x0 x1 xs0 xs0 xs2)) (k3_pay12 x0 x1 xs0 xs0 xs1) := by
  unfold out3_C_3
  rw [View.read_writes_eq_canon _ _ _ (cover3_C_3 c i arg2 harg2 arg3 harg3 arg4 harg4 arg5 harg5 arg6 harg6 arg7 harg7 arg8 harg8 hc0 hc2 x0 x1 x2 xs0 xs1 xs2)]
  unfold kernelRun3_C
  dsimp only
  sl_unfold_words
  rw [View.canon_cons_unit_zero (S := S1x2048x64) hz3]
  simp only [View.readAt_eq_ld, harg2.read_unread, harg3.read_unread, harg4.read_unread, harg6.read_unread, harg7.read_unread, harg8.read_unread, View.ld_unit_zero (S := S1x2048x64) hz3, View.ld_unit_zero (S := S1x256x64) hz3, View.ld_unit_zero (S := S2048x1) hz2, View.ld_unit_zero (S := S2048x64) hz2, View.readCov_unit_zero (S := S2048x1) _ hz2, View.readCov_unit_zero (S := S2048x64) _ hz2]

/-! ## A head's first key block: the step from the reset values -/

theorem flashA_0 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : cond3_0 i) (hc2 : ¬cond3_2 i) (x0 : Vec F S1x2048x64 .bf16) (x1 : Vec F S1x256x64 .bf16) (x2 : Vec F S1x256x64 .bf16) :
    sout3_A_0 c i arg2 harg2 arg3 harg3 arg4 harg4 arg5 harg5 arg6 harg6 arg7 harg7 arg8 harg8 hc0 hc2 x0 x1 x2 = k3_pay2 (k3_pay9 x0 x1 (k3_pay4 (F := F))) := by
  unfold sout3_A_0
  rw [View.read_writes_eq_canon _ _ _ (scover3_A_0 c i arg2 harg2 arg3 harg3 arg4 harg4 arg5 harg5 arg6 harg6 arg7 harg7 arg8 harg8 hc0 hc2 x0 x1 x2)]
  unfold kernelRun3_A
  dsimp only
  sl_unfold_words
  rw [View.canon_cons_unit_zero (S := S2048x1) hz2]
  simp only [View.readAt_eq_ld, harg2.read_unread, harg3.read_unread, harg4.read_unread, harg6.read_unread, harg7.read_unread, harg8.read_unread, View.ld_unit_zero (S := S1x2048x64) hz3, View.ld_unit_zero (S := S1x256x64) hz3, View.ld_unit_zero (S := S2048x1) hz2, View.ld_unit_zero (S := S2048x64) hz2, View.readCov_unit_zero (S := S2048x1) _ hz2, View.readCov_unit_zero (S := S2048x64) _ hz2]

theorem flashA_1 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : cond3_0 i) (hc2 : ¬cond3_2 i) (x0 : Vec F S1x2048x64 .bf16) (x1 : Vec F S1x256x64 .bf16) (x2 : Vec F S1x256x64 .bf16) :
    sout3_A_1 c i arg2 harg2 arg3 harg3 arg4 harg4 arg5 harg5 arg6 harg6 arg7 harg7 arg8 harg8 hc0 hc2 x0 x1 x2 = k3_pay12 x0 x1 (k3_pay4 (F := F)) (k3_pay4 (F := F)) (k3_pay5 (F := F)) := by
  unfold sout3_A_1
  rw [View.read_writes_eq_canon _ _ _ (scover3_A_1 c i arg2 harg2 arg3 harg3 arg4 harg4 arg5 harg5 arg6 harg6 arg7 harg7 arg8 harg8 hc0 hc2 x0 x1 x2)]
  unfold kernelRun3_A
  dsimp only
  sl_unfold_words
  rw [View.canon_cons_unit_zero (S := S2048x1) hz2]
  simp only [View.readAt_eq_ld, harg2.read_unread, harg3.read_unread, harg4.read_unread, harg6.read_unread, harg7.read_unread, harg8.read_unread, View.ld_unit_zero (S := S1x2048x64) hz3, View.ld_unit_zero (S := S1x256x64) hz3, View.ld_unit_zero (S := S2048x1) hz2, View.ld_unit_zero (S := S2048x64) hz2, View.readCov_unit_zero (S := S2048x1) _ hz2, View.readCov_unit_zero (S := S2048x64) _ hz2]

theorem flashA_2 (c : Dev nD) (i : grid3.Coords) (arg2 : Memref sig .tc .vmem S1x2048x64 .bf16) (harg2 : arg2.IsWhole) (arg3 : Memref sig .tc .vmem S1x256x64 .bf16) (harg3 : arg3.IsWhole) (arg4 : Memref sig .tc .vmem S1x256x64 .bf16) (harg4 : arg4.IsWhole) (arg5 : Memref sig .tc .vmem S1x2048x64 .bf16) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : cond3_0 i) (hc2 : ¬cond3_2 i) (x0 : Vec F S1x2048x64 .bf16) (x1 : Vec F S1x256x64 .bf16) (x2 : Vec F S1x256x64 .bf16) :
    sout3_A_2 c i arg2 harg2 arg3 harg3 arg4 harg4 arg5 harg5 arg6 harg6 arg7 harg7 arg8 harg8 hc0 hc2 x0 x1 x2 = k3_pay1 (k3_pay7 x2) (k3_pay11 x0 x1 (k3_pay4 (F := F))) (k3_pay13 x0 x1 (k3_pay4 (F := F)) (k3_pay4 (F := F)) (k3_pay6 (F := F))) := by
  unfold sout3_A_2
  rw [View.read_writes_eq_canon _ _ _ (scover3_A_2 c i arg2 harg2 arg3 harg3 arg4 harg4 arg5 harg5 arg6 harg6 arg7 harg7 arg8 harg8 hc0 hc2 x0 x1 x2)]
  unfold kernelRun3_A
  dsimp only
  sl_unfold_words
  rw [View.canon_cons_unit_zero (S := S2048x64) hz2]
  simp only [View.readAt_eq_ld, harg2.read_unread, harg3.read_unread, harg4.read_unread, harg6.read_unread, harg7.read_unread, harg8.read_unread, View.ld_unit_zero (S := S1x2048x64) hz3, View.ld_unit_zero (S := S1x256x64) hz3, View.ld_unit_zero (S := S2048x1) hz2, View.ld_unit_zero (S := S2048x64) hz2, View.readCov_unit_zero (S := S2048x1) _ hz2, View.readCov_unit_zero (S := S2048x64) _ hz2]

end Cert.KernelIdeal.Fr

end
-- ==== Proof.KernelIdeal.FlashStep.lean ====
/-
  Region 3 (attention in its running form): the body's arithmetic read at one entry, at the ideal values.

  On the extended reals every format change is the identity and every elementwise operation is the operation on
  entries, so what is left of each payload at a query row s (and lane j) is:
    * the scores of the block,  p u = Σ_j' q(s,j')·k(u,j')  (a matmul against the transposed key block);
    * the new maximum  max m (max_u p u)  with the row maximum folded from −∞;
    * the rescaling factor e^(m − m') and the block's weights e^(p u − m');
    * the new normaliser  e^(m − m')·l + Σ_u e^(p u − m');
    * the new weighted sum  e^(m − m')·a + Σ_u e^(p u − m')·v(u,j)  (a matmul of the weights against the values);
    * at the end the quotient a / l.
  These are the one-step operations of the running form of softmax pooling on row s.
-/
import proofs.«137242_j37349035606739_2_alg».proof.Proof.Gen.KernelIdeal.Skeleton
import proofs.«137242_j37349035606739_2_alg».proof.Proof.LibOnlineSoftmax
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Fr

open Idealize.ShloMosaic Idealize.ShloMosaic.ValueIdx Finset
open Cert.KernelIdeal Cert.KernelIdeal.Gen Cert.Pooling

/-! ## Two layout operations on a column -/

/-- A length-a vector cast to a column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along its rows to [a, b] reads, at (p, c), the column at (p, 0). -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An exponential at an index is the exponential of the element. -/
theorem exp_apply {s : Shape} {φ : FTy} (a : FVec Ideal s φ) (i : s.Idx) : exp a i = Ideal.exp (a i) := rfl

/-! ## The two row reductions -/

/-- The f32 pattern of −∞ is −∞. -/
theorem ofBits_neg_inf_f32 : Ideal.ofBits .f32 0xFF800000#32 = ⊥ := by simp [Ideal.ofBits, Ideal.ieee]

/-- Row s of a [2048, 256] array, as a function of the column. -/
def rowOf (src : FVec Ideal S2048x256 .f32) (s : Fin 2048) : Fin 256 → EReal := fun u => src (ix2 s u)

/-- The index the reduction inserts column u into row s at is (s, u). -/
theorem lift_row (s : Fin 2048) (u : Fin 256) : reduces_S2048x256_S2048.lift (ix1 s) u = ix2 s u :=
  funext fun ax => Fin.ext (match ax with | ⟨0, _⟩ => rfl | ⟨1, _⟩ => rfl)

/-- The maximum over a row of a [2048, 256] array, from −∞, is the row's maximum folded from −∞. -/
theorem rowMax_red (src : FVec Ideal S2048x256 .f32) (hφ : FKind.Formats FTy.f32) (hacc : (0xFF800000#32 : BitVec 32) = 0xFF800000#32) (s : Fin 2048) :
    multiReduction .maximumf [1] S2048 src 0xFF800000#32 reduces_S2048x256_S2048 hφ hacc (ix1 s) = rowMax (rowOf src s) := by
  refine (Ideal.multiReduction_maximumf_single src 0xFF800000#32 reduces_S2048x256_S2048 hφ hacc (ix1 s)).trans ?_
  have e : (src ∘ reduces_S2048x256_S2048.lift (ix1 s) : Fin 256 → EReal) = rowOf src s := funext fun u => congrArg src (lift_row s u)
  have hb : (FloatOps.ofBits (F := Ideal) .f32 0xFF800000#32 : EReal) = ⊥ := ofBits_neg_inf_f32
  exact (congrArg₂ (fun (b : EReal) (f : Fin 256 → EReal) => (Finset.univ : Finset (Fin 256)).fold max b f) hb e)

/-- The sum over a row of a [2048, 256] array, from 0. -/
theorem rowSum_red (src : FVec Ideal S2048x256 .f32) (hφ : FKind.Formats FTy.f32) (hacc : (0x00000000#32 : BitVec 32) = 0x00000000#32) (s : Fin 2048) :
    multiReduction .add [1] S2048 src 0x00000000#32 reduces_S2048x256_S2048 hφ hacc (ix1 s) = ∑ u : Fin 256, rowOf src s u := by
  refine (Ideal.multiReduction_add_single src 0x00000000#32 reduces_S2048x256_S2048 hφ hacc (ix1 s)).trans ?_
  exact Finset.sum_congr rfl fun (u : Fin 256) _ => congrArg src (lift_row s u)

/-! ## The two matmuls -/

/-- The scores: row s of the queries against row u of the key block. -/
theorem pay8_apply (x0 : FVec Ideal S1x2048x64 .bf16) (x1 : FVec Ideal S1x256x64 .bf16) (s : Fin 2048) (u : Fin 256) :
    k3_pay8 (F := Ideal) x0 x1 (ix2 s u) = ∑ j' : Fin 64, x0 (ix3 (0 : Fin 1) s j') * x1 (ix3 (0 : Fin 1) u j') := by
  unfold k3_pay8
  refine (Ideal.matmul_constant_zero_apply dot_S2048x64_S64x256_S2048x256_1_0_0_1_n_n none _ _ (ix2 s u)).trans ?_
  rw [← Equiv.sum_comp (contrEquiv1 dot_S2048x64_S64x256_S2048x256_1_0_0_1_n_n 64 rfl rfl).symm]
  refine Finset.sum_congr rfl fun c _ => ?_
  have c2 := contrEquiv1_symm_val dot_S2048x64_S64x256_S2048x256_1_0_0_1_n_n 64 rfl rfl c
  have l2 : dot_S2048x64_S64x256_S2048x256_1_0_0_1_n_n.lhsIdx (ix2 s u) ((contrEquiv1 dot_S2048x64_S64x256_S2048x256_1_0_0_1_n_n 64 rfl rfl).symm c) = ix2 s c := by
    funext ax; apply Fin.ext
    match ax with
    | ⟨0, _⟩ => simp [DotDims.lhsIdx, dot_S2048x64_S64x256_S2048x256_1_0_0_1_n_n]; rfl
    | ⟨1, _⟩ => simp [DotDims.lhsIdx, dot_S2048x64_S64x256_S2048x256_1_0_0_1_n_n]; exact c2
  have r2 : dot_S2048x64_S64x256_S2048x256_1_0_0_1_n_n.rhsIdx (ix2 s u) ((contrEquiv1 dot_S2048x64_S64x256_S2048x256_1_0_0_1_n_n 64 rfl rfl).symm c) = ix2 c u := by
    funext ax; apply Fin.ext
    match ax with
    | ⟨0, _⟩ => simp [DotDims.rhsIdx, dot_S2048x64_S64x256_S2048x256_1_0_0_1_n_n]; exact c2
    | ⟨1, _⟩ => simp [DotDims.rhsIdx, dot_S2048x64_S64x256_S2048x256_1_0_0_1_n_n]; rfl
  rw [l2, r2]
  exact congrArg₂ (· * ·) (shapeCast_1ab_ab_apply x0 _ s c)
    ((transpose_ix2_apply _ _ c u).trans (shapeCast_1ab_ab_apply x1 _ u c))

/-! ## The step on one row -/

/-- The block's scores on query row s. -/
def scoreRow (x0 : FVec Ideal S1x2048x64 .bf16) (x1 : FVec Ideal S1x256x64 .bf16) (s : Fin 2048) : Fin 256 → EReal :=
  fun u => ∑ j' : Fin 64, x0 (ix3 (0 : Fin 1) s j') * x1 (ix3 (0 : Fin 1) u j')

theorem rowOf_pay8 (x0 : FVec Ideal S1x2048x64 .bf16) (x1 : FVec Ideal S1x256x64 .bf16) (s : Fin 2048) : rowOf (k3_pay8 (F := Ideal) x0 x1) s = scoreRow x0 x1 s :=
  funext fun u => pay8_apply x0 x1 s u

/-- The new maximum. -/
theorem pay9_apply (x0 : FVec Ideal S1x2048x64 .bf16) (x1 : FVec Ideal S1x256x64 .bf16) (m : FVec Ideal S2048x1 .f32) (s : Fin 2048) (z : Fin 1) :
    k3_pay9 (F := Ideal) x0 x1 m (ix2 s z) = newMax (m (ix2 s z)) (scoreRow x0 x1 s) := by
  unfold k3_pay9
  (try dsimp only)
  refine (maximumf_apply m _ (ix2 s z)).trans ?_
  refine congrArg (fun x : EReal => max (m (ix2 s z)) x) ?_
  refine (shapeCast_a_a1_apply _ _ s z).trans ?_
  refine (rowMax_red _ _ _ s).trans ?_
  exact congrArg rowMax (rowOf_pay8 x0 x1 s)

/-- The rescaling factor e^(m − m'). -/
theorem pay10_apply (x0 : FVec Ideal S1x2048x64 .bf16) (x1 : FVec Ideal S1x256x64 .bf16) (m m2 : FVec Ideal S2048x1 .f32) (s : Fin 2048) (z : Fin 1) :
    k3_pay10 (F := Ideal) x0 x1 m m2 (ix2 s z) = Ideal.exp (m2 (ix2 s z) - newMax (m (ix2 s z)) (scoreRow x0 x1 s)) := by
  unfold k3_pay10
  (try dsimp only)
  refine (exp_apply _ (ix2 s z)).trans ?_
  refine congrArg Ideal.exp ?_
  refine (subf_apply m2 _ (ix2 s z)).trans ?_
  exact congrArg (fun x : EReal => m2 (ix2 s z) - x) (pay9_apply x0 x1 m s z)

/-- The block's weights e^(p u − m'). -/
theorem pay11_apply (x0 : FVec Ideal S1x2048x64 .bf16) (x1 : FVec Ideal S1x256x64 .bf16) (m : FVec Ideal S2048x1 .f32) (s : Fin 2048) (u : Fin 256) :
    k3_pay11 (F := Ideal) x0 x1 m (ix2 s u) = Ideal.exp (scoreRow x0 x1 s u - newMax (m (ix2 s (0 : Fin 1))) (scoreRow x0 x1 s)) := by
  unfold k3_pay11
  (try dsimp only)
  refine (exp_apply _ (ix2 s u)).trans ?_
  refine congrArg Ideal.exp ?_
  refine (subf_apply _ _ (ix2 s u)).trans ?_
  exact congrArg₂ (fun a b : EReal => a - b) (pay8_apply x0 x1 s u)
    ((broadcastTo_a1_ab_apply _ _ s u).trans (pay9_apply x0 x1 m s 0))

/-- The new normaliser. -/
theorem pay12_apply (x0 : FVec Ideal S1x2048x64 .bf16) (x1 : FVec Ideal S1x256x64 .bf16) (m l : FVec Ideal S2048x1 .f32) (s : Fin 2048) :
    k3_pay12 (F := Ideal) x0 x1 m m l (ix2 s (0 : Fin 1)) = newSum (m (ix2 s (0 : Fin 1))) (l (ix2 s (0 : Fin 1))) (scoreRow x0 x1 s) := by
  unfold k3_pay12
  (try dsimp only)
  refine (congrFun (shapeCast_self _ _) (ix2 s (0 : Fin 1))).trans ?_
  refine (addf_apply _ _ (ix2 s (0 : Fin 1))).trans ?_
  unfold newSum
  refine congrArg₂ (fun a b : EReal => a + b) ?_ ?_
  · refine (mulf_apply _ l (ix2 s (0 : Fin 1))).trans ?_
    exact congrArg (fun x : EReal => x * l (ix2 s (0 : Fin 1))) (pay10_apply x0 x1 m m s 0)
  · refine (shapeCast_a_a1_apply _ _ s 0).trans ?_
    refine (rowSum_red _ _ _ s).trans ?_
    exact Finset.sum_congr rfl fun u _ => pay11_apply x0 x1 m s u

/-- The old weighted sum rescaled. -/
theorem pay13_apply (x0 : FVec Ideal S1x2048x64 .bf16) (x1 : FVec Ideal S1x256x64 .bf16) (m : FVec Ideal S2048x1 .f32) (a : FVec Ideal S2048x64 .f32) (s : Fin 2048) (j : Fin 64) :
    k3_pay13 (F := Ideal) x0 x1 m m a (ix2 s j) = Ideal.exp (m (ix2 s (0 : Fin 1)) - newMax (m (ix2 s (0 : Fin 1))) (scoreRow x0 x1 s)) * a (ix2 s j) := by
  unfold k3_pay13
  (try dsimp only)
  refine (mulf_apply _ a (ix2 s j)).trans ?_
  exact congrArg (fun x : EReal => x * a (ix2 s j)) ((broadcastTo_a1_ab_apply _ _ s j).trans (pay10_apply x0 x1 m m s 0))

/-- The value block with its unit axis dropped. -/
theorem pay7_apply (x2 : FVec Ideal S1x256x64 .bf16) (u : Fin 256) (j : Fin 64) :
    k3_pay7 (F := Ideal) x2 (ix2 u j) = x2 (ix3 (0 : Fin 1) u j) := by
  unfold k3_pay7
  exact shapeCast_1ab_ab_apply x2 _ u j

/-- The new weighted sum. -/
theorem pay1_apply (x0 : FVec Ideal S1x2048x64 .bf16) (x1 : FVec Ideal S1x256x64 .bf16) (x2 : FVec Ideal S1x256x64 .bf16) (m : FVec Ideal S2048x1 .f32) (a : FVec Ideal S2048x64 .f32) (s : Fin 2048) (j : Fin 64) :
    k3_pay1 (F := Ideal) (k3_pay7 (F := Ideal) x2) (k3_pay11 (F := Ideal) x0 x1 m) (k3_pay13 (F := Ideal) x0 x1 m m a) (ix2 s j)
      = newAcc (m (ix2 s (0 : Fin 1))) (a (ix2 s j)) (scoreRow x0 x1 s) (fun u => x2 (ix3 (0 : Fin 1) u j)) := by
  unfold k3_pay1
  (try dsimp only)
  refine (congrFun (shapeCast_self _ _) (ix2 s j)).trans ?_
  refine (addf_apply _ _ (ix2 s j)).trans ?_
  unfold newAcc
  refine congrArg₂ (fun a b : EReal => a + b) (pay13_apply x0 x1 m a s j) ?_
  refine (Ideal.matmul_constant_zero_apply dot_S2048x256_S256x64_S2048x64_1_0_0_1_n_n none _ _ (ix2 s j)).trans ?_
  rw [← Equiv.sum_comp (contrEquiv1 dot_S2048x256_S256x64_S2048x64_1_0_0_1_n_n 256 rfl rfl).symm]
  refine Finset.sum_congr rfl fun c _ => ?_
  have c2 := contrEquiv1_symm_val dot_S2048x256_S256x64_S2048x64_1_0_0_1_n_n 256 rfl rfl c
  have l2 : dot_S2048x256_S256x64_S2048x64_1_0_0_1_n_n.lhsIdx (ix2 s j) ((contrEquiv1 dot_S2048x256_S256x64_S2048x64_1_0_0_1_n_n 256 rfl rfl).symm c) = ix2 s c := by
    funext ax; apply Fin.ext
    match ax with
    | ⟨0, _⟩ => simp [DotDims.lhsIdx, dot_S2048x256_S256x64_S2048x64_1_0_0_1_n_n]; rfl
    | ⟨1, _⟩ => simp [DotDims.lhsIdx, dot_S2048x256_S256x64_S2048x64_1_0_0_1_n_n]; exact c2
  have r2 : dot_S2048x256_S256x64_S2048x64_1_0_0_1_n_n.rhsIdx (ix2 s j) ((contrEquiv1 dot_S2048x256_S256x64_S2048x64_1_0_0_1_n_n 256 rfl rfl).symm c) = ix2 c j := by
    funext ax; apply Fin.ext
    match ax with
    | ⟨0, _⟩ => simp [DotDims.rhsIdx, dot_S2048x256_S256x64_S2048x64_1_0_0_1_n_n]; exact c2
    | ⟨1, _⟩ => simp [DotDims.rhsIdx, dot_S2048x256_S256x64_S2048x64_1_0_0_1_n_n]; rfl
  rw [l2, r2]
  exact congrArg₂ (fun a b : EReal => a * b) ((truncf_apply (ψ := .bf16) (k3_pay11 (F := Ideal) x0 x1 m) bitsLt_bf16_f32 (ix2 s c)).trans (pay11_apply x0 x1 m s c)) (pay7_apply x2 c j)

/-- The stored maximum is the new maximum. -/
theorem pay2_apply (v : FVec Ideal S2048x1 .f32) : k3_pay2 (F := Ideal) v = v := by
  unfold k3_pay2; exact shapeCast_self _ _

/-- The quotient into the output's block. -/
theorem pay3_apply (a : FVec Ideal S2048x64 .f32) (l : FVec Ideal S2048x1 .f32) (s : Fin 2048) (j : Fin 64) :
    k3_pay3 (F := Ideal) a l (ix3 (0 : Fin 1) s j) = Ideal.div (a (ix2 s j)) (l (ix2 s (0 : Fin 1))) := by
  unfold k3_pay3
  (try dsimp only)
  refine (shapeCast_ab_1ab_apply _ _ (0 : Fin 1) s j).trans ?_
  refine (truncf_apply (ψ := .bf16) _ bitsLt_bf16_f32 (ix2 s j)).trans ?_
  refine (divf_apply a _ (ix2 s j)).trans ?_
  exact congrArg (fun x : EReal => Ideal.div (a (ix2 s j)) x) (broadcastTo_a1_ab_apply l _ s j)

/-- The reset values: −∞, 0, 0. -/
theorem pay4_apply (i : S2048x1.Idx) : k3_pay4 (F := Ideal) i = ⊥ := by
  unfold k3_pay4; (try dsimp only)
  exact (congrFun (shapeCast_self _ _) i).trans ofBits_neg_inf_f32
theorem pay5_apply (i : S2048x1.Idx) : k3_pay5 (F := Ideal) i = 0 := by
  unfold k3_pay5; (try dsimp only)
  exact (congrFun (shapeCast_self _ _) i).trans Ideal.ofBits_zero_f32
theorem pay6_apply (i : S2048x64.Idx) : k3_pay6 (F := Ideal) i = 0 := by
  unfold k3_pay6; (try dsimp only)
  exact (congrFun (shapeCast_self _ _) i).trans Ideal.ofBits_zero_f32

end Cert.KernelIdeal.Fr

end
-- ==== Proof.KernelIdeal.Flash.lean ====
/-
  Region 3 (attention in its running form): the VALUE of the launch at the ideal values.

  The grid's 512 points are t = head·8 + key block, key block innermost.  Per query row s of a head, the three scratch
  buffers carry the running form of softmax pooling over the head's key blocks: after key block kv they hold the state
  (maximum, normaliser, weighted sum per lane) after kv + 1 steps from (−∞, 0, 0), each step taken with the block's 256
  scores  p u = Σ_j' q(s,j')·k(kv·256+u, j')  and the block's values (the invariant, by induction on the key block:
  a head's first block starts afresh, every other block continues from what the block before left).  At the head's last
  key block the output's block receives weighted sum over normaliser and is written back; those 64 write-backs tile the
  output array, so the array ends holding, at (head, s, j), the running form over the 8 key blocks.
-/
import proofs.«137242_j37349035606739_2_alg».proof.Proof.KernelIdeal.FlashPieces
import proofs.«137242_j37349035606739_2_alg».proof.Proof.KernelIdeal.FlashStep
import proofs.«137242_j37349035606739_2_alg».proof.Proof.Spec

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Pooling

variable (V : (c : Dev nD) → (b : Ref sig .tc) → Buf (Elt Ideal) ((c : Thread nD τ).loc b))

/-! ## Where the windows' blocks sit -/

/-- At point t = head·8 + key block, the queries' and the output's block is the head's, the keys' and values' the
    head's at the key block. -/
theorem idx3_0 : ∀ t : Fin cfg3.N, win3_0.index t 0 = t.val / 8 ∧ win3_0.index t 1 = 0 ∧ win3_0.index t 2 = 0 :=
  (by decide +kernel : ∀ t : Fin grid3.N, win3_0.index t 0 = t.val / 8 ∧ win3_0.index t 1 = 0 ∧ win3_0.index t 2 = 0)
theorem idx3_1 : ∀ t : Fin cfg3.N, win3_1.index t 0 = t.val / 8 ∧ win3_1.index t 1 = t.val % 8 ∧ win3_1.index t 2 = 0 :=
  (by decide +kernel : ∀ t : Fin grid3.N, win3_1.index t 0 = t.val / 8 ∧ win3_1.index t 1 = t.val % 8 ∧ win3_1.index t 2 = 0)
theorem idx3_2 : ∀ t : Fin cfg3.N, win3_2.index t 0 = t.val / 8 ∧ win3_2.index t 1 = t.val % 8 ∧ win3_2.index t 2 = 0 :=
  (by decide +kernel : ∀ t : Fin grid3.N, win3_2.index t 0 = t.val / 8 ∧ win3_2.index t 1 = t.val % 8 ∧ win3_2.index t 2 = 0)
theorem idx3_3 : ∀ t : Fin cfg3.N, win3_3.index t 0 = t.val / 8 ∧ win3_3.index t 1 = 0 ∧ win3_3.index t 2 = 0 :=
  (by decide +kernel : ∀ t : Fin grid3.N, win3_3.index t 0 = t.val / 8 ∧ win3_3.index t 1 = 0 ∧ win3_3.index t 2 = 0)

/-- The queries' block at point t is head t/8 of the queries. -/
theorem iblk3_0_apply (c : Dev nD) (t : Fin cfg3.N) (s : Fin 2048) (j' : Fin 64) (bh : Fin 64) (hb : bh.val = t.val / 8) :
    (iblk3 V c 0 t : FVec Ideal S1x2048x64 .bf16) (ix3 (0 : Fin 1) s j') = V c (Pipeline.arrRef spec3 0) (ix3 bh s j') := by
  have hi := idx3_0 t
  unfold iblk3
  rw [View.read_apply]
  show V c (Pipeline.arrRef spec3 0) _ = V c (Pipeline.arrRef spec3 0) _
  congr 1
  funext a
  apply Fin.ext
  match a with
  | ⟨0, _⟩ => show win3_0.index t 0 * 1 + 1 * 0 = bh.val; rw [hi.1, hb]; omega
  | ⟨1, _⟩ => show win3_0.index t 1 * 2048 + 1 * s.val = s.val; rw [hi.2.1]; omega
  | ⟨2, _⟩ => show win3_0.index t 2 * 64 + 1 * j'.val = j'.val; rw [hi.2.2]; omega

/-- The keys' block at point t is rows (t%8)·256 … of head t/8 of the keys. -/
theorem iblk3_1_apply (c : Dev nD) (t : Fin cfg3.N) (u : Fin 256) (j' : Fin 64) (bh : Fin 64) (r : Fin 2048) (hb : bh.val = t.val / 8) (hr : r.val = t.val % 8 * 256 + u.val) :
    (iblk3 V c 1 t : FVec Ideal S1x256x64 .bf16) (ix3 (0 : Fin 1) u j') = V c (Pipeline.arrRef spec3 1) (ix3 bh r j') := by
  have hi := idx3_1 t
  unfold iblk3
  rw [View.read_apply]
  show V c (Pipeline.arrRef spec3 1) _ = V c (Pipeline.arrRef spec3 1) _
  congr 1
  funext a
  apply Fin.ext
  match a with
  | ⟨0, _⟩ => show win3_1.index t 0 * 1 + 1 * 0 = bh.val; rw [hi.1, hb]; omega
  | ⟨1, _⟩ => show win3_1.index t 1 * 256 + 1 * u.val = r.val; rw [hi.2.1, hr]; omega
  | ⟨2, _⟩ => show win3_1.index t 2 * 64 + 1 * j'.val = j'.val; rw [hi.2.2]; omega

/-- The values' block likewise. -/
theorem iblk3_2_apply (c : Dev nD) (t : Fin cfg3.N) (u : Fin 256) (j' : Fin 64) (bh : Fin 64) (r : Fin 2048) (hb : bh.val = t.val / 8) (hr : r.val = t.val % 8 * 256 + u.val) :
    (iblk3 V c 2 t : FVec Ideal S1x256x64 .bf16) (ix3 (0 : Fin 1) u j') = V c (Pipeline.arrRef spec3 2) (ix3 bh r j') := by
  have hi := idx3_2 t
  unfold iblk3
  rw [View.read_apply]
  show V c (Pipeline.arrRef spec3 2) _ = V c (Pipeline.arrRef spec3 2) _
  congr 1
  funext a
  apply Fin.ext
  match a with
  | ⟨0, _⟩ => show win3_2.index t 0 * 1 + 1 * 0 = bh.val; rw [hi.1, hb]; omega
  | ⟨1, _⟩ => show win3_2.index t 1 * 256 + 1 * u.val = r.val; rw [hi.2.1, hr]; omega
  | ⟨2, _⟩ => show win3_2.index t 2 * 64 + 1 * j'.val = j'.val; rw [hi.2.2]; omega

/-! ## What a point leaves in the scratch, from what the point before left -/

/-- A head's first key block: the step from (−∞, 0, 0). -/
theorem scr_A (c : Dev nD) (t : Fin cfg3.N) (h0 : t.val % 8 = 0) (h2 : ¬t.val % 8 = 7) (s : Fin 2048) (j : Fin 64) :
    (outsAt3 V c t.val t.isLt).2.1 (ix2 s (0 : Fin 1)) = newMax ⊥ (scoreRow (iblk3 V c 0 t) (iblk3 V c 1 t) s)
    ∧ (outsAt3 V c t.val t.isLt).2.2.1 (ix2 s (0 : Fin 1)) = newSum ⊥ 0 (scoreRow (iblk3 V c 0 t) (iblk3 V c 1 t) s)
    ∧ (outsAt3 V c t.val t.isLt).2.2.2 (ix2 s j) = newAcc ⊥ 0 (scoreRow (iblk3 V c 0 t) (iblk3 V c 1 t) s) (fun u => (iblk3 V c 2 t : FVec Ideal S1x256x64 .bf16) (ix3 (0 : Fin 1) u j)) := by
  rw [outsAt3_A V c t h0 h2]
  dsimp only
  refine ⟨?_, ?_, ?_⟩
  · refine (congrFun (flashA_0 (F := Ideal) c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h2 ((hcond3_2 t).mp h)) (iblk3 V c 0 t) (iblk3 V c 1 t) (iblk3 V c 2 t)) (ix2 s (0 : Fin 1))).trans ?_
    rw [pay2_apply, pay9_apply, pay4_apply]
  · refine (congrFun (flashA_1 (F := Ideal) c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h2 ((hcond3_2 t).mp h)) (iblk3 V c 0 t) (iblk3 V c 1 t) (iblk3 V c 2 t)) (ix2 s (0 : Fin 1))).trans ?_
    rw [pay12_apply, pay4_apply, pay5_apply]
  · refine (congrFun (flashA_2 (F := Ideal) c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h2 ((hcond3_2 t).mp h)) (iblk3 V c 0 t) (iblk3 V c 1 t) (iblk3 V c 2 t)) (ix2 s j)).trans ?_
    rw [pay1_apply, pay4_apply, pay6_apply]

/-- A key block that is neither first nor last: the step from what the block before left. -/
theorem scr_B (c : Dev nD) (t : Fin cfg3.N) (h0 : ¬t.val % 8 = 0) (h2 : ¬t.val % 8 = 7) (s : Fin 2048) (j : Fin 64) :
    (outsAt3 V c t.val t.isLt).2.1 (ix2 s (0 : Fin 1)) = newMax ((outsAt3 V c (t.val - 1) (Nat.lt_of_le_of_lt (Nat.sub_le _ _) t.isLt)).2.1 (ix2 s (0 : Fin 1))) (scoreRow (iblk3 V c 0 t) (iblk3 V c 1 t) s)
    ∧ (outsAt3 V c t.val t.isLt).2.2.1 (ix2 s (0 : Fin 1)) = newSum ((outsAt3 V c (t.val - 1) (Nat.lt_of_le_of_lt (Nat.sub_le _ _) t.isLt)).2.1 (ix2 s (0 : Fin 1))) ((outsAt3 V c (t.val - 1) (Nat.lt_of_le_of_lt (Nat.sub_le _ _) t.isLt)).2.2.1 (ix2 s (0 : Fin 1))) (scoreRow (iblk3 V c 0 t) (iblk3 V c 1 t) s)
    ∧ (outsAt3 V c t.val t.isLt).2.2.2 (ix2 s j) = newAcc ((outsAt3 V c (t.val - 1) (Nat.lt_of_le_of_lt (Nat.sub_le _ _) t.isLt)).2.1 (ix2 s (0 : Fin 1))) ((outsAt3 V c (t.val - 1) (Nat.lt_of_le_of_lt (Nat.sub_le _ _) t.isLt)).2.2.2 (ix2 s j)) (scoreRow (iblk3 V c 0 t) (iblk3 V c 1 t) s) (fun u => (iblk3 V c 2 t : FVec Ideal S1x256x64 .bf16) (ix3 (0 : Fin 1) u j)) := by
  rw [outsAt3_B V c t h0 h2]
  dsimp only
  refine ⟨?_, ?_, ?_⟩
  · refine (congrFun (flashB_0 (F := Ideal) c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h2 ((hcond3_2 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) (ix2 s (0 : Fin 1))).trans ?_
    rw [pay2_apply, pay9_apply]
  · refine (congrFun (flashB_1 (F := Ideal) c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h2 ((hcond3_2 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) (ix2 s (0 : Fin 1))).trans ?_
    rw [pay12_apply]
  · refine (congrFun (flashB_2 (F := Ideal) c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h2 ((hcond3_2 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) (ix2 s j)).trans ?_
    rw [pay1_apply]

/-- A head's last key block: the same step, and the output's block receives the quotient. -/
theorem scr_C (c : Dev nD) (t : Fin cfg3.N) (h0 : ¬t.val % 8 = 0) (h2 : t.val % 8 = 7) (s : Fin 2048) (j : Fin 64) :
    (outsAt3 V c t.val t.isLt).2.1 (ix2 s (0 : Fin 1)) = newMax ((outsAt3 V c (t.val - 1) (Nat.lt_of_le_of_lt (Nat.sub_le _ _) t.isLt)).2.1 (ix2 s (0 : Fin 1))) (scoreRow (iblk3 V c 0 t) (iblk3 V c 1 t) s)
    ∧ (outsAt3 V c t.val t.isLt).2.2.1 (ix2 s (0 : Fin 1)) = newSum ((outsAt3 V c (t.val - 1) (Nat.lt_of_le_of_lt (Nat.sub_le _ _) t.isLt)).2.1 (ix2 s (0 : Fin 1))) ((outsAt3 V c (t.val - 1) (Nat.lt_of_le_of_lt (Nat.sub_le _ _) t.isLt)).2.2.1 (ix2 s (0 : Fin 1))) (scoreRow (iblk3 V c 0 t) (iblk3 V c 1 t) s)
    ∧ (outsAt3 V c t.val t.isLt).2.2.2 (ix2 s j) = newAcc ((outsAt3 V c (t.val - 1) (Nat.lt_of_le_of_lt (Nat.sub_le _ _) t.isLt)).2.1 (ix2 s (0 : Fin 1))) ((outsAt3 V c (t.val - 1) (Nat.lt_of_le_of_lt (Nat.sub_le _ _) t.isLt)).2.2.2 (ix2 s j)) (scoreRow (iblk3 V c 0 t) (iblk3 V c 1 t) s) (fun u => (iblk3 V c 2 t : FVec Ideal S1x256x64 .bf16) (ix3 (0 : Fin 1) u j))
    ∧ (outsAt3 V c t.val t.isLt).1 (ix3 (0 : Fin 1) s j)
        = Ideal.div (newAcc ((outsAt3 V c (t.val - 1) (Nat.lt_of_le_of_lt (Nat.sub_le _ _) t.isLt)).2.1 (ix2 s (0 : Fin 1))) ((outsAt3 V c (t.val - 1) (Nat.lt_of_le_of_lt (Nat.sub_le _ _) t.isLt)).2.2.2 (ix2 s j)) (scoreRow (iblk3 V c 0 t) (iblk3 V c 1 t) s) (fun u => (iblk3 V c 2 t : FVec Ideal S1x256x64 .bf16) (ix3 (0 : Fin 1) u j)))
            (newSum ((outsAt3 V c (t.val - 1) (Nat.lt_of_le_of_lt (Nat.sub_le _ _) t.isLt)).2.1 (ix2 s (0 : Fin 1))) ((outsAt3 V c (t.val - 1) (Nat.lt_of_le_of_lt (Nat.sub_le _ _) t.isLt)).2.2.1 (ix2 s (0 : Fin 1))) (scoreRow (iblk3 V c 0 t) (iblk3 V c 1 t) s)) := by
  rw [outsAt3_C V c t h0 h2]
  dsimp only
  refine ⟨?_, ?_, ?_, ?_⟩
  · refine (congrFun (flashC_0 (F := Ideal) c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_2 t).mpr h2) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) (ix2 s (0 : Fin 1))).trans ?_
    rw [pay2_apply, pay9_apply]
  · refine (congrFun (flashC_1 (F := Ideal) c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_2 t).mpr h2) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) (ix2 s (0 : Fin 1))).trans ?_
    rw [pay12_apply]
  · refine (congrFun (flashC_2 (F := Ideal) c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_2 t).mpr h2) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) (ix2 s j)).trans ?_
    rw [pay1_apply]
  · refine (congrFun (flashC_3 (F := Ideal) c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_2 t).mpr h2) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) (ix3 (0 : Fin 1) s j)).trans ?_
    rw [pay3_apply, pay1_apply, pay12_apply]

/-! ## The running form over a head's key blocks -/

/-- The scores of query row s of head bh against key block kv, and lane j of that block's values. -/
def scoreP (c : Dev nD) (bh : Fin 64) (s : Fin 2048) : ℕ → Fin 256 → EReal := fun kv u =>
  ∑ j' : Fin 64, @HMul.hMul EReal EReal EReal _ (V c (Pipeline.arrRef spec3 0) (ix3 bh s j')) (V c (Pipeline.arrRef spec3 1) (ix3 bh (Cert.Attn.keyAt kv u) j'))
def valF (c : Dev nD) (bh : Fin 64) (j : Fin 64) : ℕ → Fin 256 → EReal := fun kv u =>
  V c (Pipeline.arrRef spec3 2) (ix3 bh (Cert.Attn.keyAt kv u) j)

theorem N3 : cfg3.N = 512 := N_3

/-- At point bh·8 + kv the block's scores and values are those of key block kv of head bh. -/
theorem scoreRow_iblk (c : Dev nD) (t : Fin cfg3.N) (bh : Fin 64) (kv : ℕ) (hkv : kv < 8) (ht : t.val = bh.val * 8 + kv) (s : Fin 2048) :
    scoreRow (iblk3 V c 0 t) (iblk3 V c 1 t) s = scoreP V c bh s kv := by
  funext u
  unfold scoreRow scoreP
  refine Finset.sum_congr rfl fun j' _ => ?_
  rw [iblk3_0_apply V c t s j' bh (by omega),
    iblk3_1_apply V c t u j' bh (Cert.Attn.keyAt kv u) (by omega) (by show kv % 8 * 256 + u.val = _; omega)]
theorem val_iblk (c : Dev nD) (t : Fin cfg3.N) (bh : Fin 64) (kv : ℕ) (hkv : kv < 8) (ht : t.val = bh.val * 8 + kv) (j : Fin 64) :
    (fun u => (iblk3 V c 2 t : FVec Ideal S1x256x64 .bf16) (ix3 (0 : Fin 1) u j)) = valF V c bh j kv := by
  funext u
  unfold valF
  rw [iblk3_2_apply V c t u j bh (Cert.Attn.keyAt kv u) (by omega) (by show kv % 8 * 256 + u.val = _; omega)]

theorem outsAt3_congr (c : Dev nD) {n n' : ℕ} (e : n = n') (h : n < cfg3.N) (h' : n' < cfg3.N) :
    outsAt3 V c n h = outsAt3 V c n' h' := by subst e; rfl

/-- THE INVARIANT.  After key block kv of head bh, row s of the running maximum and of the normaliser and entry (s, j)
    of the running weighted sum are the running form's state after kv + 1 blocks. -/
theorem inv3 (c : Dev nD) (bh : Fin 64) (s : Fin 2048) (j : Fin 64) : ∀ (kv : ℕ) (hkv : kv < 8) (hn : bh.val * 8 + kv < cfg3.N),
    (outsAt3 V c (bh.val * 8 + kv) hn).2.1 (ix2 s (0 : Fin 1)) = (runBlocks (scoreP V c bh s) (valF V c bh j) (kv + 1)).1
    ∧ (outsAt3 V c (bh.val * 8 + kv) hn).2.2.1 (ix2 s (0 : Fin 1)) = (runBlocks (scoreP V c bh s) (valF V c bh j) (kv + 1)).2.1
    ∧ (outsAt3 V c (bh.val * 8 + kv) hn).2.2.2 (ix2 s j) = (runBlocks (scoreP V c bh s) (valF V c bh j) (kv + 1)).2.2
  | 0, hkv, hn => by
    have h := scr_A V c ⟨bh.val * 8 + 0, hn⟩ (by dsimp only; omega) (by dsimp only; omega) s j
    rw [scoreRow_iblk V c ⟨bh.val * 8 + 0, hn⟩ bh 0 hkv rfl s, val_iblk V c ⟨bh.val * 8 + 0, hn⟩ bh 0 hkv rfl j] at h
    rw [runBlocks_succ]
    exact h
  | kv + 1, hkv, hn => by
    have hn' : bh.val * 8 + kv < cfg3.N := by omega
    have ih := inv3 c bh s j kv (by omega) hn'
    have e := outsAt3_congr V c (show (⟨bh.val * 8 + (kv + 1), hn⟩ : Fin cfg3.N).val - 1 = bh.val * 8 + kv by dsimp only; omega)
      (Nat.lt_of_le_of_lt (Nat.sub_le _ _) (⟨bh.val * 8 + (kv + 1), hn⟩ : Fin cfg3.N).isLt) hn'
    rw [runBlocks_succ (scoreP V c bh s) (valF V c bh j) (kv + 1), ← ih.1, ← ih.2.1, ← ih.2.2]
    by_cases h7 : (bh.val * 8 + (kv + 1)) % 8 = 7
    · have h := scr_C V c ⟨bh.val * 8 + (kv + 1), hn⟩ (by dsimp only; omega) h7 s j
      rw [e, scoreRow_iblk V c ⟨bh.val * 8 + (kv + 1), hn⟩ bh (kv + 1) hkv rfl s, val_iblk V c ⟨bh.val * 8 + (kv + 1), hn⟩ bh (kv + 1) hkv rfl j] at h
      exact ⟨h.1, h.2.1, h.2.2.1⟩
    · have h := scr_B V c ⟨bh.val * 8 + (kv + 1), hn⟩ (by dsimp only; omega) h7 s j
      rw [e, scoreRow_iblk V c ⟨bh.val * 8 + (kv + 1), hn⟩ bh (kv + 1) hkv rfl s, val_iblk V c ⟨bh.val * 8 + (kv + 1), hn⟩ bh (kv + 1) hkv rfl j] at h
      exact h

/-- At a head's last key block the output's block receives the running form's weighted sum over its normaliser. -/
theorem out_last (c : Dev nD) (bh : Fin 64) (s : Fin 2048) (j : Fin 64) (hn : bh.val * 8 + 7 < cfg3.N) :
    (outsAt3 V c (bh.val * 8 + 7) hn).1 (ix3 (0 : Fin 1) s j)
      = Ideal.div (runBlocks (scoreP V c bh s) (valF V c bh j) 8).2.2 (runBlocks (scoreP V c bh s) (valF V c bh j) 8).2.1 := by
  have hn' : bh.val * 8 + 6 < cfg3.N := by omega
  have ih := inv3 V c bh s j 6 (by omega) hn'
  have e := outsAt3_congr V c (show (⟨bh.val * 8 + 7, hn⟩ : Fin cfg3.N).val - 1 = bh.val * 8 + 6 by dsimp only; omega)
    (Nat.lt_of_le_of_lt (Nat.sub_le _ _) (⟨bh.val * 8 + 7, hn⟩ : Fin cfg3.N).isLt) hn'
  have h := (scr_C V c ⟨bh.val * 8 + 7, hn⟩ (by dsimp only; omega) (by dsimp only; omega) s j).2.2.2
  rw [e, scoreRow_iblk V c ⟨bh.val * 8 + 7, hn⟩ bh 7 (by omega) rfl s, val_iblk V c ⟨bh.val * 8 + 7, hn⟩ bh 7 (by omega) rfl j, ih.1, ih.2.1, ih.2.2] at h
  rw [runBlocks_succ (scoreP V c bh s) (valF V c bh j) 7]
  exact h

/-! ## The output array -/

theorem xsz3_3 : ∀ t : Fin cfg3.N, win3_3.xsize (grid3.coords t) 0 = 1 ∧ win3_3.xsize (grid3.coords t) 1 = 2048 ∧ win3_3.xsize (grid3.coords t) 2 = 64 :=
  (by decide +kernel : ∀ t : Fin grid3.N, win3_3.xsize (grid3.coords t) 0 = 1 ∧ win3_3.xsize (grid3.coords t) 1 = 2048 ∧ win3_3.xsize (grid3.coords t) 2 = 64)

/-- What the output array ends holding: at (bh, s, j) the running form over the 8 key blocks of head bh on query row s,
    weighted sum of lane j over normaliser. -/
def G3 (c : Dev nD) : Buf (Elt Ideal) ((cfg3.win 3).arr.view.loc (c.tc : Thread nD τ)) := fun i =>
  Ideal.div (runBlocks (scoreP V c (i 0) (i 1)) (valF V c (i 0) (i 2)) 8).2.2 (runBlocks (scoreP V c (i 0) (i 1)) (valF V c (i 0) (i 2)) 8).2.1

/-- The write-back at a head's last key block writes the head's block of it. -/
theorem flushed_eq3 (c : Dev nD) (t : Fin cfg3.N) (hf : (cfg3.win 3).flush t = true) :
    (dat3 V c).flushed 3 t = ((cfg3.win 3).blk t).view.read (Elt Ideal) (G3 V c) := by
  have h7 : t.val % 8 = 7 := (flush3_3 t).mp hf
  have hN := N3
  have hi := idx3_3 t
  have hlt := t.isLt
  have hbh : t.val / 8 < 64 := by omega
  funext y
  obtain ⟨z, s, j, rfl⟩ : ∃ (z : Fin 1) (s : Fin 2048) (j : Fin 64), y = ix3 z s j := ⟨y 0, y 1, y 2, eq_ix3 y⟩
  obtain rfl : z = 0 := Subsingleton.elim _ _
  rw [View.read_apply]
  show (dat3 V c).after 3 t (ix3 (0 : Fin 1) s j) = G3 V c _
  rw [after3_3, outsAt3_congr V c (show t.val = (⟨t.val / 8, hbh⟩ : Fin 64).val * 8 + 7 by dsimp only; omega) t.isLt (by dsimp only; omega),
    out_last V c ⟨t.val / 8, hbh⟩ s j (by dsimp only; omega)]
  show G3 V c (ix3 (⟨t.val / 8, hbh⟩ : Fin 64) s j) = G3 V c _
  congr 1
  funext a
  apply Fin.ext
  match a with
  | ⟨0, _⟩ => show t.val / 8 = win3_3.index t 0 * 1 + 1 * 0; rw [hi.1]; omega
  | ⟨1, _⟩ => show s.val = win3_3.index t 1 * 2048 + 1 * s.val; rw [hi.2.1]; omega
  | ⟨2, _⟩ => show j.val = win3_3.index t 2 * 64 + 1 * j.val; rw [hi.2.2]; omega

/-- Every entry of the output array is in the block of its head's last point. -/
theorem cover3 (c : Dev nD) (i : ((cfg3.win 3).arr.view.loc (c.tc : Thread nD τ)).2.ty.Idx) :
    ∃ t : Fin cfg3.N, (cfg3.win 3).flush t = true ∧ i ∈ ((cfg3.win 3).blk t).view.set := by
  have hN := N3
  have h0 : (i 0 : Nat) < 64 := (i 0).isLt
  have h1 : (i 1 : Nat) < 2048 := (i 1).isLt
  have h2 : (i 2 : Nat) < 64 := (i 2).isLt
  have hlt : (i 0 : Nat) * 8 + 7 < cfg3.N := by omega
  refine ⟨⟨(i 0 : Nat) * 8 + 7, hlt⟩, (flush3_3 _).mpr (by dsimp only; omega), ?_⟩
  have hi := idx3_3 ⟨(i 0 : Nat) * 8 + 7, hlt⟩
  have hx := xsz3_3 ⟨(i 0 : Nat) * 8 + 7, hlt⟩
  show i ∈ ((View.whole main_v30).slice (win3_3.rect ⟨(i 0 : Nat) * 8 + 7, hlt⟩)).set
  rw [View.set_slice_whole, Rect.mem_set_unit]
  intro a
  match a with
  | ⟨0, _⟩ =>
    show win3_3.index ⟨(i 0 : Nat) * 8 + 7, hlt⟩ 0 * 1 ≤ (i 0 : Nat) ∧ (i 0 : Nat) < win3_3.index ⟨(i 0 : Nat) * 8 + 7, hlt⟩ 0 * 1 + win3_3.xsize (grid3.coords ⟨(i 0 : Nat) * 8 + 7, hlt⟩) 0
    rw [hi.1, hx.1]; dsimp only; omega
  | ⟨1, _⟩ =>
    show win3_3.index ⟨(i 0 : Nat) * 8 + 7, hlt⟩ 1 * 2048 ≤ (i 1 : Nat) ∧ (i 1 : Nat) < win3_3.index ⟨(i 0 : Nat) * 8 + 7, hlt⟩ 1 * 2048 + win3_3.xsize (grid3.coords ⟨(i 0 : Nat) * 8 + 7, hlt⟩) 1
    rw [hi.2.1, hx.2.1]; omega
  | ⟨2, _⟩ =>
    show win3_3.index ⟨(i 0 : Nat) * 8 + 7, hlt⟩ 2 * 64 ≤ (i 2 : Nat) ∧ (i 2 : Nat) < win3_3.index ⟨(i 0 : Nat) * 8 + 7, hlt⟩ 2 * 64 + win3_3.xsize (grid3.coords ⟨(i 0 : Nat) * 8 + 7, hlt⟩) 2
    rw [hi.2.2, hx.2.2]; omega

/-- THE VALUE of the attention launch: the output array at head bh, query row s, lane j is the running form of softmax
    pooling over the head's 8 key blocks of 256 keys — scores Σ_j' q(s,j')·k(t,j'), features v(t,j) — weighted sum over
    normaliser. -/
theorem flash_at (V : (c : Dev nD) → (b : Ref sig .tc) → Buf (Elt Ideal) ((c : Thread nD τ).loc b)) (c : Dev nD) (bh : Fin 64) (s : Fin 2048) (j : Fin 64) :
    (dat3 (F := Ideal) V c).arrAt 3 cfg3.N (ValueIdx.ix3 bh s j)
      = Ideal.div
          (Cert.Pooling.runBlocks (fun kv u => ∑ j' : Fin 64, @HMul.hMul EReal EReal EReal _ (V c (Pipeline.arrRef spec3 0) (ValueIdx.ix3 bh s j')) (V c (Pipeline.arrRef spec3 1) (ValueIdx.ix3 bh (Cert.Attn.keyAt kv u) j')))
            (fun kv u => V c (Pipeline.arrRef spec3 2) (ValueIdx.ix3 bh (Cert.Attn.keyAt kv u) j)) 8).2.2
          (Cert.Pooling.runBlocks (fun kv u => ∑ j' : Fin 64, @HMul.hMul EReal EReal EReal _ (V c (Pipeline.arrRef spec3 0) (ValueIdx.ix3 bh s j')) (V c (Pipeline.arrRef spec3 1) (ValueIdx.ix3 bh (Cert.Attn.keyAt kv u) j')))
            (fun kv u => V c (Pipeline.arrRef spec3 2) (ValueIdx.ix3 bh (Cert.Attn.keyAt kv u) j)) 8).2.1 :=
  congrFun ((dat3 V c).arrAt_eq_of_cover 3 (G3 V c) (flushed_eq3 V c) (cover3 c)) (ix3 bh s j)

end Cert.KernelIdeal.Fr

end
-- ==== Proof.KernelIdeal.Chain3.lean ====
/-
  The kernel program's result on the extended reals, entry by entry: the kernel's arrangement of multi-head attention
  (`Cert.Attn.outKer`) of the argument arrays.  The last launch leaves row·column + bias of what it finds; its
  activations are the attention launch's result with the heads moved back into the columns; the attention launch's
  result is the running form over the key blocks of the three projections.
-/
import proofs.«137242_j37349035606739_2_alg».proof.Proof.KernelIdeal.Chain2
import proofs.«137242_j37349035606739_2_alg».proof.Proof.KernelIdeal.Flash

set_option maxRecDepth 16384

noncomputable section

namespace Cert.KernelIdeal.Fr

open Idealize.ShloMosaic Idealize.ShloMosaic.TcCoe Idealize.SL.Sem Idealize.ShloMosaic.ValueIdx
open Cert.KernelIdeal Cert.KernelIdeal.Gen Cert.Attn Cert.Layout

variable (m : (ℓ : Loc nD τ sig) → Buf (Elt Ideal) ℓ) (ρ : Dev nD → PrngReg) (c : Dev nD)

/-- The running state over the key blocks, of the arrays the attention launch finds, is the running state of the
    three projections' entries. -/
theorem blocks_eq (b : Fin 4) (h : Fin 16) (s : Fin 2048) (j : Fin 64) :
    Cert.Pooling.runBlocks (fun (kv : ℕ) (u : Fin 256) => ∑ j' : Fin 64, @HMul.hMul EReal EReal EReal _ (V7 m ρ c (Pipeline.arrRef spec3 0) (ix3 (bhOf b h) s j')) (V7 m ρ c (Pipeline.arrRef spec3 1) (ix3 (bhOf b h) (keyAt kv u) j'))) (fun (kv : ℕ) (u : Fin 256) => (V7 m ρ c (Pipeline.arrRef spec3 2) (ix3 (bhOf b h) (keyAt kv u) j) : EReal)) 8
      = Cert.Pooling.runBlocks (scoreKer (projScaled (actOf (m ((c.tc : Thread nD τ).loc main_arg0))) (wtOf (m ((c.tc : Thread nD τ).loc main_arg3))) (biasOf (m ((c.tc : Thread nD τ).loc main_arg4)))) (proj (actOf (m ((c.tc : Thread nD τ).loc main_arg1))) (wtOf (m ((c.tc : Thread nD τ).loc main_arg5))) (biasOf (m ((c.tc : Thread nD τ).loc main_arg6)))) b h s) (fun kv u => (proj (actOf (m ((c.tc : Thread nD τ).loc main_arg2))) (wtOf (m ((c.tc : Thread nD τ).loc main_arg7))) (biasOf (m ((c.tc : Thread nD τ).loc main_arg8)))) b (keyAt kv u) (hd h j)) 8 := by
  have hp : (fun (kv : ℕ) (u : Fin 256) => ∑ j' : Fin 64, @HMul.hMul EReal EReal EReal _ (V7 m ρ c (Pipeline.arrRef spec3 0) (ix3 (bhOf b h) s j')) (V7 m ρ c (Pipeline.arrRef spec3 1) (ix3 (bhOf b h) (keyAt kv u) j'))) = scoreKer (projScaled (actOf (m ((c.tc : Thread nD τ).loc main_arg0))) (wtOf (m ((c.tc : Thread nD τ).loc main_arg3))) (biasOf (m ((c.tc : Thread nD τ).loc main_arg4)))) (proj (actOf (m ((c.tc : Thread nD τ).loc main_arg1))) (wtOf (m ((c.tc : Thread nD τ).loc main_arg5))) (biasOf (m ((c.tc : Thread nD τ).loc main_arg6)))) b h s :=
    funext fun kv => funext fun u => Finset.sum_congr rfl fun j' _ => congrArg₂ (· * ·) (q_at m ρ c b h s j') (k_at m ρ c b h (keyAt kv u) j')
  have hf : (fun (kv : ℕ) (u : Fin 256) => (V7 m ρ c (Pipeline.arrRef spec3 2) (ix3 (bhOf b h) (keyAt kv u) j) : EReal)) = (fun kv u => (proj (actOf (m ((c.tc : Thread nD τ).loc main_arg2))) (wtOf (m ((c.tc : Thread nD τ).loc main_arg7))) (biasOf (m ((c.tc : Thread nD τ).loc main_arg8)))) b (keyAt kv u) (hd h j)) :=
    funext fun kv => funext fun u => v_at m ρ c b h (keyAt kv u) j
  rw [hp, hf]

/-- The attention launch's result, heads moved back into the columns, at row (b,s) and column (h,j). -/
theorem attn_at (b : Fin 4) (s : Fin 2048) (h : Fin 16) (j : Fin 64) :
    (W9 (F := Ideal) m ρ c (Proc.devRef .tc main_v34) : FVec Ideal S8192x1024 .bf16) (ix2 (flat b s) (hd h j))
      = attnKer (projScaled (actOf (m ((c.tc : Thread nD τ).loc main_arg0))) (wtOf (m ((c.tc : Thread nD τ).loc main_arg3))) (biasOf (m ((c.tc : Thread nD τ).loc main_arg4)))) (proj (actOf (m ((c.tc : Thread nD τ).loc main_arg1))) (wtOf (m ((c.tc : Thread nD τ).loc main_arg5))) (biasOf (m ((c.tc : Thread nD τ).loc main_arg6)))) (proj (actOf (m ((c.tc : Thread nD τ).loc main_arg2))) (wtOf (m ((c.tc : Thread nD τ).loc main_arg7))) (biasOf (m ((c.tc : Thread nD τ).loc main_arg8)))) b h s j := by
  refine (congrFun (W9_v34 m ρ c) _).trans ?_
  refine (unheads_apply _ _ _ _ _ b s h j).trans ?_
  refine (congrFun (W8_arr m ρ c 3) _).trans ?_
  refine (flash_at (V7 m ρ) c (bhOf b h) s j).trans ?_
  unfold attnKer
  exact congrArg (fun r : EReal × EReal × EReal => Ideal.div r.2.2 r.2.1) (blocks_eq m ρ c b h s j)

/-- THE KERNEL'S RESULT at an entry. -/
theorem ker_result_at (b : Fin 4) (s : Fin 2048) (e : Fin 1024) :
    (W11 (F := Ideal) m ρ c (Proc.devRef .tc main_v37) : FVec Ideal S4x2048x1024 .f32) (ix3 b s e)
      = outKer (actOf (m ((c.tc : Thread nD τ).loc main_arg0))) (actOf (m ((c.tc : Thread nD τ).loc main_arg1))) (actOf (m ((c.tc : Thread nD τ).loc main_arg2))) (wtOf (m ((c.tc : Thread nD τ).loc main_arg3))) (biasOf (m ((c.tc : Thread nD τ).loc main_arg4))) (wtOf (m ((c.tc : Thread nD τ).loc main_arg5))) (biasOf (m ((c.tc : Thread nD τ).loc main_arg6)))
          (wtOf (m ((c.tc : Thread nD τ).loc main_arg7))) (biasOf (m ((c.tc : Thread nD τ).loc main_arg8))) (wtOf (m ((c.tc : Thread nD τ).loc main_arg9))) (biasOf (m ((c.tc : Thread nD τ).loc main_arg10))) b s e := by
  refine (congrFun (W11_v37 m ρ c) _).trans ?_
  refine (unflatten_apply _ _ b s e).trans ?_
  refine (congrFun ((W10_arr m ρ c 3).trans (final4 (V9 m ρ) c)) _).trans ?_
  unfold Glin4 outKer
  refine congrArg₂ (· + ·) (Finset.sum_congr rfl fun d _ => congrArg₂ (· * ·) ?_ ?_) ?_
  · have h := attn_at m ρ c b s ⟨d.val / 64, by omega⟩ ⟨d.val % 64, by omega⟩
    rw [hd_div_mod d] at h
    exact h
  · exact wo_at m ρ c d e
  · exact bo_at m ρ c e

end Cert.KernelIdeal.Fr

end
-- ==== Proof.RefValue.lean ====
/-
  The reference's result, read entry by entry, is the reference's arrangement of multi-head attention
  (`Cert.Attn.outRef`) of the argument arrays.
-/
import proofs.«137242_j37349035606739_2_alg».proof.Proof.Gen.ReferenceIdeal.Read
import proofs.«137242_j37349035606739_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.TcCoe Idealize.SL.Sem Cert.ReferenceIdeal Cert.Attn
open Cert.ReferenceIdeal.Gen Cert.ReferenceIdeal.Read Idealize.ShloMosaic.ValueIdx

/-- The three argument shapes as arrays of extended reals. -/
abbrev A3 := (⟨S4x2048x1024, .f32⟩ : BufTy).Contents (Elt Ideal)
abbrev W2 := (⟨S1024x1024, .f32⟩ : BufTy).Contents (Elt Ideal)
abbrev B1 := (⟨S1024, .f32⟩ : BufTy).Contents (Elt Ideal)

/-! ## A projection and its split into heads -/

/-- A projection read at (b, s, e): Σ_k x(b,s,k)·W(e,k) + bias(e). -/
theorem proj_at (x : A3) (W : W2) (bias : B1) (b : Fin 4) (s : Fin 2048) (e : Fin 1024) :
    val_main_v3 (F := Ideal) x W bias (ix3 b s e) = proj (actOf x) (wtOf W) (biasOf bias) b s e := by
  have hl : ∀ k : Fin 1024, lidx_main_v0 (ix3 b s e) k = ix3 b s k := fun k =>
    funext fun a => Fin.ext (by match a with | ⟨0, _⟩ => rfl | ⟨1, _⟩ => rfl | ⟨2, _⟩ => rfl)
  have hr : ∀ k : Fin 1024, ridx_main_v0 (ix3 b s e) k = ix2 e k := fun k =>
    funext fun a => Fin.ext (by match a with | ⟨0, _⟩ => rfl | ⟨1, _⟩ => rfl)
  have hb : idx_main_v1 (idx_main_v2 (ix3 b s e)) = ix1 e :=
    funext fun a => Fin.ext (by match a with | ⟨0, _⟩ => rfl)
  rw [val_main_v3_apply, val_main_v0_apply, val_main_v2_apply, val_main_v1_apply, hb]
  simp only [hl, hr, Ideal.addf_def]
  rfl

/-- The head split: the reshape [4,2048,1024] → [4,2048,16,64] followed by the exchange of the two middle axes reads,
    at (b, h, s, j), the projection at (b, s, h·64+j). -/
theorem head_at (x : A3) (W : W2) (bias : B1) (b : Fin 4) (h : Fin 16) (s : Fin 2048) (j : Fin 64) :
    val_main_v5 (F := Ideal) x W bias (ix4 b h s j) = proj (actOf x) (wtOf W) (biasOf bias) b s (hd h j) := by
  have hi : idx_main_v4 (idx_main_v5 (ix4 b h s j)) = ix3 b s (hd h j) :=
    funext fun a => Fin.ext (by
      have hb := b.isLt; have hh := h.isLt; have hs := s.isLt; have hj := j.isLt
      match a with
      | ⟨0, _⟩ => show (((b.val * 2048 + s.val) * 16 + h.val) * 64 + j.val) / 2097152 = b.val; omega
      | ⟨1, _⟩ => show (((b.val * 2048 + s.val) * 16 + h.val) * 64 + j.val) / 1024 % 2048 = s.val; omega
      | ⟨2, _⟩ => show (((b.val * 2048 + s.val) * 16 + h.val) * 64 + j.val) % 1024 = h.val * 64 + j.val; omega)
  rw [val_main_v5_apply, val_main_v4_apply, hi]
  exact proj_at x W bias b s (hd h j)

/-- The three projections are one function of their arguments (the program prints it three times). -/
theorem v11_eq_v5 : @val_main_v11 Ideal _ = @val_main_v5 Ideal _ := rfl
theorem v17_eq_v5 : @val_main_v17 Ideal _ = @val_main_v5 Ideal _ := rfl

/-! ## Scores -/

abbrev A4 := (⟨S4x16x2048x2048, .f32⟩ : BufTy).Contents (Elt Ideal)

/-- The scaled scores read at (b, h, s, t): (Σ_j Q(b,s,h·64+j)·K(b,t,h·64+j)) / 8. -/
theorem score_at (x0 x1 : A3) (x3 : W2) (x4 : B1) (x5 : W2) (x6 : B1) (b : Fin 4) (h : Fin 16) (s t : Fin 2048) :
    val_main_v20 (F := Ideal) x0 x1 x3 x4 x5 x6 (ix4 b h s t)
      = scoreRef (proj (actOf x0) (wtOf x3) (biasOf x4)) (proj (actOf x1) (wtOf x5) (biasOf x6)) b h s t := by
  have hl : ∀ k : Fin 64, lidx_main_v18 (ix4 b h s t) k = ix4 b h s k := fun k =>
    funext fun a => Fin.ext (by match a with | ⟨0, _⟩ => rfl | ⟨1, _⟩ => rfl | ⟨2, _⟩ => rfl | ⟨3, _⟩ => rfl)
  have hr : ∀ k : Fin 64, ridx_main_v18 (ix4 b h s t) k = ix4 b h t k := fun k =>
    funext fun a => Fin.ext (by match a with | ⟨0, _⟩ => rfl | ⟨1, _⟩ => rfl | ⟨2, _⟩ => rfl | ⟨3, _⟩ => rfl)
  rw [val_main_v20_apply, val_main_v18_apply, val_main_v19_apply, val_main_cst_apply, v11_eq_v5]
  simp only [hl, hr, head_at, Ideal.hostDivf_def, Ideal.ofBits_def]
  rfl

/-! ## The row maximum -/

/-- The bit pattern of −∞. -/
theorem ofBits_neg_inf : Ideal.ofBits .f32 0xFF800000#32 = (⊥ : EReal) := by simp [Ideal.ofBits, Ideal.ieee]

/-- The position (b, h, s) with the key t put back on the dropped axis is (b, h, s, t). -/
theorem lift_at (hR : S4x16x2048x2048.Reduces [3] S4x16x2048) (b : Fin 4) (h : Fin 16) (s : Fin 2048)
    (k : Fin (S4x16x2048x2048.size 3)) : hR.lift (ix3 b h s) k = ix4 b h s (⟨k.val, k.isLt⟩ : Fin 2048) :=
  funext fun a => Fin.ext (by match a with | ⟨0, _⟩ => rfl | ⟨1, _⟩ => rfl | ⟨2, _⟩ => rfl | ⟨3, _⟩ => rfl)

/-- The maximum-reduce over the key axis from −∞, at (b, h, s), of an array whose row there is S: the fold of max from −∞ over S. -/
theorem rowMax_at (y : S4x16x2048x2048.Idx → EReal) (S : Fin 2048 → EReal) (b : Fin 4) (h : Fin 16) (s : Fin 2048)
    (hy : ∀ t : Fin 2048, y (ix4 b h s t) = S t) :
    Host.reduce (s := S4x16x2048x2048) (α := EReal) (FloatOps.maximumf (F := Ideal) (φ := .f32)) y (val_main_cst_0 (F := Ideal))
        reducesTo_S4x16x2048x2048_S4x16x2048_d3 h_S_ (ix3 b h s)
      = (Finset.univ : Finset (Fin 2048)).fold max ⊥ S := by
  have hR : S4x16x2048x2048.Reduces [3] S4x16x2048 := by decide
  rw [Host.reduce_eq_fold_single (FloatOps.maximumf (F := Ideal) (φ := .f32)) y _ reducesTo_S4x16x2048x2048_S4x16x2048_d3 hR h_S_]
  have hf : (y ∘ hR.lift (ix3 b h s)) = S := funext fun k => (congrArg y (lift_at hR b h s k)).trans (hy _)
  have h0 : val_main_cst_0 (F := Ideal) (Shape.Idx.first h_S_) = (⊥ : EReal) := by
    rw [val_main_cst_0_apply, Ideal.ofBits_def, ofBits_neg_inf]
  rw [hf, h0]
  rfl

/-! ## Softmax over the keys -/

/-- The row of scaled scores of the query at (b, h, s), as a function of the arguments. -/
abbrev rowOf (x0 x1 : A3) (x3 : W2) (x4 : B1) (x5 : W2) (x6 : B1) (b : Fin 4) (h : Fin 16) (s : Fin 2048) : Fin 2048 → EReal :=
  scoreRef (proj (actOf x0) (wtOf x3) (biasOf x4)) (proj (actOf x1) (wtOf x5) (biasOf x6)) b h s

/-- The shift read at (b, h, s): −∞ against the row's maximum folded from −∞. -/
theorem shift_at (x0 x1 : A3) (x3 : W2) (x4 : B1) (x5 : W2) (x6 : B1) (b : Fin 4) (h : Fin 16) (s : Fin 2048) :
    val_main_v23 (F := Ideal) x0 x1 x3 x4 x5 x6 (ix3 b h s) = shiftRef (rowOf x0 x1 x3 x4 x5 x6 b h s) := by
  rw [val_main_v23_apply, val_main_v22_apply, val_main_cst_1_apply]
  unfold val_main_v21
  rw [rowMax_at (val_main_v20 (F := Ideal) x0 x1 x3 x4 x5 x6) (rowOf x0 x1 x3 x4 x5 x6 b h s) b h s
    (fun t => score_at x0 x1 x3 x4 x5 x6 b h s t)]
  rw [Ideal.maximumf_def, Ideal.ofBits_def, ofBits_neg_inf]
  rfl

/-- The shifted exponential read at (b, h, s, t): e^(S t − shift). -/
theorem exp_at (x0 x1 : A3) (x3 : W2) (x4 : B1) (x5 : W2) (x6 : B1) (b : Fin 4) (h : Fin 16) (s t : Fin 2048) :
    val_main_v27 (F := Ideal) x0 x1 x3 x4 x5 x6 (ix4 b h s t)
      = Ideal.exp (rowOf x0 x1 x3 x4 x5 x6 b h s t - shiftRef (rowOf x0 x1 x3 x4 x5 x6 b h s)) := by
  have hi : idx_main_v24 (idx_main_v25 (ix4 b h s t)) = ix3 b h s :=
    funext fun a => Fin.ext (by match a with | ⟨0, _⟩ => rfl | ⟨1, _⟩ => rfl | ⟨2, _⟩ => rfl)
  rw [val_main_v27_apply, val_main_v26_apply, val_main_v25_apply, val_main_v24_apply, hi, shift_at, score_at,
    Ideal.hostUnary_exp_def, Ideal.subf_def]

/-- The normaliser read at (b, h, s): the sum of the shifted exponentials over the keys (the sum starts from the zero word). -/
theorem sum_at (x0 x1 : A3) (x3 : W2) (x4 : B1) (x5 : W2) (x6 : B1) (b : Fin 4) (h : Fin 16) (s : Fin 2048) :
    val_main_v28 (F := Ideal) x0 x1 x3 x4 x5 x6 (ix3 b h s)
      = ∑ t' : Fin 2048, Ideal.exp (rowOf x0 x1 x3 x4 x5 x6 b h s t' - shiftRef (rowOf x0 x1 x3 x4 x5 x6 b h s)) := by
  have hi : ∀ k : Fin 2048, idx_main_v28 (ix3 b h s) k = ix4 b h s k := fun k =>
    funext fun a => Fin.ext (by match a with | ⟨0, _⟩ => rfl | ⟨1, _⟩ => rfl | ⟨2, _⟩ => rfl | ⟨3, _⟩ => rfl)
  rw [val_main_v28_apply, val_main_cst_2_apply, Ideal.ofBits_def, Ideal.ofBits_zero_f32, zero_add]
  simp only [hi, exp_at]

/-- The softmax weight read at (b, h, s, t). -/
theorem weight_at (x0 x1 : A3) (x3 : W2) (x4 : B1) (x5 : W2) (x6 : B1) (b : Fin 4) (h : Fin 16) (s t : Fin 2048) :
    val_main_v31 (F := Ideal) x0 x1 x3 x4 x5 x6 (ix4 b h s t) = weightRef (rowOf x0 x1 x3 x4 x5 x6 b h s) t := by
  have hi : idx_main_v29 (idx_main_v30 (ix4 b h s t)) = ix3 b h s :=
    funext fun a => Fin.ext (by match a with | ⟨0, _⟩ => rfl | ⟨1, _⟩ => rfl | ⟨2, _⟩ => rfl)
  rw [val_main_v31_apply, val_main_v30_apply, val_main_v29_apply, hi, sum_at, exp_at, Ideal.hostDivf_def]
  rfl

/-! ## The weighted sum of the values, the heads merged, the last projection -/

/-- The attention output of head h read at (b, h, s, j): Σ_t weight(t)·V(b,t,h·64+j). -/
theorem attn_at (x0 x1 x2 : A3) (x3 : W2) (x4 : B1) (x5 : W2) (x6 : B1) (x7 : W2) (x8 : B1)
    (b : Fin 4) (h : Fin 16) (s : Fin 2048) (j : Fin 64) :
    val_main_v32 (F := Ideal) x0 x1 x2 x3 x4 x5 x6 x7 x8 (ix4 b h s j)
      = attnRef (proj (actOf x0) (wtOf x3) (biasOf x4)) (proj (actOf x1) (wtOf x5) (biasOf x6))
          (proj (actOf x2) (wtOf x7) (biasOf x8)) b h s j := by
  have hl : ∀ k : Fin 2048, lidx_main_v32 (ix4 b h s j) k = ix4 b h s k := fun k =>
    funext fun a => Fin.ext (by match a with | ⟨0, _⟩ => rfl | ⟨1, _⟩ => rfl | ⟨2, _⟩ => rfl | ⟨3, _⟩ => rfl)
  have hr : ∀ k : Fin 2048, ridx_main_v32 (ix4 b h s j) k = ix4 b h k j := fun k =>
    funext fun a => Fin.ext (by match a with | ⟨0, _⟩ => rfl | ⟨1, _⟩ => rfl | ⟨2, _⟩ => rfl | ⟨3, _⟩ => rfl)
  rw [val_main_v32_apply, v17_eq_v5]
  simp only [hl, hr, weight_at, head_at]
  rfl

/-- The heads merged: the exchange of the two middle axes followed by the reshape [4,2048,16,64] → [4,2048,1024] reads,
    at (b, s, d), head d / 64 and lane d % 64. -/
theorem merged_at (x0 x1 x2 : A3) (x3 : W2) (x4 : B1) (x5 : W2) (x6 : B1) (x7 : W2) (x8 : B1)
    (b : Fin 4) (s : Fin 2048) (d : Fin 1024) :
    val_main_v34 (F := Ideal) x0 x1 x2 x3 x4 x5 x6 x7 x8 (ix3 b s d)
      = attnRef (proj (actOf x0) (wtOf x3) (biasOf x4)) (proj (actOf x1) (wtOf x5) (biasOf x6))
          (proj (actOf x2) (wtOf x7) (biasOf x8)) b ⟨d.val / 64, by omega⟩ s ⟨d.val % 64, by omega⟩ := by
  have hi : idx_main_v33 (idx_main_v34 (ix3 b s d))
      = ix4 b (⟨d.val / 64, by omega⟩ : Fin 16) s (⟨d.val % 64, by omega⟩ : Fin 64) :=
    funext fun a => Fin.ext (by
      have hb := b.isLt; have hs := s.isLt; have hd := d.isLt
      match a with
      | ⟨0, _⟩ => show ((b.val * 2048 + s.val) * 1024 + d.val) / 2097152 = b.val; omega
      | ⟨1, _⟩ => show ((b.val * 2048 + s.val) * 1024 + d.val) / 64 % 16 = d.val / 64; omega
      | ⟨2, _⟩ => show ((b.val * 2048 + s.val) * 1024 + d.val) / 1024 % 2048 = s.val; omega
      | ⟨3, _⟩ => show ((b.val * 2048 + s.val) * 1024 + d.val) % 64 = d.val % 64; omega)
  rw [val_main_v34_apply, val_main_v33_apply, hi]
  exact attn_at x0 x1 x2 x3 x4 x5 x6 x7 x8 b _ s _

/-- The last stage read at (b, s, e) is the reference's arrangement of the arguments. -/
theorem value_at (x0 x1 x2 : A3) (x3 : W2) (x4 : B1) (x5 : W2) (x6 : B1) (x7 : W2) (x8 : B1) (x9 : W2) (x10 : B1)
    (b : Fin 4) (s : Fin 2048) (e : Fin 1024) :
    val_main_v38 (F := Ideal) x0 x1 x2 x3 x4 x5 x6 x7 x8 x9 x10 (ix3 b s e)
      = outRef (actOf x0) (actOf x1) (actOf x2) (wtOf x3) (biasOf x4) (wtOf x5) (biasOf x6) (wtOf x7) (biasOf x8)
          (wtOf x9) (biasOf x10) b s e := by
  have hl : ∀ k : Fin 1024, lidx_main_v35 (ix3 b s e) k = ix3 b s k := fun k =>
    funext fun a => Fin.ext (by match a with | ⟨0, _⟩ => rfl | ⟨1, _⟩ => rfl | ⟨2, _⟩ => rfl)
  have hr : ∀ k : Fin 1024, ridx_main_v35 (ix3 b s e) k = ix2 e k := fun k =>
    funext fun a => Fin.ext (by match a with | ⟨0, _⟩ => rfl | ⟨1, _⟩ => rfl)
  have hb : idx_main_v36 (idx_main_v37 (ix3 b s e)) = ix1 e :=
    funext fun a => Fin.ext (by match a with | ⟨0, _⟩ => rfl)
  rw [val_main_v38_apply, val_main_v35_apply, val_main_v37_apply, val_main_v36_apply, hb]
  simp only [hl, hr, merged_at, Ideal.addf_def]
  rfl

/-- The reference's result buffer, entry by entry, is the reference's arrangement of multi-head attention of the
    argument buffers. -/
theorem result_at [Cert.ReferenceIdeal.Facts] (m : (ℓ : Loc nD τ sig) → Buf (Elt Ideal) ℓ) (c : Dev nD) (b : Fin 4) (s : Fin 2048) (e : Fin 1024) :
    Cert.ReferenceIdeal.Value.res_out0 (F := Ideal) m c (ValueIdx.ix3 b s e)
      = Cert.Attn.outRef (actOf (m ((c.tc : Thread nD τ).loc main_arg0))) (actOf (m ((c.tc : Thread nD τ).loc main_arg1))) (actOf (m ((c.tc : Thread nD τ).loc main_arg2)))
          (wtOf (m ((c.tc : Thread nD τ).loc main_arg3))) (biasOf (m ((c.tc : Thread nD τ).loc main_arg4)))
          (wtOf (m ((c.tc : Thread nD τ).loc main_arg5))) (biasOf (m ((c.tc : Thread nD τ).loc main_arg6)))
          (wtOf (m ((c.tc : Thread nD τ).loc main_arg7))) (biasOf (m ((c.tc : Thread nD τ).loc main_arg8)))
          (wtOf (m ((c.tc : Thread nD τ).loc main_arg9))) (biasOf (m ((c.tc : Thread nD τ).loc main_arg10))) b s e := by
  show Cert.ReferenceIdeal.Value.res_main_v38 (F := Ideal) m c (ix3 b s e) = _
  rw [val_main_v38_eq]
  exact value_at _ _ _ _ _ _ _ _ _ _ _ b s e

end Cert.ReferenceIdeal.RefValue

end
-- ==== Proof.Join.lean ====
/-
  The two arrangements of multi-head attention agree on real arguments.

  With every argument entry real, every projection entry is real: a finite sum of products of reals plus a real.  The
  literals are the reals 8 and 1/8, so the query projection taken with weight and bias scaled beforehand has the
  entries q/8 of the plain one, and by distributivity the kernel's score Σ_j (q_j/8)·k_j against the key at position
  kv·256 + u is the reference's score (Σ_j q_j·k_j)/8 at that position.  The running form over the 8 blocks of 256 keys
  is then the quotient of two double sums of e^(S − M)-weights at ANY real shift M; taking M the row's maximum, which
  is real because the row is, and re-indexing the double sum over (kv, u) as the sum over the 2048 positions
  t = kv·256 + u, the quotient (Σ_t e^(S t − M)·v t) / Z is the reference's Σ_t (e^(S t − M)/Z)·v t.
  The two last projections are the same function of these equal values.
-/
import Mathlib
import Idealize.ShloMosaic.PureOps.Ideal
import proofs.«137242_j37349035606739_2_alg».proof.Proof.Spec

noncomputable section

namespace Cert.Attn

open Idealize.ShloMosaic Finset Cert.Pooling

/-! ## The two literals -/

/-- The word 0x41000000 (exponent field 130, significand 1.0) denotes 2³ = 8. -/
theorem c8_eq : c8 = ((8 : ℝ) : EReal) := by
  unfold c8
  simp [Ideal.ofBits, Ideal.ieee, -EReal.coe_mul]; norm_num

/-- The word 0x3E000000 (exponent field 124, significand 1.0) denotes 2⁻³ = 1/8. -/
theorem c18_eq : c18 = (((1 : ℝ) / 8 : ℝ) : EReal) := by
  unfold c18
  simp [Ideal.ofBits, Ideal.ieee, -EReal.coe_mul]; norm_num

/-! ## The projections of real arguments are real -/

/-- A projection of real arguments: the real Σ_k x·W + bias. -/
theorem proj_coe (x : Act) (W : Wt) (bias : Bias) (xr : Fin 4 → Fin 2048 → Fin 1024 → ℝ)
    (wr : Fin 1024 → Fin 1024 → ℝ) (br : Fin 1024 → ℝ) (hx : ∀ b s k, x b s k = xr b s k)
    (hW : ∀ e k, W e k = wr e k) (hb : ∀ e, bias e = br e) (b : Fin 4) (s : Fin 2048) (e : Fin 1024) :
    proj x W bias b s e = (((∑ k, xr b s k * wr e k) + br e : ℝ) : EReal) := by
  unfold proj
  rw [EReal.coe_add, ← coe_sum, hb e]
  congr 1
  exact Finset.sum_congr rfl fun k _ => by rw [hx, hW, EReal.coe_mul]

/-- The projection with weight and bias scaled by 1/8 beforehand: by distributivity, the plain one divided by 8. -/
theorem projScaled_coe (x : Act) (W : Wt) (bias : Bias) (xr : Fin 4 → Fin 2048 → Fin 1024 → ℝ)
    (wr : Fin 1024 → Fin 1024 → ℝ) (br : Fin 1024 → ℝ) (hx : ∀ b s k, x b s k = xr b s k)
    (hW : ∀ e k, W e k = wr e k) (hb : ∀ e, bias e = br e) (b : Fin 4) (s : Fin 2048) (e : Fin 1024) :
    projScaled x W bias b s e = ((((∑ k, xr b s k * wr e k) + br e) / 8 : ℝ) : EReal) := by
  unfold projScaled
  have hterm : ∀ k, x b s k * (W e k * c18) = ((xr b s k * (wr e k * (1 / 8)) : ℝ) : EReal) := fun k => by
    rw [c18_eq, hx, hW, ← EReal.coe_mul, ← EReal.coe_mul]
  rw [Finset.sum_congr rfl fun k _ => hterm k, coe_sum, c18_eq, hb e, ← EReal.coe_mul, ← EReal.coe_add]
  congr 1
  rw [add_div, Finset.sum_div]
  congr 1
  · exact Finset.sum_congr rfl fun k _ => by ring
  · ring

/-! ## The 2048 key positions as 8 blocks of 256 -/

/-- A sum over the positions t is the sum over the blocks kv and the offsets u of the term at t = kv·256 + u. -/
theorem sum_keyAt {A : Type*} [AddCommMonoid A] (g : Fin 2048 → A) :
    ∑ t, g t = ∑ kv ∈ range 8, ∑ u : Fin 256, g (keyAt kv u) := by
  rw [Finset.sum_range (fun kv => ∑ u : Fin 256, g (keyAt kv u)), ← Fintype.sum_prod_type']
  refine (Fintype.sum_equiv (finProdFinEquiv (m := 8) (n := 256)) _ _ fun x => ?_).symm
  congr 1
  apply Fin.ext
  have h1 := x.1.isLt
  simp only [keyAt, finProdFinEquiv_apply_val, Nat.mod_eq_of_lt h1]
  omega

/-! ## The two forms of attention on real projections -/

/-- With real keys and values, real query entries q for the reference and q/8 for the kernel, the running form over
    the 8 key blocks and the plain softmax-weighted sum over the 2048 keys are the same number. -/
theorem attn_eq (Qs Q K V : Act) (qr kr vr : Fin 4 → Fin 2048 → Fin 1024 → ℝ)
    (hQs : ∀ b s e, Qs b s e = ((qr b s e / 8 : ℝ) : EReal)) (hQ : ∀ b s e, Q b s e = qr b s e)
    (hK : ∀ b s e, K b s e = kr b s e) (hV : ∀ b s e, V b s e = vr b s e)
    (b : Fin 4) (h : Fin 16) (s : Fin 2048) (j : Fin 64) :
    attnKer Qs K V b h s j = attnRef Q K V b h s j := by
  -- the real scores of the row
  obtain ⟨Sr, hSr⟩ : ∃ Sr : Fin 2048 → ℝ, ∀ t, Sr t = (∑ i, qr b s (hd h i) * kr b t (hd h i)) / 8 :=
    ⟨_, fun _ => rfl⟩
  -- the kernel's score is it: Σ (q/8)·k = (Σ q·k)/8
  have hker : ∀ kv u, scoreKer Qs K b h s kv u = ((Sr (keyAt kv u) : ℝ) : EReal) := by
    intro kv u
    unfold scoreKer
    have hterm : ∀ i, Qs b s (hd h i) * K b (keyAt kv u) (hd h i)
        = ((qr b s (hd h i) / 8 * kr b (keyAt kv u) (hd h i) : ℝ) : EReal) := fun i => by
      rw [hQs, hK, EReal.coe_mul]
    rw [Finset.sum_congr rfl fun i _ => hterm i, coe_sum, hSr, Finset.sum_div]
    congr 1
    exact Finset.sum_congr rfl fun i _ => by ring
  -- so is the reference's
  have href : ∀ t, scoreRef Q K b h s t = ((Sr t : ℝ) : EReal) := by
    intro t
    unfold scoreRef
    have hterm : ∀ i, Q b s (hd h i) * K b t (hd h i) = ((qr b s (hd h i) * kr b t (hd h i) : ℝ) : EReal) :=
      fun i => by rw [hQ, hK, EReal.coe_mul]
    rw [Finset.sum_congr rfl fun i _ => hterm i, coe_sum, c8_eq, div_coe_coe _ (by norm_num : (8 : ℝ) ≠ 0), hSr]
  have hS : scoreRef Q K b h s = fun t => ((Sr t : ℝ) : EReal) := funext href
  -- the reference's shift is a real number M
  obtain ⟨M, hM⟩ := fold_max_real (Finset.univ : Finset (Fin 2048)) ⟨0, Finset.mem_univ _⟩ Sr
  have hshift : shiftRef (fun t => ((Sr t : ℝ) : EReal)) = (M : EReal) := by
    unfold shiftRef
    rw [hM]
    exact max_eq_right bot_le
  have hZ : 0 < ∑ t, Real.exp (Sr t - M) :=
    Finset.sum_pos (fun t _ => Real.exp_pos _) ⟨0, Finset.mem_univ _⟩
  -- the reference's weights are the real e^(S − M)/Z
  have hw : ∀ t, weightRef (fun t => ((Sr t : ℝ) : EReal)) t
      = ((Real.exp (Sr t - M) / ∑ t', Real.exp (Sr t' - M) : ℝ) : EReal) := by
    intro t
    unfold weightRef
    rw [hshift, Finset.sum_congr rfl fun t' _ => exp_sub_coe (Sr t') M, coe_sum, exp_sub_coe,
      div_coe_coe _ hZ.ne']
  have hterm : ∀ t, weightRef (fun t => ((Sr t : ℝ) : EReal)) t * V b t (hd h j)
      = ((Real.exp (Sr t - M) / (∑ t', Real.exp (Sr t' - M)) * vr b t (hd h j) : ℝ) : EReal) := fun t => by
    rw [hw, hV, EReal.coe_mul]
  -- the kernel's running form is the quotient of double sums at the shift M
  have hrun := runBlocks_div (b := 256) (by norm_num) (scoreKer Qs K b h s)
    (fun kv u => V b (keyAt kv u) (hd h j)) (fun kv u => Sr (keyAt kv u))
    (fun kv u => vr b (keyAt kv u) (hd h j)) hker (fun kv u => hV _ _ _) 7 M
  unfold attnKer attnRef
  rw [hrun, hS, Finset.sum_congr rfl fun t _ => hterm t, coe_sum]
  refine congrArg Real.toEReal ?_
  rw [← sum_keyAt (fun t => Real.exp (Sr t - M) * vr b t (hd h j)), ← sum_keyAt (fun t => Real.exp (Sr t - M)),
    Finset.sum_div]
  exact Finset.sum_congr rfl fun t _ => by ring

/-! ## The two results -/

theorem outKer_eq_outRef (query key value : Act) (Wq : Wt) (bq : Bias) (Wk : Wt) (bk : Bias) (Wv : Wt) (bv : Bias) (Wo : Wt) (bo : Bias)
    (hq : ∀ b s k, ∃ r : ℝ, query b s k = r) (hk : ∀ b s k, ∃ r : ℝ, key b s k = r) (hv : ∀ b s k, ∃ r : ℝ, value b s k = r)
    (hWq : ∀ e k, ∃ r : ℝ, Wq e k = r) (hbq : ∀ e, ∃ r : ℝ, bq e = r) (hWk : ∀ e k, ∃ r : ℝ, Wk e k = r) (hbk : ∀ e, ∃ r : ℝ, bk e = r)
    (hWv : ∀ e k, ∃ r : ℝ, Wv e k = r) (hbv : ∀ e, ∃ r : ℝ, bv e = r) :
    outKer query key value Wq bq Wk bk Wv bv Wo bo = outRef query key value Wq bq Wk bk Wv bv Wo bo := by
  choose qr hqr using hq
  choose kr hkr using hk
  choose vr hvr using hv
  choose wq hwq using hWq
  choose cq hcq using hbq
  choose wk hwk using hWk
  choose ck hck using hbk
  choose wv hwv using hWv
  choose cv hcv using hbv
  funext b s e
  unfold outKer outRef
  congr 1
  refine Finset.sum_congr rfl fun d _ => ?_
  congr 1
  exact attn_eq (projScaled query Wq bq) (proj query Wq bq) (proj key Wk bk) (proj value Wv bv)
    (fun b s e => (∑ k, qr b s k * wq e k) + cq e) (fun b s e => (∑ k, kr b s k * wk e k) + ck e)
    (fun b s e => (∑ k, vr b s k * wv e k) + cv e)
    (fun b s e => projScaled_coe query Wq bq qr wq cq hqr hwq hcq b s e)
    (fun b s e => proj_coe query Wq bq qr wq cq hqr hwq hcq b s e)
    (fun b s e => proj_coe key Wk bk kr wk ck hkr hwk hck b s e)
    (fun b s e => proj_coe value Wv bv vr wv cv hvr hwv hcv b s e) _ _ _ _

end Cert.Attn

end
-- ==== Proof.Finite.lean ====
/-
  From the stated precondition to "every argument entry is a real number".

  The precondition is the conjunction, over the eleven argument arrays, of "every entry x has |x| < +∞", each written as
  a reduction by "and" from 1 of the entrywise comparison of max x (−x) against the word 0x7F800000, and it is stated to
  be 1.  A conjunction that is 1 has both conjuncts 1; a reduction by "and" over all axes that is 1 met a 1 at every
  entry; the word denotes +∞; and an extended real x with max x (−x) < +∞ is neither +∞ (it is below it) nor −∞ (its
  negation is), hence real.
-/
import proofs.«137242_j37349035606739_2_alg».proof.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

/-- The shape of rank 0 has one index. -/
instance : Subsingleton S_.Idx := ⟨fun _ _ => funext fun d => d.elim0⟩

/-- The word 0x7F800000 (exponent field all ones, significand field zero, sign +) denotes +∞. -/
theorem inf_eq : Ideal.ofBits .f32 0x7F800000#32 = (⊤ : EReal) := by simp [Ideal.ofBits, Ideal.ieee]

/-- An extended real whose absolute value max x (−x) is below +∞ is a real number: +∞ is not below itself, and the
    negation of −∞ is +∞. -/
theorem real_of_abs_lt (x : EReal) (h : Ideal.cmp .olt (max x (-x)) (Ideal.ofBits .f32 0x7F800000#32) = 1#1) :
    ∃ r : ℝ, x = r := by
  rw [inf_eq] at h
  have hlt : max x (-x) < ⊤ := by
    by_contra hn
    simp [Ideal.cmp, hn] at h
  induction x using EReal.rec with
  | bot => simp at hlt
  | coe r => exact ⟨r, rfl⟩
  | top => simp at hlt

/-- One array: if the reduction by "and", over all axes and from 1, of the comparison |x| < +∞ is 1, every entry is real. -/
theorem all_real {S : Shape} {axes : List (Fin S.rank)} (a : FVec Ideal S .f32)
    (bc : S_.BroadcastsInDim S (![] : Fin 0 → Fin S.rank)) (red : S.ReducesTo axes S_) (hpos : 0 < S_.numel)
    (h : Host.reduce IntOp.andi
        (cmpf .olt (Host.absf a) (broadcastInDim S ![] bc (constant (F := Ideal) S_ .f32 0x7F800000#32)))
        (constantI S_ 1 1#1) red hpos ValueIdx.ix0 = 1#1) :
    ∀ i, ∃ r : ℝ, (a i : EReal) = r := fun i =>
  real_of_abs_lt (a i) (Host.reduce_andi_all _ _ red hpos ValueIdx.ix0 h i)

/-- A conjunction of two one-bit results that is 1 has both 1. -/
theorem andi_split {x y : IVec S_ 1} (h : andi x y ValueIdx.ix0 = 1#1) :
    x ValueIdx.ix0 = 1#1 ∧ y ValueIdx.ix0 = 1#1 := IntOp.andi_eq_one.1 h

theorem real_of_pre [Facts] (a0 a1 a2 : FVec Ideal S4x2048x1024 .f32) (a3 : FVec Ideal S1024x1024 .f32)
    (a4 : FVec Ideal S1024 .f32) (a5 : FVec Ideal S1024x1024 .f32) (a6 : FVec Ideal S1024 .f32)
    (a7 : FVec Ideal S1024x1024 .f32) (a8 : FVec Ideal S1024 .f32) (a9 : FVec Ideal S1024x1024 .f32)
    (a10 : FVec Ideal S1024 .f32)
    (h : fn (F := Ideal) a0 a1 a2 a3 a4 a5 a6 a7 a8 a9 a10 = fun _ => 1#1) :
    (∀ i, ∃ r : ℝ, (a0 i : EReal) = r) ∧ (∀ i, ∃ r : ℝ, (a1 i : EReal) = r) ∧ (∀ i, ∃ r : ℝ, (a2 i : EReal) = r)
      ∧ (∀ i, ∃ r : ℝ, (a3 i : EReal) = r) ∧ (∀ i, ∃ r : ℝ, (a4 i : EReal) = r) ∧ (∀ i, ∃ r : ℝ, (a5 i : EReal) = r)
      ∧ (∀ i, ∃ r : ℝ, (a6 i : EReal) = r) ∧ (∀ i, ∃ r : ℝ, (a7 i : EReal) = r) ∧ (∀ i, ∃ r : ℝ, (a8 i : EReal) = r)
      ∧ (∀ i, ∃ r : ℝ, (a9 i : EReal) = r) ∧ (∀ i, ∃ r : ℝ, (a10 i : EReal) = r) := by
  have h0 := congrFun h ValueIdx.ix0
  unfold fn fn_part1 fn_part2 fn_part3 at h0
  dsimp only at h0
  obtain ⟨h0, e10⟩ := andi_split h0
  obtain ⟨h0, e9⟩ := andi_split h0
  obtain ⟨h0, e8⟩ := andi_split h0
  obtain ⟨h0, e7⟩ := andi_split h0
  obtain ⟨h0, e6⟩ := andi_split h0
  obtain ⟨h0, e5⟩ := andi_split h0
  obtain ⟨h0, e4⟩ := andi_split h0
  obtain ⟨h0, e3⟩ := andi_split h0
  obtain ⟨h0, e2⟩ := andi_split h0
  obtain ⟨e0, e1⟩ := andi_split h0
  exact ⟨all_real a0 _ _ _ e0, all_real a1 _ _ _ e1, all_real a2 _ _ _ e2, all_real a3 _ _ _ e3,
    all_real a4 _ _ _ e4, all_real a5 _ _ _ e5, all_real a6 _ _ _ e6, all_real a7 _ _ _ e7,
    all_real a8 _ _ _ e8, all_real a9 _ _ _ e9, all_real a10 _ _ _ e10⟩

end Cert.Finite

end
-- ==== Proof.lean ====
/-
  The claim: the multi-head attention kernel — three projections, attention in the running-softmax form over blocks
  of 256 keys, and the output projection, each a tiled launch — against the plain reference, on the extended reals.

  Frames.  Each program terminates without a fault and leaves its arguments as they were: for the kernel program (word
  by word and on the extended reals) by running its five launches between its stretches of host operations
  (`Proof/<Program>/Run.lean`); for the reference by its run with the result dropped.

  Values.  On the extended reals the kernel program's result is, entry by entry, the kernel's arrangement
  `Cert.Attn.outKer` of the arguments (`Proof/KernelIdeal/Chain3.lean`: row·column + bias for each tiled launch, a
  renaming of coordinates for each re-layout, the running maximum / normaliser / weighted sum over the 8 key blocks
  for the attention launch), and the reference's result is the reference's arrangement `Cert.Attn.outRef`
  (`Proof/RefValue.lean`).  With real inputs (`Proof/Finite.lean`) every intermediate is real and the two arrangements
  agree (`Proof/Join.lean`): the scale 1/8 folded into the query weight and bias is the reference's division of the
  scores by 8 because a real factor moves across a finite sum of reals, and the running form over the key blocks ends
  at the softmax-weighted average over all keys because rescaling by e^(M − M') moves every earlier term to the new
  shift (the first block starts from the shift −∞, whose factor e^(−∞) = 0 multiplies a normaliser and a sum that are 0).
  The ideal pass rewrote nothing, so the idealization conjunct is `True`.
-/
import proofs.«137242_j37349035606739_2_alg».proof.Defs
import proofs.«137242_j37349035606739_2_alg».proof.Proof.Gen.Kernel
import proofs.«137242_j37349035606739_2_alg».proof.Proof.Gen.Kernel.Skeleton
import proofs.«137242_j37349035606739_2_alg».proof.Proof.Gen.Kernel.Launch
import proofs.«137242_j37349035606739_2_alg».proof.Proof.Gen.Kernel.Regions
import proofs.«137242_j37349035606739_2_alg».proof.Proof.Gen.Kernel.Points
import proofs.«137242_j37349035606739_2_alg».proof.Proof.Gen.KernelIdeal
import proofs.«137242_j37349035606739_2_alg».proof.Proof.Gen.KernelIdeal.Skeleton
import proofs.«137242_j37349035606739_2_alg».proof.Proof.Gen.KernelIdeal.Launch
import proofs.«137242_j37349035606739_2_alg».proof.Proof.Gen.KernelIdeal.Regions
import proofs.«137242_j37349035606739_2_alg».proof.Proof.Gen.KernelIdeal.Points
import proofs.«137242_j37349035606739_2_alg».proof.Proof.Gen.ReferenceIdeal
import proofs.«137242_j37349035606739_2_alg».proof.Proof.Gen.ReferenceIdeal.Run
import proofs.«137242_j37349035606739_2_alg».proof.Proof.Gen.Pre_finite_inputs
import proofs.«137242_j37349035606739_2_alg».proof.Proof.Kernel.Run
import proofs.«137242_j37349035606739_2_alg».proof.Proof.KernelIdeal.Run
import proofs.«137242_j37349035606739_2_alg».proof.Proof.KernelIdeal.Chain3
import proofs.«137242_j37349035606739_2_alg».proof.Proof.RefValue
import proofs.«137242_j37349035606739_2_alg».proof.Proof.Join
import proofs.«137242_j37349035606739_2_alg».proof.Proof.Finite
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The kernel program, word by word, terminates without a fault and leaves its arguments as they were. -/
theorem frame_k : Cert.frame_Kernel := fun m ρ _ => Cert.Kernel.Fr.frame (F := Bits) m ρ

/-- So does its reading on the extended reals. -/
theorem frame_ki : Cert.frame_KernelIdeal := fun m ρ _ => Cert.KernelIdeal.Fr.frame (F := Ideal) m ρ

/-- The reference terminates without a fault and leaves its arguments as they were: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals, from memories agreeing on finite arguments, both programs run and end with the same
    result: the kernel's arrangement of the arguments is the reference's. -/
theorem algebraic : Cert.algebraic_KernelIdeal_ReferenceIdeal := by
  intro m ρ m' ρ' hpre hagree
  refine ⟨fun c => Cert.KernelIdeal.Fr.W11 (F := Ideal) m ρ c (Proc.devRef .tc Cert.KernelIdeal.main_v37), ?_, ?_⟩
  · exact (θ_run Cert.KernelIdeal.defs _ _).mono (fun r h c => ⟨h c _ (Cert.KernelIdeal.Fr.mem_uc Cert.KernelIdeal.main_v37 (by decide)),
      (h c _ (Cert.KernelIdeal.Fr.mem_uc Cert.KernelIdeal.main_arg0 (by decide))).trans (Cert.KernelIdeal.Fr.W11_main_arg0 m ρ c),
      (h c _ (Cert.KernelIdeal.Fr.mem_uc Cert.KernelIdeal.main_arg1 (by decide))).trans (Cert.KernelIdeal.Fr.W11_main_arg1 m ρ c),
      (h c _ (Cert.KernelIdeal.Fr.mem_uc Cert.KernelIdeal.main_arg2 (by decide))).trans (Cert.KernelIdeal.Fr.W11_main_arg2 m ρ c),
      (h c _ (Cert.KernelIdeal.Fr.mem_uc Cert.KernelIdeal.main_arg3 (by decide))).trans (Cert.KernelIdeal.Fr.W11_main_arg3 m ρ c),
      (h c _ (Cert.KernelIdeal.Fr.mem_uc Cert.KernelIdeal.main_arg4 (by decide))).trans (Cert.KernelIdeal.Fr.W11_main_arg4 m ρ c),
      (h c _ (Cert.KernelIdeal.Fr.mem_uc Cert.KernelIdeal.main_arg5 (by decide))).trans (Cert.KernelIdeal.Fr.W11_main_arg5 m ρ c),
      (h c _ (Cert.KernelIdeal.Fr.mem_uc Cert.KernelIdeal.main_arg6 (by decide))).trans (Cert.KernelIdeal.Fr.W11_main_arg6 m ρ c),
      (h c _ (Cert.KernelIdeal.Fr.mem_uc Cert.KernelIdeal.main_arg7 (by decide))).trans (Cert.KernelIdeal.Fr.W11_main_arg7 m ρ c),
      (h c _ (Cert.KernelIdeal.Fr.mem_uc Cert.KernelIdeal.main_arg8 (by decide))).trans (Cert.KernelIdeal.Fr.W11_main_arg8 m ρ c),
      (h c _ (Cert.KernelIdeal.Fr.mem_uc Cert.KernelIdeal.main_arg9 (by decide))).trans (Cert.KernelIdeal.Fr.W11_main_arg9 m ρ c),
      (h c _ (Cert.KernelIdeal.Fr.mem_uc Cert.KernelIdeal.main_arg10 (by decide))).trans (Cert.KernelIdeal.Fr.W11_main_arg10 m ρ c)⟩)
      (Cert.KernelIdeal.Fr.run_all (F := Ideal) m ρ)
  · refine (θ_run Cert.ReferenceIdeal.defs _ _).mono (fun _ h c => ⟨(h c).1.trans ?_, (h c).2⟩) (Cert.ReferenceIdeal.Value.run (F := Ideal) m' ρ')
    funext i
    obtain ⟨b, s, e, rfl⟩ : ∃ (b : Fin 4) (s : Fin 2048) (e : Fin 1024), i = ValueIdx.ix3 b s e := ⟨i 0, i 1, i 2, ValueIdx.eq_ix3 i⟩
    obtain ⟨r0, r1, r2, r3, r4, r5, r6, r7, r8, r9, r10⟩ := Cert.Finite.real_of_pre _ _ _ _ _ _ _ _ _ _ _ (hpre c)
    obtain ⟨g0, g1, g2, g3, g4, g5, g6, g7, g8, g9, g10⟩ := hagree c
    refine (Cert.ReferenceIdeal.RefValue.result_at m' c b s e).trans ?_
    rw [g0, g1, g2, g3, g4, g5, g6, g7, g8, g9, g10]
    have hJ := Cert.Attn.outKer_eq_outRef (Cert.Attn.actOf (m ((c.tc : Thread Cert.KernelIdeal.nD Cert.KernelIdeal.τ).loc Cert.KernelIdeal.main_arg0))) (Cert.Attn.actOf (m ((c.tc : Thread Cert.KernelIdeal.nD Cert.KernelIdeal.τ).loc Cert.KernelIdeal.main_arg1))) (Cert.Attn.actOf (m ((c.tc : Thread Cert.KernelIdeal.nD Cert.KernelIdeal.τ).loc Cert.KernelIdeal.main_arg2)))
      (Cert.Attn.wtOf (m ((c.tc : Thread Cert.KernelIdeal.nD Cert.KernelIdeal.τ).loc Cert.KernelIdeal.main_arg3))) (Cert.Attn.biasOf (m ((c.tc : Thread Cert.KernelIdeal.nD Cert.KernelIdeal.τ).loc Cert.KernelIdeal.main_arg4))) (Cert.Attn.wtOf (m ((c.tc : Thread Cert.KernelIdeal.nD Cert.KernelIdeal.τ).loc Cert.KernelIdeal.main_arg5))) (Cert.Attn.biasOf (m ((c.tc : Thread Cert.KernelIdeal.nD Cert.KernelIdeal.τ).loc Cert.KernelIdeal.main_arg6)))
      (Cert.Attn.wtOf (m ((c.tc : Thread Cert.KernelIdeal.nD Cert.KernelIdeal.τ).loc Cert.KernelIdeal.main_arg7))) (Cert.Attn.biasOf (m ((c.tc : Thread Cert.KernelIdeal.nD Cert.KernelIdeal.τ).loc Cert.KernelIdeal.main_arg8))) (Cert.Attn.wtOf (m ((c.tc : Thread Cert.KernelIdeal.nD Cert.KernelIdeal.τ).loc Cert.KernelIdeal.main_arg9))) (Cert.Attn.biasOf (m ((c.tc : Thread Cert.KernelIdeal.nD Cert.KernelIdeal.τ).loc Cert.KernelIdeal.main_arg10)))
      (fun b s k => r0 _) (fun b s k => r1 _) (fun b s k => r2 _) (fun e k => r3 _) (fun e => r4 _) (fun e k => r5 _) (fun e => r6 _) (fun e k => r7 _) (fun e => r8 _)
    exact (congrFun (congrFun (congrFun hJ b) s) e).symm.trans (Cert.KernelIdeal.Fr.ker_result_at m ρ c b s e).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
